-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x96x96 : Shape := ⟨4, ![16, 256, 96, 96]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S16x256x96x96 : S_.BroadcastsInDim S16x256x96x96 (![] : Fin 0 → Fin S16x256x96x96.rank)
  reducesTo_S16x256x96x96_S_d0_1_2_3 : S16x256x96x96.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x96x96 .f32) (main_arg1 : FVec F S32x256 .f32) (main_arg2 : FVec F S32 .f32) (main_arg3 : FVec F S256x32 .f32) (main_arg4 : FVec F S256 .f32) : IVec S_ 1 :=
  let main_v0 : FVec F S16x256x96x96 .f32 := Host.absf main_arg0
  let main_cst : FVec F S_ .f32 := constant S_ .f32 0x7F800000#32
  let main_v1 : FVec F S16x256x96x96 .f32 := broadcastInDim S16x256x96x96 ![] bcast_S_S16x256x96x96 main_cst
  let main_v2 : IVec S16x256x96x96 1 := cmpf .olt main_v0 main_v1
  let main_c : IVec S_ 1 := constantI S_ 1 1#1
  let main_v3 : IVec S_ 1 := (fun x v => Host.reduce IntOp.andi x v reducesTo_S16x256x96x96_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S16x256x96x96 : Shape := ⟨4, ![16, 256, 96, 96]⟩
abbrev S32x256 : Shape := ⟨2, ![32, 256]⟩
abbrev S32 : Shape := ⟨1, ![32]⟩
abbrev S256x32 : Shape := ⟨2, ![256, 32]⟩
abbrev S256 : Shape := ⟨1, ![256]⟩
abbrev S16x256x9216 : Shape := ⟨3, ![16, 256, 9216]⟩
abbrev S1x256x9216 : Shape := ⟨3, ![1, 256, 9216]⟩
abbrev S256x1 : Shape := ⟨2, ![256, 1]⟩
abbrev S1x256x1152 : Shape := ⟨3, ![1, 256, 1152]⟩
abbrev S256x1152 : Shape := ⟨2, ![256, 1152]⟩
abbrev S256x256 : Shape := ⟨2, ![256, 256]⟩
abbrev S1 : Shape := ⟨1, ![1]⟩
abbrev S1x1 : Shape := ⟨2, ![1, 1]⟩
abbrev S1x256 : Shape := ⟨2, ![1, 256]⟩
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S16x256x96x96, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S16x256x9216, .f32⟩
  | .hbm, ⟨6, _⟩ => ⟨S16x256x9216, .f32⟩
  | .hbm, ⟨7, _⟩ => ⟨S16x256x96x96, .f32⟩
  | .local _ .vmem, ⟨0, _⟩ => ⟨S1x256x9216, .f32⟩
  | .local _ .vmem, ⟨1, _⟩ => ⟨S1x256x9216, .f32⟩
  | .local _ .vmem, ⟨2, _⟩ => ⟨S32x256, .f32⟩
  | .local _ .vmem, ⟨3, _⟩ => ⟨S32, .f32⟩
  | .local _ .vmem, ⟨4, _⟩ => ⟨S256x32, .f32⟩
  | .local _ .vmem, ⟨5, _⟩ => ⟨S256, .f32⟩
  | .local _ .vmem, ⟨6, _⟩ => ⟨S1x256x9216, .f32⟩
  | .local _ .vmem, ⟨7, _⟩ => ⟨S1x256x9216, .f32⟩
  | _, _ => ⟨S16x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1152_i32 : BitVec 32 := 1152#32
  let v74 : BitVec 32 := Scalar.muli arg7 c1152_i32
  v74
def k0_off1 (k0_t1 : Fin k0_t1_loop.trips) : Fin 3 → Nat :=
  let c0_44 : Index := 0#32
  let c0_45 : Index := 0#32
  let c0_i32 : BitVec 32 := 0#32
  let c1_i32 : BitVec 32 := 1#32
  let arg7 : BitVec 32 := Scf.iv c0_i32 c1_i32 k0_t1
  let c1152_i32 : BitVec 32 := 1152#32
  let v74 : BitVec 32 := Scalar.muli arg7 c1152_i32
  let v75 : BitVec 32 := v74
  let v76 : Index := Scalar.indexCast v75
  ![0, 0, v76.toNat]
@[reducible] def k0_t2_loop : Scf.Loop 32 :=
  let c0_i32_3 : BitVec 32 := 0#32
  let c8_i32_4 : BitVec 32 := 8#32
  let v6 : BitVec 32 := Scalar.addi c0_i32_3 c8_i32_4
  let c1_i32_5 : BitVec 32 := 1#32
  ⟨c0_i32_3, v6, c1_i32_5⟩
def k0_mult2 (k0_t2 : Fin k0_t2_loop.trips) : BitVec 32 :=
  let c0_i32_3 : BitVec 32 := 0#32
  let c1_i32_5 : BitVec 32 := 1#32
  let arg7 : BitVec 32 := Scf.iv c0_i32_3 c1_i32_5 k0_t2
  let c1152_i32 : BitVec 32 := 1152#32
  let v74 : BitVec 32 := Scalar.muli arg7 c1152_i32
  v74
def k0_off2 (k0_t2 : Fin k0_t2_loop.trips) : Fin 3 → Nat :=
  let c0_44 : Index := 0#32
  let c0_45 : Index := 0#32
  let c0_i32_3 : BitVec 32 := 0#32
  let c1_i32_5 : BitVec 32 := 1#32
  let arg7 : BitVec 32 := Scf.iv c0_i32_3 c1_i32_5 k0_t2
  let c1152_i32 : BitVec 32 := 1152#32
  let v74 : BitVec 32 := Scalar.muli arg7 c1152_i32
  let v75 : BitVec 32 := v74
  let v76 : Index := Scalar.indexCast v75
  ![0, 0, v76.toNat]
@[reducible] def k0_t3_loop : Scf.Loop 32 :=
  let c0_i32_40 : BitVec 32 := 0#32
  let c8_i32_41 : BitVec 32 := 8#32
  let v73 : BitVec 32 := Scalar.addi c0_i32_40 c8_i32_41
  let c1_i32_42 : BitVec 32 := 1#32
  ⟨c0_i32_40, v73, c1_i32_42⟩
def k0_mult3 (k0_t3 : Fin k0_t3_loop.trips) : BitVec 32 :=
  let c0_i32_45 : BitVec 32 := 0#32
  let c0_i32_40 : BitVec 32 := 0#32
  let c1_i32_42 : BitVec 32 := 1#32
  let arg7 : BitVec 32 := Scf.iv c0_i32_40 c1_i32_42 k0_t3
  let c1_i32_44 : BitVec 32 := 1#32
  let v74 : BitVec 32 := Scalar.muli arg7 c1_i32_44
  let v75 : BitVec 32 := Scalar.addi c0_i32_45 v74
  let c1152_i32 : BitVec 32 := 1152#32
  let v76 : BitVec 32 := Scalar.muli v75 c1152_i32
  v76
def k0_off3 (k0_t3 : Fin k0_t3_loop.trips) : Fin 3 → Nat :=
  let c0_46 : Index := 0#32
  let c0_47 : Index := 0#32
  let c0_i32_45 : BitVec 32 := 0#32
  let c0_i32_40 : BitVec 32 := 0#32
  let c1_i32_42 : BitVec 32 := 1#32
  let arg7 : BitVec 32 := Scf.iv c0_i32_40 c1_i32_42 k0_t3
  let c1_i32_44 : BitVec 32 := 1#32
  let v74 : BitVec 32 := Scalar.muli arg7 c1_i32_44
  let v75 : BitVec 32 := Scalar.addi c0_i32_45 v74
  let c1152_i32 : BitVec 32 := 1152#32
  let v76 : BitVec 32 := Scalar.muli v75 c1152_i32
  let v77 : BitVec 32 := v76
  let v78 : Index := Scalar.indexCast v77
  ![0, 0, v78.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x9216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x256x96x96_S16x256x9216 : S16x256x96x96.ShapeCasts S16x256x9216
  h_S1x256x1152 : 0 < S1x256x1152.numel
  shapeCasts_S1x256x1152_S256x1152 : S1x256x1152.ShapeCasts S256x1152
  reduces_S256x1152_S256 : S256x1152.Reduces [1] S256
  shapeCasts_S256_S256x1 : S256.ShapeCasts S256x1
  broadcasts_S256x1_S256x1152 : S256x1.Broadcasts S256x1152
  bitsLt_bf16_f32 : FTy.bits .bf16 < FTy.bits .f32
  iota_S256x256_d0_w32 : S256x256.Iotas .tc 32 [0]
  iota_S256x256_d1_w32 : S256x256.Iotas .tc 32 [1]
  reduces_S256x256_S256 : S256x256.Reduces [1] S256
  reduces_S256x1_S1 : S256x1.Reduces [0] S1
  shapeCasts_S1_S1x1 : S1.ShapeCasts S1x1
  broadcasts_S1x1_S256x256 : S1x1.Broadcasts S256x256
  reduces_S256x256_S256_2 : S256x256.Reduces [0] S256
  shapeCasts_S256_S1x256 : S256.ShapeCasts S1x256
  inb_S32x256_S32x256_0_0 : ∀ a, (![0, 0] : Fin 2 → Nat) a + S32x256.size a ≤ S32x256.size a
  h_S32x256 : 0 < S32x256.numel
  inb_S32_S32_0 : ∀ a, (![0] : Fin 1 → Nat) a + S32.size a ≤ S32.size a
  h_S32 : 0 < S32.numel
  inb_S256x32_S256x32_0_0 : ∀ a, (![0, 0] : Fin 2 → Nat) a + S256x32.size a ≤ S256x32.size a
  h_S256x32 : 0 < S256x32.numel
  inb_S256_S256_0 : ∀ a, (![0] : Fin 1 → Nat) a + S256.size a ≤ S256.size a
  h_S256 : 0 < S256.numel
  shapeCasts_S32_S1x32 : S32.ShapeCasts S1x32
  transposes_S1x256_p1_0_S256x1 : S1x256.Transposes [1, 0] S256x1
  shapeCasts_S256x1152_S1x256x1152 : S256x1152.ShapeCasts S1x256x1152
  shapeCasts_S16x256x9216_S16x256x96x96 : S16x256x9216.ShapeCasts S16x256x96x96
  dot_S256x1152_S256x1152_S256x256_1_1_0_0_n_n_wf : DotDims.WF S256x1152 S256x1152 S256x256 [1] [1] [0] [0] [] []
  dot_S256x256_S256x256_S256x256_1_0_0_1_n_n_wf : DotDims.WF S256x256 S256x256 S256x256 [1] [0] [0] [1] [] []
  dot_S1x256_S32x256_S1x32_1_1_0_0_n_n_wf : DotDims.WF S1x256 S32x256 S1x32 [1] [1] [0] [0] [] []
  dot_S1x32_S256x32_S1x256_1_1_0_0_n_n_wf : DotDims.WF S1x32 S256x32 S1x256 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x256x1152.size a ≤ S1x256x9216.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S1x256x1152.size a ≤ S1x256x9216.size a
  k0_t3_ok : k0_t3_loop.OK
  k0_mult3_dvd : ∀ k0_t3 : Fin k0_t3_loop.trips, 128 ∣ (k0_mult3 k0_t3).toNat
  k0_off3_inb : ∀ k0_t3 : Fin k0_t3_loop.trips, ∀ a, (k0_off3 k0_t3) a + S1x256x1152.size a ≤ S1x256x9216.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x9216.size a ≤ S16x256x9216.size a
  hwx0_0 : ∀ i : grid0.Coords, EltTy.bits .f32 = 32 ∨ (Rect.block (s := S16x256x9216) S1x256x9216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x9216.size a ≤ S16x256x9216.size a
  hwx0_5 : ∀ i : grid0.Coords, EltTy.bits .f32 = 32 ∨ (Rect.block (s := S16x256x9216) S1x256x9216.size (cc0_transform_5 i) (hinb0_5 i)).WholeWords (EltTy.packing .f32)

variable [Facts₀]

def dot_S256x1152_S256x1152_S256x256_1_1_0_0_n_n : DotDims S256x1152 S256x1152 S256x256 where
  lhsContracting := [1]
  rhsContracting := [1]
  lhsNonContracting := [0]
  rhsNonContracting := [0]
  lhsBatch := []
  rhsBatch := []
  wf := dot_S256x1152_S256x1152_S256x256_1_1_0_0_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1x256_S32x256_S1x32_1_1_0_0_n_n : DotDims S1x256 S32x256 S1x32 where
  lhsContracting := [1]
  rhsContracting := [1]
  lhsNonContracting := [0]
  rhsNonContracting := [0]
  lhsBatch := []
  rhsBatch := []
  wf := dot_S1x256_S32x256_S1x32_1_1_0_0_n_n_wf
def dot_S1x32_S256x32_S1x256_1_1_0_0_n_n : DotDims S1x32 S256x32 S1x256 where
  lhsContracting := [1]
  rhsContracting := [1]
  lhsNonContracting := [0]
  rhsNonContracting := [0]
  lhsBatch := []
  rhsBatch := []
  wf := dot_S1x32_S256x32_S1x256_1_1_0_0_n_n_wf

abbrev win0_0 : Pipeline.Window sig grid0 :=
  Pipeline.Window.ofSpec (Memref.whole main_v0) S1x256x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256x9216.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x96x96 : Shape := ⟨4, ![16, 256, 96, 96]⟩
abbrev S32x256 : Shape := ⟨2, ![32, 256]⟩
abbrev S32 : Shape := ⟨1, ![32]⟩
abbrev S256x32 : Shape := ⟨2, ![256, 32]⟩
abbrev S256 : Shape := ⟨1, ![256]⟩
abbrev S16x256x9216 : Shape := ⟨3, ![16, 256, 9216]⟩
abbrev S_ : Shape := ⟨0, ![]⟩
abbrev S16x256 : Shape := ⟨2, ![16, 256]⟩
abbrev S16x256x1 : Shape := ⟨3, ![16, 256, 1]⟩
abbrev S16x256x256 : Shape := ⟨3, ![16, 256, 256]⟩
abbrev S256x256 : Shape := ⟨2, ![256, 256]⟩
abbrev S16 : Shape := ⟨1, ![16]⟩
abbrev S16x1x1 : Shape := ⟨3, ![16, 1, 1]⟩
abbrev S1x256x256 : Shape := ⟨3, ![1, 256, 256]⟩
abbrev S16x32 : Shape := ⟨2, ![16, 32]⟩
abbrev S1x32 : Shape := ⟨2, ![1, 32]⟩
abbrev S1x256 : Shape := ⟨2, ![1, 256]⟩
abbrev S16x256x1x1 : Shape := ⟨4, ![16, 256, 1, 1]⟩

abbrev nBuf : Space → Nat
  | .hbm => 117
  | .vmem => 0
  | .smem => 0
  | _ => 0

abbrev bufTy : (tb : Table) → Fin (tcTables nBuf tb) → BufTy
  | .hbm, ⟨0, _⟩ => ⟨S16x256x96x96, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S16x256x9216, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S16x256x9216, .f32⟩
  | .hbm, ⟨13, _⟩ => ⟨S16x256x9216, .f32⟩
  | .hbm, ⟨14, _⟩ => ⟨S16x256x256, .f32⟩
  | .hbm, ⟨15, _⟩ => ⟨S_, .f32⟩
  | .hbm, ⟨16, _⟩ => ⟨S16x256x256, .f32⟩
  | .hbm, ⟨17, _⟩ => ⟨S16x256x256, .f32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S_, .f32⟩
  | .hbm, ⟨35, _⟩ => ⟨S16x256x256, .f32⟩
  | .hbm, ⟨36, _⟩ => ⟨S16x256x256, .i1⟩
  | .hbm, ⟨37, _⟩ => ⟨S16x256x256, .f32⟩
  | .hbm, ⟨38, _⟩ => ⟨S_, .f32⟩
  | .hbm, ⟨39, _⟩ => ⟨S16, .f32⟩
  | .hbm, ⟨40, _⟩ => ⟨S16x1x1, .f32⟩
  | .hbm, ⟨41, _⟩ => ⟨S16x256x256, .f32⟩
  | .hbm, ⟨42, _⟩ => ⟨S16x256x256, .f32⟩
  | .hbm, ⟨43, _⟩ => ⟨S1x256x256, .f32⟩
  | .hbm, ⟨44, _⟩ => ⟨S16x256x256, .f32⟩
  | .hbm, ⟨45, _⟩ => ⟨S16x256x256, .f32⟩
  | .hbm, ⟨46, _⟩ => ⟨S_, .f32⟩
  | .hbm, ⟨47, _⟩ => ⟨S16x256x256, .f32⟩
  | .hbm, ⟨48, _⟩ => ⟨S16x256x256, .f32⟩
  | .hbm, ⟨49, _⟩ => ⟨S16x256x256, .f32⟩
  | .hbm, ⟨50, _⟩ => ⟨S16x256x256, .f32⟩
  | .hbm, ⟨51, _⟩ => ⟨S1x256x256, .f32⟩
  | .hbm, ⟨52, _⟩ => ⟨S16x256x256, .f32⟩
  | .hbm, ⟨53, _⟩ => ⟨S16x256x256, .f32⟩
  | .hbm, ⟨54, _⟩ => ⟨S_, .f32⟩
  | .hbm, ⟨55, _⟩ => ⟨S16x256x256, .f32⟩
  | .hbm, ⟨56, _⟩ => ⟨S16x256x256, .f32⟩
  | .hbm, ⟨57, _⟩ => ⟨S16x256x256, .f32⟩
  | .hbm, ⟨58, _⟩ => ⟨S16x256x256, .f32⟩
  | .hbm, ⟨59, _⟩ => ⟨S16x256x256, .f32⟩
  | .hbm, ⟨60, _⟩ => ⟨S1x256x256, .f32⟩
  | .hbm, ⟨61, _⟩ => ⟨S16x256x256, .f32⟩
  | .hbm, ⟨62, _⟩ => ⟨S16x256x256, .f32⟩
  | .hbm, ⟨63, _⟩ => ⟨S_, .f32⟩
  | .hbm, ⟨64, _⟩ => ⟨S16x256x256, .f32⟩
  | .hbm, ⟨65, _⟩ => ⟨S16x256x256, .f32⟩
  | .hbm, ⟨66, _⟩ => ⟨S16x256x256, .f32⟩
  | .hbm, ⟨67, _⟩ => ⟨S16x256x256, .f32⟩
  | .hbm, ⟨68, _⟩ => ⟨S16x256x256, .f32⟩
  | .hbm, ⟨69, _⟩ => ⟨S1x256x256, .f32⟩
  | .hbm, ⟨70, _⟩ => ⟨S16x256x256, .f32⟩
  | .hbm, ⟨71, _⟩ => ⟨S16x256x256, .f32⟩
  | .hbm, ⟨72, _⟩ => ⟨S_, .f32⟩
  | .hbm, ⟨73, _⟩ => ⟨S16x256x256, .f32⟩
  | .hbm, ⟨74, _⟩ => ⟨S16x256x256, .f32⟩
  | .hbm, ⟨75, _⟩ => ⟨S16x256x256, .f32⟩
  | .hbm, ⟨76, _⟩ => ⟨S16x256x256, .f32⟩
  | .hbm, ⟨77, _⟩ => ⟨S16x256x256, .f32⟩
  | .hbm, ⟨78, _⟩ => ⟨S1x256x256, .f32⟩
  | .hbm, ⟨79, _⟩ => ⟨S16x256x256, .f32⟩
  | .hbm, ⟨80, _⟩ => ⟨S16x256x256, .f32⟩
  | .hbm, ⟨81, _⟩ => ⟨S16x256x256, .f32⟩
  | .hbm, ⟨82, _⟩ => ⟨S_, .f32⟩
  | .hbm, ⟨83, _⟩ => ⟨S16x256x256, .f32⟩
  | .hbm, ⟨84, _⟩ => ⟨S16x256x256, .f32⟩
  | .hbm, ⟨85, _⟩ => ⟨S16x1x1, .f32⟩
  | .hbm, ⟨86, _⟩ => ⟨S16x256x256, .f32⟩
  | .hbm, ⟨87, _⟩ => ⟨S16x256x256, .f32⟩
  | .hbm, ⟨88, _⟩ => ⟨S_, .f32⟩
  | .hbm, ⟨89, _⟩ => ⟨S16x256, .f32⟩
  | .hbm, ⟨90, _⟩ => ⟨S_, .f32⟩
  | .hbm, ⟨91, _⟩ => ⟨S16x256, .f32⟩
  | .hbm, ⟨92, _⟩ => ⟨S16x256, .f32⟩
  | .hbm, ⟨93, _⟩ => ⟨S256x32, .f32⟩
  | .hbm, ⟨94, _⟩ => ⟨S16x32, .f32⟩
  | .hbm, ⟨95, _⟩ => ⟨S1x32, .f32⟩
  | .hbm, ⟨96, _⟩ => ⟨S16x32, .f32⟩
  | .hbm, ⟨97, _⟩ => ⟨S16x32, .f32⟩
  | .hbm, ⟨98, _⟩ => ⟨S_, .f32⟩
  | .hbm, ⟨99, _⟩ => ⟨S16x32, .f32⟩
  | .hbm, ⟨100, _⟩ => ⟨S16x32, .f32⟩
  | .hbm, ⟨101, _⟩ => ⟨S32x256, .f32⟩
  | .hbm, ⟨102, _⟩ => ⟨S16x256, .f32⟩
  | .hbm, ⟨103, _⟩ => ⟨S1x256, .f32⟩
  | .hbm, ⟨104, _⟩ => ⟨S16x256, .f32⟩
  | .hbm, ⟨105, _⟩ => ⟨S16x256, .f32⟩
  | .hbm, ⟨106, _⟩ => ⟨S16x256, .f32⟩
  | .hbm, ⟨107, _⟩ => ⟨S16x256, .f32⟩
  | .hbm, ⟨108, _⟩ => ⟨S_, .f32⟩
  | .hbm, ⟨109, _⟩ => ⟨S16x256, .f32⟩
  | .hbm, ⟨110, _⟩ => ⟨S16x256, .f32⟩
  | .hbm, ⟨111, _⟩ => ⟨S_, .f32⟩
  | .hbm, ⟨112, _⟩ => ⟨S16x256, .f32⟩
  | .hbm, ⟨113, _⟩ => ⟨S16x256, .f32⟩
  | .hbm, ⟨114, _⟩ => ⟨S16x256x1x1, .f32⟩
  | .hbm, ⟨115, _⟩ => ⟨S16x256x96x96, .f32⟩
  | .hbm, ⟨116, _⟩ => ⟨S16x256x96x96, .f32⟩
  | _, _ => ⟨S16x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_c : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_call0_call0_v0 : Ref sig .tc := ⟨.hbm, 36, rfl⟩
abbrev main_call0_v6 : Ref sig .tc := ⟨.hbm, 37, rfl⟩
abbrev main_call0_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_10 : Ref sig .tc := ⟨.hbm, 108, rfl⟩
abbrev main_v78 : Ref sig .tc := ⟨.hbm, 109, rfl⟩
abbrev main_v79 : Ref sig .tc := ⟨.hbm, 110, rfl⟩
abbrev main_cst_11 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  shapeCasts_S16x256x96x96_S16x256x9216 : S16x256x96x96.ShapeCasts S16x256x9216
  reducesTo_S16x256x9216_S16x256_d2 : S16x256x9216.ReducesTo [2] S16x256
  h_S_ : 0 < S_.numel
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x9216_0_1_2 : S16x256x1.BroadcastsInDim S16x256x9216 (![0, 1, 2] : Fin 3 → Fin S16x256x9216.rank)
  bcast_S_S16x256x256 : S_.BroadcastsInDim S16x256x256 (![] : Fin 0 → Fin S16x256x256.rank)
  bcast_S_S256x256 : S_.BroadcastsInDim S256x256 (![] : Fin 0 → Fin S256x256.rank)
  bcast_S256x256_S16x256x256_1_2 : S256x256.BroadcastsInDim S16x256x256 (![1, 2] : Fin 2 → Fin S16x256x256.rank)
  reducesTo_S16x256x256_S16_d1_2 : S16x256x256.ReducesTo [1, 2] S16
  bcast_S16_S16x1x1_0 : S16.BroadcastsInDim S16x1x1 (![0] : Fin 1 → Fin S16x1x1.rank)
  bcast_S16x1x1_S16x256x256_0_1_2 : S16x1x1.BroadcastsInDim S16x256x256 (![0, 1, 2] : Fin 3 → Fin S16x256x256.rank)
  bcast_S256x256_S1x256x256_1_2 : S256x256.BroadcastsInDim S1x256x256 (![1, 2] : Fin 2 → Fin S1x256x256.rank)
  bcast_S1x256x256_S16x256x256_0_1_2 : S1x256x256.BroadcastsInDim S16x256x256 (![0, 1, 2] : Fin 3 → Fin S16x256x256.rank)
  reducesTo_S16x256x256_S16x256_d1 : S16x256x256.ReducesTo [1] S16x256
  bcast_S_S16x256 : S_.BroadcastsInDim S16x256 (![] : Fin 0 → Fin S16x256.rank)
  transposes_S32x256_S256x32_1_0 : S32x256.Transposes [1, 0] S256x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  transposes_S256x32_S32x256_1_0 : S256x32.Transposes [1, 0] S32x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x96x96_0_1_2_3 : S16x256x1x1.BroadcastsInDim S16x256x96x96 (![0, 1, 2, 3] : Fin 4 → Fin S16x256x96x96.rank)
  dot_S16x256x9216_S16x256x9216_S16x256x256_2_2_1_1_0_0_wf : DotDims.WF S16x256x9216 S16x256x9216 S16x256x256 [2] [2] [1] [1] [0] [0]
  dot_S16x256x256_S16x256x256_S16x256x256_2_1_1_2_0_0_wf : DotDims.WF S16x256x256 S16x256x256 S16x256x256 [2] [1] [1] [2] [0] [0]
  dot_S16x256_S256x32_S16x32_1_0_0_1_n_n_wf : DotDims.WF S16x256 S256x32 S16x32 [1] [0] [0] [1] [] []
  dot_S16x32_S32x256_S16x256_1_0_0_1_n_n_wf : DotDims.WF S16x32 S32x256 S16x256 [1] [0] [0] [1] [] []

variable [Facts₀]

def dot_S16x256x9216_S16x256x9216_S16x256x256_2_2_1_1_0_0 : DotDims S16x256x9216 S16x256x9216 S16x256x256 where
  lhsContracting := [2]
  rhsContracting := [2]
  lhsNonContracting := [1]
  rhsNonContracting := [1]
  lhsBatch := [0]
  rhsBatch := [0]
  wf := dot_S16x256x9216_S16x256x9216_S16x256x256_2_2_1_1_0_0_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf
def dot_S16x256_S256x32_S16x32_1_0_0_1_n_n : DotDims S16x256 S256x32 S16x32 where
  lhsContracting := [1]
  rhsContracting := [0]
  lhsNonContracting := [0]
  rhsNonContracting := [1]
  lhsBatch := []
  rhsBatch := []
  wf := dot_S16x256_S256x32_S16x32_1_0_0_1_n_n_wf
def dot_S16x32_S32x256_S16x256_1_0_0_1_n_n : DotDims S16x32 S32x256 S16x256 where
  lhsContracting := [1]
  rhsContracting := [0]
  lhsNonContracting := [0]
  rhsNonContracting := [1]
  lhsBatch := []
  rhsBatch := []
  wf := dot_S16x32_S32x256_S16x256_1_0_0_1_n_n_wf

class Facts : Prop extends Facts₀ where

variable [Facts]
-- ==== Proof.KTrip.lean ====
/-
  The kernel body's three chunk loops, read as values (any float instance). One trip of the first loop adds
  the lane sums of one 1152-column chunk of the block onto the carried column; one trip of the second adds the
  chunk's centred self-product onto the carried [256, 256] matrix; one trip of the third stores the chunk
  scaled row by row by the gate column. Here: what each trip yields or stores (read off the run once), the
  carried values after n trips as plain recursions over the chunks (`sumAcc`, `prodAcc`), the gate column the
  third loop is entered with (`gateCol`), and that the output block the body leaves is ANY function G of the
  block index of which every stored chunk is the restriction.
-/
import proofs.«169248_j41953240547848_2_alg».proof.Proof.Gen.KernelIdeal.Frame
import Idealize.ShloMosaic.Lib.Pipeline.Value
import Idealize.ShloMosaic.Lib.WholeRead
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]

/-- Columns `off 2 … off 2 + 1151` of a block, as a load through that rectangle reads them. -/
def ldChunk (x0 : Vec F S1x256x9216 .f32) (off : Fin 3 → Nat)
    (inb : ∀ a, off a + S1x256x1152.size a ≤ S1x256x9216.size a) : Vec F S1x256x1152 .f32 :=
  fun j => x0 ((Rect.unit (s := S1x256x9216) off S1x256x1152.size inb).toLoadRect.idx j)

/-- A load of a chunk from the whole staging buffer holding the block reads the block's chunk. -/
theorem readAt_chunk (arg1 : Memref sig .tc .vmem S1x256x9216 .f32) (harg1 : arg1.IsWhole) (x0 : Vec F S1x256x9216 .f32)
    (off : Fin 3 → Nat) (inb : ∀ a, off a + S1x256x1152.size a ≤ S1x256x9216.size a) :
    View.readAt (Elt F) arg1.view (Rect.unit (s := S1x256x9216) off S1x256x1152.size inb).toLoadRect (harg1.unread x0)
      = ldChunk x0 off inb :=
  funext fun j => harg1.readAt_unread x0 _ j

/-- One trip of the row-sum loop yields the carried column plus the chunk's lane sums. -/
theorem tripR1_eq (𝒱 : Variants) (c : Dev nD) (bd : Option 𝒱.V) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole)
    (X : BufTy.Contents (Elt F) arg1.view.ty) (k : Fin k0_t1_loop.trips) (acc : FVec F S256x1 .f32) :
    tripR_k0_t1 (F := F) 𝒱 c bd i arg1 harg1 arg2 harg2 arg3 harg3 arg4 harg4 arg5 harg5 arg6 harg6 X k acc
      = k0_pay3 acc (View.readAt (Elt F) arg1.view (Rect.unit (s := S1x256x9216) (k0_off1 k) S1x256x1152.size (k0_off1_inb k)).toLoadRect X) := by
  unfold tripR_k0_t1 trip_k0_t1
  rfl

/-- One trip of the covariance loop yields the carried matrix plus the centred chunk's self-product. -/
theorem tripR2_eq (𝒱 : Variants) (c : Dev nD) (bd : Option 𝒱.V) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole)
    (v2 : FVec F S256x1 .f32) (X : BufTy.Contents (Elt F) arg1.view.ty) (k : Fin k0_t2_loop.trips) (acc : FVec F S256x256 .f32) :
    tripR_k0_t2 (F := F) 𝒱 c bd i arg1 harg1 arg2 harg2 arg3 harg3 arg4 harg4 arg5 harg5 arg6 harg6 v2 X k acc
      = k0_pay5 v2 acc (View.readAt (Elt F) arg1.view (Rect.unit (s := S1x256x9216) (k0_off2 k) S1x256x1152.size (k0_off2_inb k)).toLoadRect X) := by
  unfold tripR_k0_t2 trip_k0_t2
  rfl

/-- One trip of the output loop stores, at the chunk's rectangle, the chunk scaled by the gate column. -/
theorem tripL3_eq (𝒱 : Variants) (c : Dev nD) (bd : Option 𝒱.V) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole)
    (v72 : FVec F S256x1 .f32) (X : BufTy.Contents (Elt F) arg1.view.ty) (k : Fin k0_t3_loop.trips) :
    tripL_k0_t3 (F := F) 𝒱 c bd i arg1 harg1 arg2 harg2 arg3 harg3 arg4 harg4 arg5 harg5 arg6 harg6 v72 X k
      = [⟨Rect.unit (s := S1x256x9216) (k0_off3 k) S1x256x1152.size (k0_off3_inb k),
          k0_pay1 v72 (View.readAt (Elt F) arg1.view (Rect.unit (s := S1x256x9216) (k0_off3 k) S1x256x1152.size (k0_off3_inb k)).toLoadRect X)⟩] := by
  unfold tripL_k0_t3 trip_k0_t3
  rfl

/-- The row-sum column after the first `n` chunks. -/
def sumAcc (x0 : Vec F S1x256x9216 .f32) : ℕ → FVec F S256x1 .f32
  | 0 => k0_pay2 (F := F)
  | n + 1 => if h : n < k0_t1_loop.trips then
      k0_pay3 (sumAcc x0 n) (ldChunk x0 (k0_off1 ⟨n, h⟩) (k0_off1_inb ⟨n, h⟩)) else sumAcc x0 n

/-- The covariance sum after the first `n` chunks, for a given column of row sums. -/
def prodAcc (v2 : FVec F S256x1 .f32) (x0 : Vec F S1x256x9216 .f32) : ℕ → FVec F S256x256 .f32
  | 0 => k0_pay4 (F := F)
  | n + 1 => if h : n < k0_t2_loop.trips then
      k0_pay5 v2 (prodAcc v2 x0 n) (ldChunk x0 (k0_off2 ⟨n, h⟩) (k0_off2_inb ⟨n, h⟩)) else prodAcc v2 x0 n

theorem st1_eq (c : Dev nD) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole) (x0 : Vec F S1x256x9216 .f32) (n : ℕ) :
    st_k0_t1 (F := F) Variants.none c none i arg1 harg1 arg2 harg2 arg3 harg3 arg4 harg4 arg5 harg5 arg6 harg6 (harg1.unread x0) (k0_pay2 (F := F)) n = sumAcc x0 n := by
  induction n with
  | zero => rfl
  | succ n ih =>
    rw [st_k0_t1.eq_2, sumAcc]
    unfold st_k0_t1Step
    by_cases h : n < k0_t1_loop.trips
    · rw [dif_pos h, dif_pos h, tripR1_eq, readAt_chunk, ih]
    · rw [dif_neg h, dif_neg h, ih]

theorem st2_eq (c : Dev nD) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole) (v2 : FVec F S256x1 .f32) (x0 : Vec F S1x256x9216 .f32) (n : ℕ) :
    st_k0_t2 (F := F) Variants.none c none i arg1 harg1 arg2 harg2 arg3 harg3 arg4 harg4 arg5 harg5 arg6 harg6 v2 (harg1.unread x0) (k0_pay4 (F := F)) n = prodAcc v2 x0 n := by
  induction n with
  | zero => rfl
  | succ n ih =>
    rw [st_k0_t2.eq_2, prodAcc]
    unfold st_k0_t2Step
    by_cases h : n < k0_t2_loop.trips
    · rw [dif_pos h, dif_pos h, tripR2_eq, readAt_chunk, ih]
    · rw [dif_neg h, dif_neg h, ih]

/-! ## The gate column and the output block -/

theorem hz2 : (![0, 0] : Fin 2 → Nat) = fun _ => 0 := funext fun a => by fin_cases a <;> rfl
theorem hz1 : (![0] : Fin 1 → Nat) = fun _ => 0 := funext fun a => by fin_cases a; rfl

/-- The gate column of a block: everything the body computes between the second loop and the third, from the
    accumulated covariance sum and the four weight blocks. -/
def gateCol (x0 : Vec F S1x256x9216 .f32) (x1 : Vec F S32x256 .f32) (x2 : Vec F S32 .f32) (x3 : Vec F S256x32 .f32) (x4 : Vec F S256 .f32) :
    FVec F S256x1 .f32 :=
  k0_pay16 (k0_pay8 (F := F)) (k0_pay9 (prodAcc (sumAcc x0 k0_t1_loop.trips) x0 k0_t2_loop.trips))
    (k0_pay14 (prodAcc (sumAcc x0 k0_t1_loop.trips) x0 k0_t2_loop.trips))
    (k0_pay15 (prodAcc (sumAcc x0 k0_t1_loop.trips) x0 k0_t2_loop.trips))
    (constant S256x256 .f32 0x00000000#32) x1 x2 x3 x4

/-- The value the third loop is entered with is the gate column of the blocks. -/
theorem r3_eq (c : Dev nD) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole)
    (x0 : Vec F S1x256x9216 .f32) (x1 : Vec F S32x256 .f32) (x2 : Vec F S32 .f32) (x3 : Vec F S256x32 .f32) (x4 : Vec F S256 .f32) :
    kernelRun0_A.sl.r_3 (F := F) c i arg1 harg1 arg2 harg2 arg3 harg3 arg4 harg4 arg5 harg5 arg6 harg6 x0 x1 x2 x3 x4 = gateCol x0 x1 x2 x3 x4 := by
  unfold kernelRun0_A.sl.r_3 kernelRun0_A.sl.r kernelRun0_A.sl.r_1 kernelRun0_A.sl.r_2 kernelRun0_A.sl.cst_19 gateCol
  simp only [View.readAt_eq_ld, harg2.read_unread, harg3.read_unread, harg4.read_unread, harg5.read_unread,
    View.ld_unit_zero (S := S32x256) hz2, View.ld_unit_zero (S := S256x32) hz2, View.ld_unit_zero (S := S32) hz1,
    View.ld_unit_zero (S := S256) hz1]
  rw [st1_eq, st2_eq]

/-- Every piece the third loop has stored after `n` trips is the restriction of one function `G` of the block
    index, if each chunk's scaled payload is. -/
theorem pb_pieces (c : Dev nD) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole) (v72 : FVec F S256x1 .f32) (x0 : Vec F S1x256x9216 .f32)
    (G : S1x256x9216.Idx → Elt F .f32)
    (hG : ∀ (k : Fin k0_t3_loop.trips) (y : S1x256x1152.Idx),
      k0_pay1 v72 (ldChunk x0 (k0_off3 k) (k0_off3_inb k)) y
        = G ((Rect.unit (s := S1x256x9216) (k0_off3 k) S1x256x1152.size (k0_off3_inb k)).emb y)) (n : ℕ) :
    ∀ p ∈ pb_k0_t3 (F := F) Variants.none c none i arg1 harg1 arg2 harg2 arg3 harg3 arg4 harg4 arg5 harg5 arg6 harg6 v72 (harg1.unread x0) n,
      ∀ y : p.1.shape.Idx, p.2 y = G (p.1.emb y) := by
  induction n with
  | zero => intro p hp; exact absurd hp List.not_mem_nil
  | succ n ih =>
    intro p hp
    rw [pb_k0_t3.eq_2] at hp
    unfold pb_k0_t3Step at hp
    by_cases h : n < k0_t3_loop.trips
    · rw [dif_pos h, tripL3_eq, readAt_chunk] at hp
      rcases List.mem_append.mp hp with hp | hp
      · obtain rfl := List.mem_singleton.mp hp
        exact hG ⟨n, h⟩
      · exact ih p hp
    · rw [dif_neg h] at hp
      exact ih p hp

/-- What the body leaves in the output block is `G`, for any `G` of which every stored chunk is the restriction. -/
theorem out_eq_of (c : Dev nD) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole)
    (x0 : Vec F S1x256x9216 .f32) (x1 : Vec F S32x256 .f32) (x2 : Vec F S32 .f32) (x3 : Vec F S256x32 .f32) (x4 : Vec F S256 .f32)
    (G : S1x256x9216.Idx → Elt F .f32)
    (hG : ∀ (k : Fin k0_t3_loop.trips) (y : S1x256x1152.Idx),
      k0_pay1 (gateCol x0 x1 x2 x3 x4) (ldChunk x0 (k0_off3 k) (k0_off3_inb k)) y
        = G ((Rect.unit (s := S1x256x9216) (k0_off3 k) S1x256x1152.size (k0_off3_inb k)).emb y)) :
    out0_A_5 (F := F) c i arg1 harg1 arg2 harg2 arg3 harg3 arg4 harg4 arg5 harg5 arg6 harg6 x0 x1 x2 x3 x4 = G := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces G _ ?_ y (cover0_A_5 c i arg1 harg1 arg2 harg2 arg3 harg3 arg4 harg4 arg5 harg5 arg6 harg6 x0 x1 x2 x3 x4 y)
  unfold kernelRun0_A
  dsimp only
  rw [r3_eq]
  exact pb_pieces c i arg1 harg1 arg2 harg2 arg3 harg3 arg4 harg4 arg5 harg5 arg6 harg6 _ x0 G hG _

end Cert.KernelIdeal.Hand

end
-- ==== Proof.RefTerm.lean ====
/- The reference's @main restated as values: one definition per tensor value, each the printed line's operation applied to the
   definitions of its operands, the three outlined functions' lines listed where they are called; a function of the argument arrays
   it depends on. -/
import proofs.«169248_j41953240547848_2_alg».proof.ReferenceIdeal

noncomputable section

namespace Cert.ReferenceIdeal.RefTerm

open Cert.ReferenceIdeal Idealize.ShloMosaic Idealize.SL.Sem

variable {F : FTy → Type} [FloatOps F] [Facts]
open Facts₀ Facts

def r_main_v0 (x : (⟨S16x256x96x96, .f32⟩ : BufTy).Contents (Elt F)) : (⟨S16x256x9216, .f32⟩ : BufTy).Contents (Elt F) :=
  (fun a => shapeCast S16x256x9216 a shapeCasts_S16x256x96x96_S16x256x9216) x

def r_main_cst : (⟨S_, .f32⟩ : BufTy).Contents (Elt F) :=
  (constant S_ .f32 0x00000000#32)

def r_main_v1 (x : (⟨S16x256x96x96, .f32⟩ : BufTy).Contents (Elt F)) : (⟨S16x256, .f32⟩ : BufTy).Contents (Elt F) :=
  ((fun x v => Host.reduceAdd x v reducesTo_S16x256x9216_S16x256_d2 h_S_) : (⟨S16x256x9216, .f32⟩ : BufTy).Contents (Elt F) → (⟨S_, .f32⟩ : BufTy).Contents (Elt F) → (⟨S16x256, .f32⟩ : BufTy).Contents (Elt F)) (r_main_v0 (F := F) x) (r_main_cst (F := F))

def r_main_v2 (x : (⟨S16x256x96x96, .f32⟩ : BufTy).Contents (Elt F)) : (⟨S16x256x1, .f32⟩ : BufTy).Contents (Elt F) :=
  (broadcastInDim S16x256x1 ![0, 1] bcast_S16x256_S16x256x1_0_1 : (⟨S16x256, .f32⟩ : BufTy).Contents (Elt F) → (⟨S16x256x1, .f32⟩ : BufTy).Contents (Elt F)) (r_main_v1 (F := F) x)

def r_main_cst_0 : (⟨S_, .f32⟩ : BufTy).Contents (Elt F) :=
  (constant S_ .f32 0x46100000#32)

def r_main_v3 : (⟨S16x256x1, .f32⟩ : BufTy).Contents (Elt F) :=
  (broadcastInDim S16x256x1 ![] bcast_S_S16x256x1 : (⟨S_, .f32⟩ : BufTy).Contents (Elt F) → (⟨S16x256x1, .f32⟩ : BufTy).Contents (Elt F)) (r_main_cst_0 (F := F))

def r_main_v4 (x : (⟨S16x256x96x96, .f32⟩ : BufTy).Contents (Elt F)) : (⟨S16x256x1, .f32⟩ : BufTy).Contents (Elt F) :=
  (Host.divf : (⟨S16x256x1, .f32⟩ : BufTy).Contents (Elt F) → (⟨S16x256x1, .f32⟩ : BufTy).Contents (Elt F) → (⟨S16x256x1, .f32⟩ : BufTy).Contents (Elt F)) (r_main_v2 (F := F) x) (r_main_v3 (F := F))

def r_main_v5 (x : (⟨S16x256x96x96, .f32⟩ : BufTy).Contents (Elt F)) : (⟨S16x256x9216, .f32⟩ : BufTy).Contents (Elt F) :=
  (broadcastInDim S16x256x9216 ![0, 1, 2] bcast_S16x256x1_S16x256x9216_0_1_2 : (⟨S16x256x1, .f32⟩ : BufTy).Contents (Elt F) → (⟨S16x256x9216, .f32⟩ : BufTy).Contents (Elt F)) (r_main_v4 (F := F) x)

def r_main_v6 (x : (⟨S16x256x96x96, .f32⟩ : BufTy).Contents (Elt F)) : (⟨S16x256x9216, .f32⟩ : BufTy).Contents (Elt F) :=
  (subf : (⟨S16x256x9216, .f32⟩ : BufTy).Contents (Elt F) → (⟨S16x256x9216, .f32⟩ : BufTy).Contents (Elt F) → (⟨S16x256x9216, .f32⟩ : BufTy).Contents (Elt F)) (r_main_v0 (F := F) x) (r_main_v5 (F := F) x)

def r_main_v7 (x : (⟨S16x256x96x96, .f32⟩ : BufTy).Contents (Elt F)) : (⟨S16x256x256, .f32⟩ : BufTy).Contents (Elt F) :=
  ((fun l r => Host.dotGeneral dot_S16x256x9216_S16x256x9216_S16x256x256_2_2_1_1_0_0 none l r) : (⟨S16x256x9216, .f32⟩ : BufTy).Contents (Elt F) → (⟨S16x256x9216, .f32⟩ : BufTy).Contents (Elt F) → (⟨S16x256x256, .f32⟩ : BufTy).Contents (Elt F)) (r_main_v6 (F := F) x) (r_main_v0 (F := F) x)

def r_main_cst_1 : (⟨S_, .f32⟩ : BufTy).Contents (Elt F) :=
  (constant S_ .f32 0x46100000#32)

def r_main_v8 : (⟨S16x256x256, .f32⟩ : BufTy).Contents (Elt F) :=
  (broadcastInDim S16x256x256 ![] bcast_S_S16x256x256 : (⟨S_, .f32⟩ : BufTy).Contents (Elt F) → (⟨S16x256x256, .f32⟩ : BufTy).Contents (Elt F)) (r_main_cst_1 (F := F))

def r_main_v9 (x : (⟨S16x256x96x96, .f32⟩ : BufTy).Contents (Elt F)) : (⟨S16x256x256, .f32⟩ : BufTy).Contents (Elt F) :=
  (Host.divf : (⟨S16x256x256, .f32⟩ : BufTy).Contents (Elt F) → (⟨S16x256x256, .f32⟩ : BufTy).Contents (Elt F) → (⟨S16x256x256, .f32⟩ : BufTy).Contents (Elt F)) (r_main_v7 (F := F) x) (r_main_v8 (F := F))

def r_main_v10 : (⟨S256x256, .i32⟩ : BufTy).Contents (Elt F) :=
  (iotaInDim S256x256 32 0)

def r_main_v11 : (⟨S256x256, .i32⟩ : BufTy).Contents (Elt F) :=
  (iotaInDim S256x256 32 1)

def r_main_c : (⟨S_, .i32⟩ : BufTy).Contents (Elt F) :=
  (constantI S_ 32 0#32)

def r_main_v12 : (⟨S256x256, .i32⟩ : BufTy).Contents (Elt F) :=
  (broadcastInDim S256x256 ![] bcast_S_S256x256 : (⟨S_, .i32⟩ : BufTy).Contents (Elt F) → (⟨S256x256, .i32⟩ : BufTy).Contents (Elt F)) (r_main_c (F := F))

def r_main_v13 : (⟨S256x256, .i32⟩ : BufTy).Contents (Elt F) :=
  (addi : (⟨S256x256, .i32⟩ : BufTy).Contents (Elt F) → (⟨S256x256, .i32⟩ : BufTy).Contents (Elt F) → (⟨S256x256, .i32⟩ : BufTy).Contents (Elt F)) (r_main_v10 (F := F)) (r_main_v12 (F := F))

def r_main_v14 : (⟨S256x256, .i1⟩ : BufTy).Contents (Elt F) :=
  (cmpi .eq : (⟨S256x256, .i32⟩ : BufTy).Contents (Elt F) → (⟨S256x256, .i32⟩ : BufTy).Contents (Elt F) → (⟨S256x256, .i1⟩ : BufTy).Contents (Elt F)) (r_main_v13 (F := F)) (r_main_v11 (F := F))

def r_main_v15 : (⟨S256x256, .f32⟩ : BufTy).Contents (Elt F) :=
  (uitofp .f32 : (⟨S256x256, .i1⟩ : BufTy).Contents (Elt F) → (⟨S256x256, .f32⟩ : BufTy).Contents (Elt F)) (r_main_v14 (F := F))

def r_main_cst_2 : (⟨S_, .f32⟩ : BufTy).Contents (Elt F) :=
  (constant S_ .f32 0x40400000#32)

def r_main_v16 : (⟨S256x256, .f32⟩ : BufTy).Contents (Elt F) :=
  (broadcastInDim S256x256 ![] bcast_S_S256x256 : (⟨S_, .f32⟩ : BufTy).Contents (Elt F) → (⟨S256x256, .f32⟩ : BufTy).Contents (Elt F)) (r_main_cst_2 (F := F))

def r_main_v17 : (⟨S256x256, .f32⟩ : BufTy).Contents (Elt F) :=
  (mulf : (⟨S256x256, .f32⟩ : BufTy).Contents (Elt F) → (⟨S256x256, .f32⟩ : BufTy).Contents (Elt F) → (⟨S256x256, .f32⟩ : BufTy).Contents (Elt F)) (r_main_v16 (F := F)) (r_main_v15 (F := F))

def r_main_call0_v0 : (⟨S256x256, .i32⟩ : BufTy).Contents (Elt F) :=
  (iotaInDim S256x256 32 0)

def r_main_call0_v1 : (⟨S256x256, .i32⟩ : BufTy).Contents (Elt F) :=
  (iotaInDim S256x256 32 1)

def r_main_call0_c : (⟨S_, .i32⟩ : BufTy).Contents (Elt F) :=
  (constantI S_ 32 0#32)

def r_main_call0_v2 : (⟨S256x256, .i32⟩ : BufTy).Contents (Elt F) :=
  (broadcastInDim S256x256 ![] bcast_S_S256x256) (r_main_call0_c (F := F))

def r_main_call0_v3 : (⟨S256x256, .i32⟩ : BufTy).Contents (Elt F) :=
  addi (r_main_call0_v0 (F := F)) (r_main_call0_v2 (F := F))

def r_main_call0_v4 : (⟨S256x256, .i1⟩ : BufTy).Contents (Elt F) :=
  (cmpi .eq) (r_main_call0_v3 (F := F)) (r_main_call0_v1 (F := F))

def r_main_call0_cst : (⟨S_, .f32⟩ : BufTy).Contents (Elt F) :=
  (constant S_ .f32 0x00000000#32)

def r_main_call0_v5 : (⟨S16x256x256, .f32⟩ : BufTy).Contents (Elt F) :=
  (broadcastInDim S16x256x256 ![] bcast_S_S16x256x256) (r_main_call0_cst (F := F))

def r_main_call0_call0_v0 : (⟨S16x256x256, .i1⟩ : BufTy).Contents (Elt F) :=
  (broadcastInDim S16x256x256 ![1, 2] bcast_S256x256_S16x256x256_1_2) (r_main_call0_v4 (F := F))

def r_main_call0_v6 (x : (⟨S16x256x96x96, .f32⟩ : BufTy).Contents (Elt F)) : (⟨S16x256x256, .f32⟩ : BufTy).Contents (Elt F) :=
  select (r_main_call0_call0_v0 (F := F)) (r_main_v9 (F := F) x) (r_main_call0_v5 (F := F))

def r_main_call0_cst_0 : (⟨S_, .f32⟩ : BufTy).Contents (Elt F) :=
  (constant S_ .f32 0x00000000#32)

def r_main_v18 (x : (⟨S16x256x96x96, .f32⟩ : BufTy).Contents (Elt F)) : (⟨S16, .f32⟩ : BufTy).Contents (Elt F) :=
  (fun x v => Host.reduceAdd x v reducesTo_S16x256x256_S16_d1_2 h_S_) (r_main_call0_v6 (F := F) x) (r_main_call0_cst_0 (F := F))

def r_main_v19 (x : (⟨S16x256x96x96, .f32⟩ : BufTy).Contents (Elt F)) : (⟨S16x1x1, .f32⟩ : BufTy).Contents (Elt F) :=
  (broadcastInDim S16x1x1 ![0] bcast_S16_S16x1x1_0 : (⟨S16, .f32⟩ : BufTy).Contents (Elt F) → (⟨S16x1x1, .f32⟩ : BufTy).Contents (Elt F)) (r_main_v18 (F := F) x)

def r_main_v20 (x : (⟨S16x256x96x96, .f32⟩ : BufTy).Contents (Elt F)) : (⟨S16x256x256, .f32⟩ : BufTy).Contents (Elt F) :=
  (broadcastInDim S16x256x256 ![0, 1, 2] bcast_S16x1x1_S16x256x256_0_1_2 : (⟨S16x1x1, .f32⟩ : BufTy).Contents (Elt F) → (⟨S16x256x256, .f32⟩ : BufTy).Contents (Elt F)) (r_main_v19 (F := F) x)

def r_main_v21 (x : (⟨S16x256x96x96, .f32⟩ : BufTy).Contents (Elt F)) : (⟨S16x256x256, .f32⟩ : BufTy).Contents (Elt F) :=
  (Host.divf : (⟨S16x256x256, .f32⟩ : BufTy).Contents (Elt F) → (⟨S16x256x256, .f32⟩ : BufTy).Contents (Elt F) → (⟨S16x256x256, .f32⟩ : BufTy).Contents (Elt F)) (r_main_v9 (F := F) x) (r_main_v20 (F := F) x)

def r_main_v22 : (⟨S1x256x256, .f32⟩ : BufTy).Contents (Elt F) :=
  (broadcastInDim S1x256x256 ![1, 2] bcast_S256x256_S1x256x256_1_2 : (⟨S256x256, .f32⟩ : BufTy).Contents (Elt F) → (⟨S1x256x256, .f32⟩ : BufTy).Contents (Elt F)) (r_main_v17 (F := F))

def r_main_v23 : (⟨S16x256x256, .f32⟩ : BufTy).Contents (Elt F) :=
  (broadcastInDim S16x256x256 ![0, 1, 2] bcast_S1x256x256_S16x256x256_0_1_2 : (⟨S1x256x256, .f32⟩ : BufTy).Contents (Elt F) → (⟨S16x256x256, .f32⟩ : BufTy).Contents (Elt F)) (r_main_v22 (F := F))

def r_main_v24 (x : (⟨S16x256x96x96, .f32⟩ : BufTy).Contents (Elt F)) : (⟨S16x256x256, .f32⟩ : BufTy).Contents (Elt F) :=
  (subf : (⟨S16x256x256, .f32⟩ : BufTy).Contents (Elt F) → (⟨S16x256x256, .f32⟩ : BufTy).Contents (Elt F) → (⟨S16x256x256, .f32⟩ : BufTy).Contents (Elt F)) (r_main_v23 (F := F)) (r_main_v21 (F := F) x)

def r_main_cst_3 : (⟨S_, .f32⟩ : BufTy).Contents (Elt F) :=
  (constant S_ .f32 0x3F000000#32)

def r_main_v25 : (⟨S16x256x256, .f32⟩ : BufTy).Contents (Elt F) :=
  (broadcastInDim S16x256x256 ![] bcast_S_S16x256x256 : (⟨S_, .f32⟩ : BufTy).Contents (Elt F) → (⟨S16x256x256, .f32⟩ : BufTy).Contents (Elt F)) (r_main_cst_3 (F := F))

def r_main_v26 (x : (⟨S16x256x96x96, .f32⟩ : BufTy).Contents (Elt F)) : (⟨S16x256x256, .f32⟩ : BufTy).Contents (Elt F) :=
  (mulf : (⟨S16x256x256, .f32⟩ : BufTy).Contents (Elt F) → (⟨S16x256x256, .f32⟩ : BufTy).Contents (Elt F) → (⟨S16x256x256, .f32⟩ : BufTy).Contents (Elt F)) (r_main_v25 (F := F)) (r_main_v24 (F := F) x)

def r_main_v27 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v21 (F := F) x) (r_main_v26 (F := F) x)

def r_main_v28 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v26 (F := F) x) (r_main_v27 (F := F) x)

def r_main_v29 : (⟨S1x256x256, .f32⟩ : BufTy).Contents (Elt F) :=
  (broadcastInDim S1x256x256 ![1, 2] bcast_S256x256_S1x256x256_1_2 : (⟨S256x256, .f32⟩ : BufTy).Contents (Elt F) → (⟨S1x256x256, .f32⟩ : BufTy).Contents (Elt F)) (r_main_v17 (F := F))

def r_main_v30 : (⟨S16x256x256, .f32⟩ : BufTy).Contents (Elt F) :=
  (broadcastInDim S16x256x256 ![0, 1, 2] bcast_S1x256x256_S16x256x256_0_1_2 : (⟨S1x256x256, .f32⟩ : BufTy).Contents (Elt F) → (⟨S16x256x256, .f32⟩ : BufTy).Contents (Elt F)) (r_main_v29 (F := F))

def r_main_v31 (x : (⟨S16x256x96x96, .f32⟩ : BufTy).Contents (Elt F)) : (⟨S16x256x256, .f32⟩ : BufTy).Contents (Elt F) :=
  (subf : (⟨S16x256x256, .f32⟩ : BufTy).Contents (Elt F) → (⟨S16x256x256, .f32⟩ : BufTy).Contents (Elt F) → (⟨S16x256x256, .f32⟩ : BufTy).Contents (Elt F)) (r_main_v30 (F := F)) (r_main_v28 (F := F) x)

def r_main_cst_4 : (⟨S_, .f32⟩ : BufTy).Contents (Elt F) :=
  (constant S_ .f32 0x3F000000#32)

def r_main_v32 : (⟨S16x256x256, .f32⟩ : BufTy).Contents (Elt F) :=
  (broadcastInDim S16x256x256 ![] bcast_S_S16x256x256 : (⟨S_, .f32⟩ : BufTy).Contents (Elt F) → (⟨S16x256x256, .f32⟩ : BufTy).Contents (Elt F)) (r_main_cst_4 (F := F))

def r_main_v33 (x : (⟨S16x256x96x96, .f32⟩ : BufTy).Contents (Elt F)) : (⟨S16x256x256, .f32⟩ : BufTy).Contents (Elt F) :=
  (mulf : (⟨S16x256x256, .f32⟩ : BufTy).Contents (Elt F) → (⟨S16x256x256, .f32⟩ : BufTy).Contents (Elt F) → (⟨S16x256x256, .f32⟩ : BufTy).Contents (Elt F)) (r_main_v32 (F := F)) (r_main_v31 (F := F) x)

def r_main_v34 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v27 (F := F) x) (r_main_v33 (F := F) x)

def r_main_v35 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v33 (F := F) x) (r_main_v26 (F := F) x)

def r_main_v36 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v35 (F := F) x) (r_main_v34 (F := F) x)

def r_main_v37 : (⟨S1x256x256, .f32⟩ : BufTy).Contents (Elt F) :=
  (broadcastInDim S1x256x256 ![1, 2] bcast_S256x256_S1x256x256_1_2 : (⟨S256x256, .f32⟩ : BufTy).Contents (Elt F) → (⟨S1x256x256, .f32⟩ : BufTy).Contents (Elt F)) (r_main_v17 (F := F))

def r_main_v38 : (⟨S16x256x256, .f32⟩ : BufTy).Contents (Elt F) :=
  (broadcastInDim S16x256x256 ![0, 1, 2] bcast_S1x256x256_S16x256x256_0_1_2 : (⟨S1x256x256, .f32⟩ : BufTy).Contents (Elt F) → (⟨S16x256x256, .f32⟩ : BufTy).Contents (Elt F)) (r_main_v37 (F := F))

def r_main_v39 (x : (⟨S16x256x96x96, .f32⟩ : BufTy).Contents (Elt F)) : (⟨S16x256x256, .f32⟩ : BufTy).Contents (Elt F) :=
  (subf : (⟨S16x256x256, .f32⟩ : BufTy).Contents (Elt F) → (⟨S16x256x256, .f32⟩ : BufTy).Contents (Elt F) → (⟨S16x256x256, .f32⟩ : BufTy).Contents (Elt F)) (r_main_v38 (F := F)) (r_main_v36 (F := F) x)

def r_main_cst_5 : (⟨S_, .f32⟩ : BufTy).Contents (Elt F) :=
  (constant S_ .f32 0x3F000000#32)

def r_main_v40 : (⟨S16x256x256, .f32⟩ : BufTy).Contents (Elt F) :=
  (broadcastInDim S16x256x256 ![] bcast_S_S16x256x256 : (⟨S_, .f32⟩ : BufTy).Contents (Elt F) → (⟨S16x256x256, .f32⟩ : BufTy).Contents (Elt F)) (r_main_cst_5 (F := F))

def r_main_v41 (x : (⟨S16x256x96x96, .f32⟩ : BufTy).Contents (Elt F)) : (⟨S16x256x256, .f32⟩ : BufTy).Contents (Elt F) :=
  (mulf : (⟨S16x256x256, .f32⟩ : BufTy).Contents (Elt F) → (⟨S16x256x256, .f32⟩ : BufTy).Contents (Elt F) → (⟨S16x256x256, .f32⟩ : BufTy).Contents (Elt F)) (r_main_v40 (F := F)) (r_main_v39 (F := F) x)

def r_main_v42 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v34 (F := F) x) (r_main_v41 (F := F) x)

def r_main_v43 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v41 (F := F) x) (r_main_v35 (F := F) x)

def r_main_v44 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v43 (F := F) x) (r_main_v42 (F := F) x)

def r_main_v45 : (⟨S1x256x256, .f32⟩ : BufTy).Contents (Elt F) :=
  (broadcastInDim S1x256x256 ![1, 2] bcast_S256x256_S1x256x256_1_2 : (⟨S256x256, .f32⟩ : BufTy).Contents (Elt F) → (⟨S1x256x256, .f32⟩ : BufTy).Contents (Elt F)) (r_main_v17 (F := F))

def r_main_v46 : (⟨S16x256x256, .f32⟩ : BufTy).Contents (Elt F) :=
  (broadcastInDim S16x256x256 ![0, 1, 2] bcast_S1x256x256_S16x256x256_0_1_2 : (⟨S1x256x256, .f32⟩ : BufTy).Contents (Elt F) → (⟨S16x256x256, .f32⟩ : BufTy).Contents (Elt F)) (r_main_v45 (F := F))

def r_main_v47 (x : (⟨S16x256x96x96, .f32⟩ : BufTy).Contents (Elt F)) : (⟨S16x256x256, .f32⟩ : BufTy).Contents (Elt F) :=
  (subf : (⟨S16x256x256, .f32⟩ : BufTy).Contents (Elt F) → (⟨S16x256x256, .f32⟩ : BufTy).Contents (Elt F) → (⟨S16x256x256, .f32⟩ : BufTy).Contents (Elt F)) (r_main_v46 (F := F)) (r_main_v44 (F := F) x)

def r_main_cst_6 : (⟨S_, .f32⟩ : BufTy).Contents (Elt F) :=
  (constant S_ .f32 0x3F000000#32)

def r_main_v48 : (⟨S16x256x256, .f32⟩ : BufTy).Contents (Elt F) :=
  (broadcastInDim S16x256x256 ![] bcast_S_S16x256x256 : (⟨S_, .f32⟩ : BufTy).Contents (Elt F) → (⟨S16x256x256, .f32⟩ : BufTy).Contents (Elt F)) (r_main_cst_6 (F := F))

def r_main_v49 (x : (⟨S16x256x96x96, .f32⟩ : BufTy).Contents (Elt F)) : (⟨S16x256x256, .f32⟩ : BufTy).Contents (Elt F) :=
  (mulf : (⟨S16x256x256, .f32⟩ : BufTy).Contents (Elt F) → (⟨S16x256x256, .f32⟩ : BufTy).Contents (Elt F) → (⟨S16x256x256, .f32⟩ : BufTy).Contents (Elt F)) (r_main_v48 (F := F)) (r_main_v47 (F := F) x)

def r_main_v50 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v42 (F := F) x) (r_main_v49 (F := F) x)

def r_main_v51 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v49 (F := F) x) (r_main_v43 (F := F) x)

def r_main_v52 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v51 (F := F) x) (r_main_v50 (F := F) x)

def r_main_v53 : (⟨S1x256x256, .f32⟩ : BufTy).Contents (Elt F) :=
  (broadcastInDim S1x256x256 ![1, 2] bcast_S256x256_S1x256x256_1_2 : (⟨S256x256, .f32⟩ : BufTy).Contents (Elt F) → (⟨S1x256x256, .f32⟩ : BufTy).Contents (Elt F)) (r_main_v17 (F := F))

def r_main_v54 : (⟨S16x256x256, .f32⟩ : BufTy).Contents (Elt F) :=
  (broadcastInDim S16x256x256 ![0, 1, 2] bcast_S1x256x256_S16x256x256_0_1_2 : (⟨S1x256x256, .f32⟩ : BufTy).Contents (Elt F) → (⟨S16x256x256, .f32⟩ : BufTy).Contents (Elt F)) (r_main_v53 (F := F))

def r_main_v55 (x : (⟨S16x256x96x96, .f32⟩ : BufTy).Contents (Elt F)) : (⟨S16x256x256, .f32⟩ : BufTy).Contents (Elt F) :=
  (subf : (⟨S16x256x256, .f32⟩ : BufTy).Contents (Elt F) → (⟨S16x256x256, .f32⟩ : BufTy).Contents (Elt F) → (⟨S16x256x256, .f32⟩ : BufTy).Contents (Elt F)) (r_main_v54 (F := F)) (r_main_v52 (F := F) x)

def r_main_v56 (x : (⟨S16x256x96x96, .f32⟩ : BufTy).Contents (Elt F)) : (⟨S16x256x256, .f32⟩ : BufTy).Contents (Elt F) :=
  ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) (r_main_v50 (F := F) x) (r_main_v55 (F := F) x)

def r_main_cst_7 : (⟨S_, .f32⟩ : BufTy).Contents (Elt F) :=
  (constant S_ .f32 0x3F000000#32)

def r_main_v57 : (⟨S16x256x256, .f32⟩ : BufTy).Contents (Elt F) :=
  (broadcastInDim S16x256x256 ![] bcast_S_S16x256x256 : (⟨S_, .f32⟩ : BufTy).Contents (Elt F) → (⟨S16x256x256, .f32⟩ : BufTy).Contents (Elt F)) (r_main_cst_7 (F := F))

def r_main_v58 (x : (⟨S16x256x96x96, .f32⟩ : BufTy).Contents (Elt F)) : (⟨S16x256x256, .f32⟩ : BufTy).Contents (Elt F) :=
  (mulf : (⟨S16x256x256, .f32⟩ : BufTy).Contents (Elt F) → (⟨S16x256x256, .f32⟩ : BufTy).Contents (Elt F) → (⟨S16x256x256, .f32⟩ : BufTy).Contents (Elt F)) (r_main_v57 (F := F)) (r_main_v56 (F := F) x)

def r_main_v59 (x : (⟨S16x256x96x96, .f32⟩ : BufTy).Contents (Elt F)) : (⟨S16x1x1, .f32⟩ : BufTy).Contents (Elt F) :=
  (Host.sqrt : (⟨S16x1x1, .f32⟩ : BufTy).Contents (Elt F) → (⟨S16x1x1, .f32⟩ : BufTy).Contents (Elt F)) (r_main_v19 (F := F) x)

def r_main_v60 (x : (⟨S16x256x96x96, .f32⟩ : BufTy).Contents (Elt F)) : (⟨S16x256x256, .f32⟩ : BufTy).Contents (Elt F) :=
  (broadcastInDim S16x256x256 ![0, 1, 2] bcast_S16x1x1_S16x256x256_0_1_2 : (⟨S16x1x1, .f32⟩ : BufTy).Contents (Elt F) → (⟨S16x256x256, .f32⟩ : BufTy).Contents (Elt F)) (r_main_v59 (F := F) x)

def r_main_v61 (x : (⟨S16x256x96x96, .f32⟩ : BufTy).Contents (Elt F)) : (⟨S16x256x256, .f32⟩ : BufTy).Contents (Elt F) :=
  (mulf : (⟨S16x256x256, .f32⟩ : BufTy).Contents (Elt F) → (⟨S16x256x256, .f32⟩ : BufTy).Contents (Elt F) → (⟨S16x256x256, .f32⟩ : BufTy).Contents (Elt F)) (r_main_v58 (F := F) x) (r_main_v60 (F := F) x)

def r_main_cst_8 : (⟨S_, .f32⟩ : BufTy).Contents (Elt F) :=
  (constant S_ .f32 0x00000000#32)

def r_main_v62 (x : (⟨S16x256x96x96, .f32⟩ : BufTy).Contents (Elt F)) : (⟨S16x256, .f32⟩ : BufTy).Contents (Elt F) :=
  ((fun x v => Host.reduceAdd x v reducesTo_S16x256x256_S16x256_d1 h_S_) : (⟨S16x256x256, .f32⟩ : BufTy).Contents (Elt F) → (⟨S_, .f32⟩ : BufTy).Contents (Elt F) → (⟨S16x256, .f32⟩ : BufTy).Contents (Elt F)) (r_main_v61 (F := F) x) (r_main_cst_8 (F := F))

def r_main_cst_9 : (⟨S_, .f32⟩ : BufTy).Contents (Elt F) :=
  (constant S_ .f32 0x43800000#32)

def r_main_v63 : (⟨S16x256, .f32⟩ : BufTy).Contents (Elt F) :=
  (broadcastInDim S16x256 ![] bcast_S_S16x256 : (⟨S_, .f32⟩ : BufTy).Contents (Elt F) → (⟨S16x256, .f32⟩ : BufTy).Contents (Elt F)) (r_main_cst_9 (F := F))

def r_main_v64 (x : (⟨S16x256x96x96, .f32⟩ : BufTy).Contents (Elt F)) : (⟨S16x256, .f32⟩ : BufTy).Contents (Elt F) :=
  (Host.divf : (⟨S16x256, .f32⟩ : BufTy).Contents (Elt F) → (⟨S16x256, .f32⟩ : BufTy).Contents (Elt F) → (⟨S16x256, .f32⟩ : BufTy).Contents (Elt F)) (r_main_v62 (F := F) x) (r_main_v63 (F := F))

def r_main_v65 (w1 : (⟨S32x256, .f32⟩ : BufTy).Contents (Elt F)) : (⟨S256x32, .f32⟩ : BufTy).Contents (Elt F) :=
  ((transpose S256x32 [1, 0] · transposes_S32x256_S256x32_1_0) : (⟨S32x256, .f32⟩ : BufTy).Contents (Elt F) → (⟨S256x32, .f32⟩ : BufTy).Contents (Elt F)) w1

def r_main_v66 (x : (⟨S16x256x96x96, .f32⟩ : BufTy).Contents (Elt F)) (w1 : (⟨S32x256, .f32⟩ : BufTy).Contents (Elt F)) : (⟨S16x32, .f32⟩ : BufTy).Contents (Elt F) :=
  ((fun l r => Host.dotGeneral dot_S16x256_S256x32_S16x32_1_0_0_1_n_n none l r) : (⟨S16x256, .f32⟩ : BufTy).Contents (Elt F) → (⟨S256x32, .f32⟩ : BufTy).Contents (Elt F) → (⟨S16x32, .f32⟩ : BufTy).Contents (Elt F)) (r_main_v64 (F := F) x) (r_main_v65 (F := F) w1)

def r_main_v67 (b1 : (⟨S32, .f32⟩ : BufTy).Contents (Elt F)) : (⟨S1x32, .f32⟩ : BufTy).Contents (Elt F) :=
  (broadcastInDim S1x32 ![1] bcast_S32_S1x32_1 : (⟨S32, .f32⟩ : BufTy).Contents (Elt F) → (⟨S1x32, .f32⟩ : BufTy).Contents (Elt F)) b1

def r_main_v68 (b1 : (⟨S32, .f32⟩ : BufTy).Contents (Elt F)) : (⟨S16x32, .f32⟩ : BufTy).Contents (Elt F) :=
  (broadcastInDim S16x32 ![0, 1] bcast_S1x32_S16x32_0_1 : (⟨S1x32, .f32⟩ : BufTy).Contents (Elt F) → (⟨S16x32, .f32⟩ : BufTy).Contents (Elt F)) (r_main_v67 (F := F) b1)

def r_main_v69 (x : (⟨S16x256x96x96, .f32⟩ : BufTy).Contents (Elt F)) (w1 : (⟨S32x256, .f32⟩ : BufTy).Contents (Elt F)) (b1 : (⟨S32, .f32⟩ : BufTy).Contents (Elt F)) : (⟨S16x32, .f32⟩ : BufTy).Contents (Elt F) :=
  (addf : (⟨S16x32, .f32⟩ : BufTy).Contents (Elt F) → (⟨S16x32, .f32⟩ : BufTy).Contents (Elt F) → (⟨S16x32, .f32⟩ : BufTy).Contents (Elt F)) (r_main_v66 (F := F) x w1) (r_main_v68 (F := F) b1)

def r_main_call1_cst : (⟨S_, .f32⟩ : BufTy).Contents (Elt F) :=
  (constant S_ .f32 0x00000000#32)

def r_main_call1_v0 : (⟨S16x32, .f32⟩ : BufTy).Contents (Elt F) :=
  (broadcastInDim S16x32 ![] bcast_S_S16x32) (r_main_call1_cst (F := F))

def r_main_v70 (x : (⟨S16x256x96x96, .f32⟩ : BufTy).Contents (Elt F)) (w1 : (⟨S32x256, .f32⟩ : BufTy).Contents (Elt F)) (b1 : (⟨S32, .f32⟩ : BufTy).Contents (Elt F)) : (⟨S16x32, .f32⟩ : BufTy).Contents (Elt F) :=
  maximumf (r_main_v69 (F := F) x w1 b1) (r_main_call1_v0 (F := F))

def r_main_v71 (w2 : (⟨S256x32, .f32⟩ : BufTy).Contents (Elt F)) : (⟨S32x256, .f32⟩ : BufTy).Contents (Elt F) :=
  ((transpose S32x256 [1, 0] · transposes_S256x32_S32x256_1_0) : (⟨S256x32, .f32⟩ : BufTy).Contents (Elt F) → (⟨S32x256, .f32⟩ : BufTy).Contents (Elt F)) w2

def r_main_v72 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) : (⟨S16x256, .f32⟩ : BufTy).Contents (Elt F) :=
  ((fun l r => Host.dotGeneral dot_S16x32_S32x256_S16x256_1_0_0_1_n_n none l r) : (⟨S16x32, .f32⟩ : BufTy).Contents (Elt F) → (⟨S32x256, .f32⟩ : BufTy).Contents (Elt F) → (⟨S16x256, .f32⟩ : BufTy).Contents (Elt F)) (r_main_v70 (F := F) x w1 b1) (r_main_v71 (F := F) w2)

def r_main_v73 (b2 : (⟨S256, .f32⟩ : BufTy).Contents (Elt F)) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) b2

def r_main_v74 (b2 : (⟨S256, .f32⟩ : BufTy).Contents (Elt F)) : (⟨S16x256, .f32⟩ : BufTy).Contents (Elt F) :=
  (broadcastInDim S16x256 ![0, 1] bcast_S1x256_S16x256_0_1 : (⟨S1x256, .f32⟩ : BufTy).Contents (Elt F) → (⟨S16x256, .f32⟩ : BufTy).Contents (Elt F)) (r_main_v73 (F := F) b2)

def r_main_v75 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256, .f32⟩ : BufTy).Contents (Elt F) :=
  (addf : (⟨S16x256, .f32⟩ : BufTy).Contents (Elt F) → (⟨S16x256, .f32⟩ : BufTy).Contents (Elt F) → (⟨S16x256, .f32⟩ : BufTy).Contents (Elt F)) (r_main_v72 (F := F) x w1 b1 w2) (r_main_v74 (F := F) b2)

def r_main_v76 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256, .f32⟩ : BufTy).Contents (Elt F) :=
  (Host.negf : (⟨S16x256, .f32⟩ : BufTy).Contents (Elt F) → (⟨S16x256, .f32⟩ : BufTy).Contents (Elt F)) (r_main_v75 (F := F) x w1 b1 w2 b2)

def r_main_v77 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256, .f32⟩ : BufTy).Contents (Elt F) :=
  (Host.exp : (⟨S16x256, .f32⟩ : BufTy).Contents (Elt F) → (⟨S16x256, .f32⟩ : BufTy).Contents (Elt F)) (r_main_v76 (F := F) x w1 b1 w2 b2)

def r_main_cst_10 : (⟨S_, .f32⟩ : BufTy).Contents (Elt F) :=
  (constant S_ .f32 0x3F800000#32)

def r_main_v78 : (⟨S16x256, .f32⟩ : BufTy).Contents (Elt F) :=
  (broadcastInDim S16x256 ![] bcast_S_S16x256 : (⟨S_, .f32⟩ : BufTy).Contents (Elt F) → (⟨S16x256, .f32⟩ : BufTy).Contents (Elt F)) (r_main_cst_10 (F := F))

def r_main_v79 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256, .f32⟩ : BufTy).Contents (Elt F) :=
  (addf : (⟨S16x256, .f32⟩ : BufTy).Contents (Elt F) → (⟨S16x256, .f32⟩ : BufTy).Contents (Elt F) → (⟨S16x256, .f32⟩ : BufTy).Contents (Elt F)) (r_main_v78 (F := F)) (r_main_v77 (F := F) x w1 b1 w2 b2)

def r_main_cst_11 : (⟨S_, .f32⟩ : BufTy).Contents (Elt F) :=
  (constant S_ .f32 0x3F800000#32)

def r_main_v80 : (⟨S16x256, .f32⟩ : BufTy).Contents (Elt F) :=
  (broadcastInDim S16x256 ![] bcast_S_S16x256 : (⟨S_, .f32⟩ : BufTy).Contents (Elt F) → (⟨S16x256, .f32⟩ : BufTy).Contents (Elt F)) (r_main_cst_11 (F := F))

def r_main_v81 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256, .f32⟩ : BufTy).Contents (Elt F) :=
  (Host.divf : (⟨S16x256, .f32⟩ : BufTy).Contents (Elt F) → (⟨S16x256, .f32⟩ : BufTy).Contents (Elt F) → (⟨S16x256, .f32⟩ : BufTy).Contents (Elt F)) (r_main_v80 (F := F)) (r_main_v79 (F := F) x w1 b1 w2 b2)

def r_main_v82 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256x1x1, .f32⟩ : BufTy).Contents (Elt F) :=
  (broadcastInDim S16x256x1x1 ![0, 1] bcast_S16x256_S16x256x1x1_0_1 : (⟨S16x256, .f32⟩ : BufTy).Contents (Elt F) → (⟨S16x256x1x1, .f32⟩ : BufTy).Contents (Elt F)) (r_main_v81 (F := F) x w1 b1 w2 b2)

def r_main_v83 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256x96x96, .f32⟩ : BufTy).Contents (Elt F) :=
  (broadcastInDim S16x256x96x96 ![0, 1, 2, 3] bcast_S16x256x1x1_S16x256x96x96_0_1_2_3 : (⟨S16x256x1x1, .f32⟩ : BufTy).Contents (Elt F) → (⟨S16x256x96x96, .f32⟩ : BufTy).Contents (Elt F)) (r_main_v82 (F := F) x w1 b1 w2 b2)

def r_main_v84 (x : (⟨S16x256x96x96, .f32⟩ : BufTy).Contents (Elt F)) (w1 : (⟨S32x256, .f32⟩ : BufTy).Contents (Elt F)) (b1 : (⟨S32, .f32⟩ : BufTy).Contents (Elt F)) (w2 : (⟨S256x32, .f32⟩ : BufTy).Contents (Elt F)) (b2 : (⟨S256, .f32⟩ : BufTy).Contents (Elt F)) : (⟨S16x256x96x96, .f32⟩ : BufTy).Contents (Elt F) :=
  (mulf : (⟨S16x256x96x96, .f32⟩ : BufTy).Contents (Elt F) → (⟨S16x256x96x96, .f32⟩ : BufTy).Contents (Elt F) → (⟨S16x256x96x96, .f32⟩ : BufTy).Contents (Elt F)) (r_main_v83 (F := F) x w1 b1 w2 b2) x

end Cert.ReferenceIdeal.RefTerm

end
-- ==== Proof.Spec.lean ====
/-
  The shared vocabulary of the value proof. A grid point of the kernel handles one batch element: the
  [256, 9216] matrix X of that batch (channels × flattened positions), read in 8 column chunks of 1152.
  `xblock` is that matrix as the block the kernel is handed; `chunk` one column chunk of it;
  `meanAcc` / `covAcc` the two accumulations the kernel carries over the chunks (row sums of X, then
  the sum over chunks of (X - mean)(X - mean)ᵀ restricted to the chunk); `gateK` everything the kernel
  computes from the accumulated covariance sum and the weights (normalisation by the trace, the
  Newton–Schulz square-root iteration, the column means, the two-layer gate); `slice3` one batch
  element of a batched [16, 256, 256] array of the reference.
-/
import proofs.«169248_j41953240547848_2_alg».proof.Proof.Gen.KernelIdeal.Skeleton
import proofs.«169248_j41953240547848_2_alg».proof.Proof.RefTerm
import Idealize.ShloMosaic.Lib.ValueIdx
import Idealize.ShloMosaic.PureOps.Ideal

noncomputable section

namespace Cert.Bridge

open Idealize.ShloMosaic Idealize.ShloMosaic.ValueIdx Cert.KernelIdeal Cert.KernelIdeal.Gen

variable [Cert.KernelIdeal.Facts] [Cert.ReferenceIdeal.Facts]

/-- Batch element `b` of the input as the [1, 256, 9216] block the kernel is handed at grid point `b`:
    channel `c`, flattened position `p` holds `x[b, c, p / 96, p % 96]`. -/
def xblock (x : FVec Ideal S16x256x96x96 .f32) (b : Fin 16) : Vec Ideal S1x256x9216 .f32 :=
  fun j => x (ix4 b (⟨(j 1).val, (j 1).isLt⟩ : Fin 256)
    (⟨(j 2).val / 96, by have h : (j 2).val < 9216 := (j 2).isLt; omega⟩ : Fin 96)
    (⟨(j 2).val % 96, Nat.mod_lt _ (by decide)⟩ : Fin 96))

/-- Column chunk `k` (columns 1152 k … 1152 k + 1151) of a block. -/
def chunk (x0 : Vec Ideal S1x256x9216 .f32) (k : Fin 8) : Vec Ideal S1x256x1152 .f32 :=
  fun j => x0 (ix3 (0 : Fin 1) (⟨(j 1).val, (j 1).isLt⟩ : Fin 256)
    (⟨1152 * k.val + (j 2).val, by have h : (j 2).val < 1152 := (j 2).isLt; have := k.isLt; omega⟩ : Fin 9216))

/-- The row-sum accumulator after the first `n` chunks. -/
def meanAcc (x0 : Vec Ideal S1x256x9216 .f32) : ℕ → FVec Ideal S256x1 .f32
  | 0 => k0_pay2 (F := Ideal)
  | n + 1 => if h : n < 8 then k0_pay3 (F := Ideal) (meanAcc x0 n) (chunk x0 ⟨n, h⟩) else meanAcc x0 n

/-- The covariance accumulator after the first `n` chunks (the row sums taken over all 8 chunks). -/
def covAcc (x0 : Vec Ideal S1x256x9216 .f32) : ℕ → FVec Ideal S256x256 .f32
  | 0 => k0_pay4 (F := Ideal)
  | n + 1 => if h : n < 8 then k0_pay5 (F := Ideal) (meanAcc x0 8) (covAcc x0 n) (chunk x0 ⟨n, h⟩) else covAcc x0 n

/-- Batch element `b` of a batched [16, 256, 256] array. -/
def slice3 (v : FVec Ideal Cert.ReferenceIdeal.S16x256x256 .f32) (b : Fin 16) : FVec Ideal S256x256 .f32 :=
  fun j => v (ix3 b (⟨(j 0).val, (j 0).isLt⟩ : Fin 256) (⟨(j 1).val, (j 1).isLt⟩ : Fin 256))

/-- The gate column of one batch element, from its accumulated covariance sum and the weights. -/
def gateK (v7 : FVec Ideal S256x256 .f32) (w1 : Vec Ideal S32x256 .f32) (b1 : Vec Ideal S32 .f32)
    (w2 : Vec Ideal S256x32 .f32) (b2 : Vec Ideal S256 .f32) : FVec Ideal S256x1 .f32 :=
  k0_pay16 (F := Ideal) (k0_pay8 (F := Ideal)) (k0_pay9 v7) (k0_pay14 v7) (k0_pay15 v7)
    (constant S256x256 .f32 0x00000000#32) w1 b1 w2 b2

end Cert.Bridge

end
-- ==== Proof.KValue.lean ====
/-
  The kernel body's values at the extended reals, in the shared vocabulary: the loaded chunks are the block's
  column chunks, the two carried accumulations are `meanAcc` / `covAcc`, the gate column is `gateK` of the
  accumulated covariance sum, and the output block the body leaves holds, at channel r and position p, the
  block's entry times the gate of channel r.
-/
import proofs.«169248_j41953240547848_2_alg».proof.Proof.KTrip
import proofs.«169248_j41953240547848_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx Idealize.SL.Sem

variable [Cert.ReferenceIdeal.Facts]

theorem trips1 : k0_t1_loop.trips = 8 := by decide
theorem trips2 : k0_t2_loop.trips = 8 := by decide
theorem trips3 : k0_t3_loop.trips = 8 := by decide

/-- Entry (0, r, q) of the chunk loaded at column offset 1152 k is entry (0, r, 1152 k + q) of the block. -/
theorem ldChunk_apply (x0 : Vec Ideal S1x256x9216 .f32) (off : Fin 3 → Nat)
    (inb : ∀ a, off a + S1x256x1152.size a ≤ S1x256x9216.size a) (kk : ℕ) (hoff : off = ![0, 0, 1152 * kk])
    (j : S1x256x1152.Idx) (i : S1x256x9216.Idx) (h0 : (i 0).val = 0) (h1 : (i 1).val = (j 1).val)
    (h2 : (i 2).val = 1152 * kk + (j 2).val) :
    ldChunk x0 off inb j = x0 i := by
  unfold ldChunk
  refine congrArg x0 (funext fun a => Fin.ext ?_)
  simp only [LoadRect.idx_apply, Rect.emb_apply, Rect.off_unit, Rect.stride_unit, Nat.one_mul]
  subst hoff
  have hj0 : (j 0).val < 1 := (j 0).isLt
  match a with
  | ⟨0, _⟩ => show 0 + (j 0).val = (i 0).val; omega
  | ⟨1, _⟩ => show 0 + (j 1).val = (i 1).val; omega
  | ⟨2, _⟩ => show 1152 * kk + (j 2).val = (i 2).val; omega

theorem ldChunk1_eq (x0 : Vec Ideal S1x256x9216 .f32) (n : ℕ) (h : n < k0_t1_loop.trips) (h' : n < 8) :
    ldChunk x0 (k0_off1 ⟨n, h⟩) (k0_off1_inb ⟨n, h⟩) = chunk x0 ⟨n, h'⟩ :=
  funext fun j => ldChunk_apply x0 _ _ n (k0_off1_eq ⟨n, h⟩) j _ rfl rfl rfl

theorem ldChunk2_eq (x0 : Vec Ideal S1x256x9216 .f32) (n : ℕ) (h : n < k0_t2_loop.trips) (h' : n < 8) :
    ldChunk x0 (k0_off2 ⟨n, h⟩) (k0_off2_inb ⟨n, h⟩) = chunk x0 ⟨n, h'⟩ :=
  funext fun j => ldChunk_apply x0 _ _ n (k0_off2_eq ⟨n, h⟩) j _ rfl rfl rfl

theorem sumAcc_eq (x0 : Vec Ideal S1x256x9216 .f32) : ∀ n, sumAcc x0 n = meanAcc x0 n
  | 0 => rfl
  | n + 1 => by
    rw [sumAcc, meanAcc]
    by_cases h : n < 8
    · have h' : n < k0_t1_loop.trips := by rw [trips1]; exact h
      rw [dif_pos h', dif_pos h, ldChunk1_eq x0 n h' h, sumAcc_eq x0 n]
    · have h' : ¬ n < k0_t1_loop.trips := by rw [trips1]; exact h
      rw [dif_neg h', dif_neg h, sumAcc_eq x0 n]

theorem prodAcc_eq (x0 : Vec Ideal S1x256x9216 .f32) : ∀ n, prodAcc (meanAcc x0 8) x0 n = covAcc x0 n
  | 0 => rfl
  | n + 1 => by
    rw [prodAcc, covAcc]
    by_cases h : n < 8
    · have h' : n < k0_t2_loop.trips := by rw [trips2]; exact h
      rw [dif_pos h', dif_pos h, ldChunk2_eq x0 n h' h, prodAcc_eq x0 n]
    · have h' : ¬ n < k0_t2_loop.trips := by rw [trips2]; exact h
      rw [dif_neg h', dif_neg h, prodAcc_eq x0 n]

/-- The gate column the body computes is `gateK` of the accumulated covariance sum. -/
theorem gateCol_eq (x0 : Vec Ideal S1x256x9216 .f32) (x1 : Vec Ideal S32x256 .f32) (x2 : Vec Ideal S32 .f32)
    (x3 : Vec Ideal S256x32 .f32) (x4 : Vec Ideal S256 .f32) :
    gateCol x0 x1 x2 x3 x4 = gateK (covAcc x0 8) x1 x2 x3 x4 := by
  unfold gateCol gateK
  rw [trips1, sumAcc_eq, prodAcc_eq]

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored chunk at (0, r, q): the loaded chunk's entry times the gate of row r. -/
theorem pay1_apply (v72 : FVec Ideal S256x1 .f32) (ch : Vec Ideal S1x256x1152 .f32) (r : Fin 256) (q : Fin 1152) :
    k0_pay1 (F := Ideal) v72 ch (ix3 (0 : Fin 1) r q) = ch (ix3 (0 : Fin 1) r q) * v72 (ix2 r (0 : Fin 1)) := by
  unfold k0_pay1
  rw [shapeCast_ab_1ab_apply, mulf_apply, shapeCast_1ab_ab_apply, broadcastTo_a1_ab_apply]

/-- Channel r, position p of the output block: the block's entry times the gate of channel r. -/
def scaled (x0 : Vec Ideal S1x256x9216 .f32) (g : FVec Ideal S256x1 .f32) : S1x256x9216.Idx → Elt Ideal .f32 :=
  fun y => x0 y * g (ix2 (⟨(y 1).val, (y 1).isLt⟩ : Fin 256) (0 : Fin 1))

/-- What the body leaves in the output block. -/
theorem out_eq (c : Dev nD) (i : grid0.Coords) (arg1 : Memref sig .tc .vmem S1x256x9216 .f32) (harg1 : arg1.IsWhole) (arg2 : Memref sig .tc .vmem S32x256 .f32) (harg2 : arg2.IsWhole) (arg3 : Memref sig .tc .vmem S32 .f32) (harg3 : arg3.IsWhole) (arg4 : Memref sig .tc .vmem S256x32 .f32) (harg4 : arg4.IsWhole) (arg5 : Memref sig .tc .vmem S256 .f32) (harg5 : arg5.IsWhole) (arg6 : Memref sig .tc .vmem S1x256x9216 .f32) (harg6 : arg6.IsWhole)
    (x0 : Vec Ideal S1x256x9216 .f32) (x1 : Vec Ideal S32x256 .f32) (x2 : Vec Ideal S32 .f32) (x3 : Vec Ideal S256x32 .f32) (x4 : Vec Ideal S256 .f32) :
    out0_A_5 (F := Ideal) c i arg1 harg1 arg2 harg2 arg3 harg3 arg4 harg4 arg5 harg5 arg6 harg6 x0 x1 x2 x3 x4 = scaled x0 (gateK (covAcc x0 8) x1 x2 x3 x4) := by
  refine out_eq_of c i arg1 harg1 arg2 harg2 arg3 harg3 arg4 harg4 arg5 harg5 arg6 harg6 x0 x1 x2 x3 x4 _ fun k y => ?_
  rw [gateCol_eq]
  obtain ⟨u, r, q, rfl⟩ : ∃ (u : Fin 1) (r : Fin 256) (q : Fin 1152), y = ix3 u r q := ⟨y 0, y 1, y 2, eq_ix3 y⟩
  obtain rfl : u = 0 := Subsingleton.elim _ _
  rw [pay1_apply]
  unfold scaled
  have e : ∀ a, ((Rect.unit (s := S1x256x9216) (k0_off3 k) S1x256x1152.size (k0_off3_inb k)).emb (ix3 (0 : Fin 1) r q) a).val
      = (![0, 0, 1152 * k.val] : Fin 3 → ℕ) a + ((ix3 (0 : Fin 1) r q : S1x256x1152.Idx) a).val := by
    intro a
    rw [Rect.emb_apply, Rect.off_unit, Rect.stride_unit, Nat.one_mul]
    exact congrArg (· + ((ix3 (0 : Fin 1) r q : S1x256x1152.Idx) a).val) (congrFun (k0_off3_eq k) a)
  have e1 : (((Rect.unit (s := S1x256x9216) (k0_off3 k) S1x256x1152.size (k0_off3_inb k)).emb (ix3 (0 : Fin 1) r q)) 1).val = r.val := by
    rw [e 1]; show 0 + r.val = r.val; omega
  have ea : ldChunk x0 (k0_off3 k) (k0_off3_inb k) (ix3 (0 : Fin 1) r q)
      = x0 ((Rect.unit (s := S1x256x9216) (k0_off3 k) S1x256x1152.size (k0_off3_inb k)).emb (ix3 (0 : Fin 1) r q)) :=
    ldChunk_apply x0 _ _ k.val (k0_off3_eq k) _ _ (by rw [e 0]; rfl) (by rw [e 1]; exact Nat.zero_add _) (by rw [e 2]; rfl)
  have eb : (ix2 r (0 : Fin 1) : S256x1.Idx) = ix2 (⟨_, (((Rect.unit (s := S1x256x9216) (k0_off3 k) S1x256x1152.size (k0_off3_inb k)).emb (ix3 (0 : Fin 1) r q)) 1).isLt⟩ : Fin 256) (0 : Fin 1) :=
    congrArg (fun z : Fin 256 => (ix2 z (0 : Fin 1) : S256x1.Idx)) (Fin.ext e1.symm)
  rw [ea, eb]

end Cert.KernelIdeal.Hand

end
-- ==== Proof.KFinal.lean ====
/-
  From the blocks to the result. Grid point t of the kernel is handed batch element t of the reshaped input
  (a [1, 256, 9216] block) and the four weight arrays whole, and writes back block t of the [16, 256, 9216]
  result; the 16 blocks tile the result, which the program then reshapes to [16, 256, 96, 96]. So the program
  ends with its result holding, at (b, c, h, w), the input's entry there times the gate of batch element b
  at channel c.
-/
import proofs.«169248_j41953240547848_2_alg».proof.Proof.KValue
import Idealize.ShloMosaic.Lib.StableHlo.Run

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable [Cert.ReferenceIdeal.Facts]
variable (m : (ℓ : Loc nD τ sig) → Buf (Elt Ideal) ℓ) (ρ : Dev nD → PrngReg)

/-- Batch element b of a [16, 256, 9216] array as a [1, 256, 9216] block. -/
def blockOf (Xr : S16x256x9216.Idx → Elt Ideal .f32) (b : Fin 16) : Vec Ideal S1x256x9216 .f32 :=
  fun y => Xr (ix3 b (⟨(y 1).val, (y 1).isLt⟩ : Fin 256) (⟨(y 2).val, (y 2).isLt⟩ : Fin 9216))

/-- The [16, 256, 9216] result: each batch element's block scaled channel by channel by its gate. -/
def scaledAll (Xr : S16x256x9216.Idx → Elt Ideal .f32) (W1 : Vec Ideal S32x256 .f32) (B1 : Vec Ideal S32 .f32)
    (W2 : Vec Ideal S256x32 .f32) (B2 : Vec Ideal S256 .f32) : S16x256x9216.Idx → Elt Ideal .f32 :=
  fun i => scaled (blockOf Xr (⟨(i 0).val, (i 0).isLt⟩ : Fin 16))
    (gateK (covAcc (blockOf Xr (⟨(i 0).val, (i 0).isLt⟩ : Fin 16)) 8) W1 B1 W2 B2)
    (ix3 (0 : Fin 1) (⟨(i 1).val, (i 1).isLt⟩ : Fin 256) (⟨(i 2).val, (i 2).isLt⟩ : Fin 9216))

/-- The block indices of the six windows over the grid. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

theorem tlt (t : Fin cfg0.N) : t.val < 16 := by have h : cfg0.N = 16 := N_0; have := t.isLt; omega

/-- The first window's block at point t is batch element t of the reshaped input. -/
theorem iblk0_eq (c : Dev nD) (t : Fin cfg0.N) :
    (iblk m c 0 t : Vec Ideal S1x256x9216 .f32) = blockOf (V m c main_v0) ⟨t.val, tlt t⟩ := by
  obtain ⟨e0, e1, e2, -⟩ := idx_facts t
  funext y
  unfold iblk blockOf
  rw [View.read_apply]
  show V m c main_v0 _ = V m c main_v0 _
  refine congrArg (V m c main_v0) (funext fun a => Fin.ext ?_)
  have hy0 : (y 0).val < 1 := (y 0).isLt
  match a with
  | ⟨0, _⟩ => show win0_0.index t (0 : Fin 3) * 1 + 1 * (y 0).val = t.val; rw [e0]; omega
  | ⟨1, _⟩ => show win0_0.index t (1 : Fin 3) * 256 + 1 * (y 1).val = (y 1).val; rw [e1]; omega
  | ⟨2, _⟩ => show win0_0.index t (2 : Fin 3) * 9216 + 1 * (y 2).val = (y 2).val; rw [e2]; omega

theorem iblk1_eq (c : Dev nD) (t : Fin cfg0.N) : (iblk m c 1 t : Vec Ideal S32x256 .f32) = V m c main_arg1 := by
  obtain ⟨-, -, -, -, -, -, e0, e1, -⟩ := idx_facts t
  funext y
  unfold iblk
  rw [View.read_apply]
  show V m c main_arg1 _ = V m c main_arg1 _
  refine congrArg (V m c main_arg1) (funext fun a => Fin.ext ?_)
  match a with
  | ⟨0, _⟩ => show win0_1.index t (0 : Fin 2) * 32 + 1 * (y 0).val = (y 0).val; rw [e0]; omega
  | ⟨1, _⟩ => show win0_1.index t (1 : Fin 2) * 256 + 1 * (y 1).val = (y 1).val; rw [e1]; omega

theorem iblk2_eq (c : Dev nD) (t : Fin cfg0.N) : (iblk m c 2 t : Vec Ideal S32 .f32) = V m c main_arg2 := by
  obtain ⟨-, -, -, -, -, -, -, -, e0, -⟩ := idx_facts t
  funext y
  unfold iblk
  rw [View.read_apply]
  show V m c main_arg2 _ = V m c main_arg2 _
  refine congrArg (V m c main_arg2) (funext fun a => Fin.ext ?_)
  match a with
  | ⟨0, _⟩ => show win0_2.index t (0 : Fin 1) * 32 + 1 * (y 0).val = (y 0).val; rw [e0]; omega

theorem iblk3_eq (c : Dev nD) (t : Fin cfg0.N) : (iblk m c 3 t : Vec Ideal S256x32 .f32) = V m c main_arg3 := by
  obtain ⟨-, -, -, -, -, -, -, -, -, e0, e1, -⟩ := idx_facts t
  funext y
  unfold iblk
  rw [View.read_apply]
  show V m c main_arg3 _ = V m c main_arg3 _
  refine congrArg (V m c main_arg3) (funext fun a => Fin.ext ?_)
  match a with
  | ⟨0, _⟩ => show win0_3.index t (0 : Fin 2) * 256 + 1 * (y 0).val = (y 0).val; rw [e0]; omega
  | ⟨1, _⟩ => show win0_3.index t (1 : Fin 2) * 32 + 1 * (y 1).val = (y 1).val; rw [e1]; omega

theorem iblk4_eq (c : Dev nD) (t : Fin cfg0.N) : (iblk m c 4 t : Vec Ideal S256 .f32) = V m c main_arg4 := by
  obtain ⟨-, -, -, -, -, -, -, -, -, -, -, e0⟩ := idx_facts t
  funext y
  unfold iblk
  rw [View.read_apply]
  show V m c main_arg4 _ = V m c main_arg4 _
  refine congrArg (V m c main_arg4) (funext fun a => Fin.ext ?_)
  match a with
  | ⟨0, _⟩ => show win0_4.index t (0 : Fin 1) * 256 + 1 * (y 0).val = (y 0).val; rw [e0]; omega

/-- What point t writes back is block t of `scaledAll` of the arrays as the region finds them. -/
theorem flushed_eq (c : Dev nD) (t : Fin cfg0.N) :
    (dats m 0 c).flushed 5 t = ((cfg0.win 5).blk t).view.read (Elt Ideal)
      (scaledAll (V m c main_v0) (V m c main_arg1) (V m c main_arg2) (V m c main_arg3) (V m c main_arg4)) := by
  show (cfg0.win 5).cut (grid0.coords t) ((dats m 0 c).after 5 t) = _
  rw [after0_5]
  unfold outsAt0
  rw [out_eq, iblk0_eq, iblk1_eq, iblk2_eq, iblk3_eq, iblk4_eq]
  obtain ⟨-, -, -, e0, e1, e2, -⟩ := idx_facts t
  funext y
  obtain ⟨u, r, q, rfl⟩ : ∃ (u : Fin 1) (r : Fin 256) (q : Fin 9216), y = ix3 u r q := ⟨y 0, y 1, y 2, eq_ix3 y⟩
  obtain rfl : u = 0 := Subsingleton.elim _ _
  have hemb : ((cfg0.win 5).blk t).view.emb (ix3 (0 : Fin 1) r q) = (ix3 (⟨t.val, tlt t⟩ : Fin 16) r q : S16x256x9216.Idx) := by
    funext a; apply Fin.ext
    match a with
    | ⟨0, _⟩ => show win0_5.index t (0 : Fin 3) * 1 + 1 * 0 = t.val; rw [e0]; omega
    | ⟨1, _⟩ => show win0_5.index t (1 : Fin 3) * 256 + 1 * r.val = r.val; rw [e1]; omega
    | ⟨2, _⟩ => show win0_5.index t (2 : Fin 3) * 9216 + 1 * q.val = q.val; rw [e2]; omega
  rw [View.read_apply, hemb]
  rfl

/-- Every entry of the result lies in the block of the point its batch coordinate names. -/
theorem cover (i : S16x256x9216.Idx) :
    ∃ t : Fin cfg0.N, (cfg0.win 5).flush t = true ∧ i ∈ ((cfg0.win 5).blk t).view.set := by
  have hN : cfg0.N = 16 := N_0
  have h0 : (i 0).val < 16 := (i 0).isLt
  have h1 : (i 1).val < 256 := (i 1).isLt
  have h2 : (i 2).val < 9216 := (i 2).isLt
  obtain ⟨t, ht⟩ : ∃ t : Fin cfg0.N, t.val = (i 0).val := ⟨⟨(i 0).val, by omega⟩, rfl⟩
  refine ⟨t, flush0_5 t, ?_⟩
  obtain ⟨-, -, -, e0, e1, e2, -⟩ := idx_facts t
  show i ∈ ((View.whole main_v1).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 256 ≤ (i 1).val ∧ (i 1).val < win0_5.index t (1 : Fin 3) * 256 + 256
    rw [e1]; omega
  | ⟨2, _⟩ =>
    show win0_5.index t (2 : Fin 3) * 9216 ≤ (i 2).val ∧ (i 2).val < win0_5.index t (2 : Fin 3) * 9216 + 9216
    rw [e2]; omega

/-- The [16, 256, 9216] result array after the region. -/
theorem final5 (c : Dev nD) : (dats m 0 c).arrAt 5 cfg0.N
    = scaledAll (V m c main_v0) (V m c main_arg1) (V m c main_arg2) (V m c main_arg3) (V m c main_arg4) :=
  (dats m 0 c).arrAt_eq_of_cover 5 _ (fun t _ => flushed_eq m c t) cover

/-- The reshaped input as the region finds it. -/
theorem V_v0 (c : Dev nD) : (V m c main_v0 : S16x256x9216.Idx → Elt Ideal .f32)
    = shapeCast S16x256x9216 (m ((c : Thread nD τ).loc main_arg0)) shapeCasts_S16x256x96x96_S16x256x9216 := by
  show StableHlo.after hostOps0 (fun b => m (c, b)) (Proc.devRef .tc main_v0) = _
  after_results
  rfl

/-- The program's result as one function of its argument arrays. -/
def kernelResult (x : S16x256x96x96.Idx → Elt Ideal .f32) (w1 : Vec Ideal S32x256 .f32) (b1 : Vec Ideal S32 .f32)
    (w2 : Vec Ideal S256x32 .f32) (b2 : Vec Ideal S256 .f32) : S16x256x96x96.Idx → Elt Ideal .f32 :=
  shapeCast S16x256x96x96
    (scaledAll (shapeCast S16x256x9216 x shapeCasts_S16x256x96x96_S16x256x9216) w1 b1 w2 b2)
    shapeCasts_S16x256x9216_S16x256x96x96

/-- After the region the result array is reshaped back to [16, 256, 96, 96]. -/
theorem tail_v2 (c : Dev nD) :
    Pipeline.afterTail₀ cfgs (dats m) 0 (V0 m) [hostOps1] c main_v2
      = kernelResult (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v2) = _
  after_results
  rw [Pipeline.withArrays_arr spec0 launch0.win.arr_inj c _ _ 5, final5, V_v0, V_main_arg1, V_main_arg2, V_main_arg3, V_main_arg4]
  rfl

/-- The run, read: the result at `kernelResult` of the arguments, the arguments unchanged. -/
theorem run : θ_run defs (onTc (τ := τ) (main (F := Ideal))) ⟨m, fun _ => 0, ρ⟩ fun r => ∀ c : Dev nD,
      r.2.mem ((c.tc : Thread nD τ).loc main_v2)
        = kernelResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- Batch element b of the reshaped input is the block `xblock x b`. -/
theorem blockOf_reshape (x : S16x256x96x96.Idx → Elt Ideal .f32) (b : Fin 16) :
    blockOf (shapeCast S16x256x9216 x shapeCasts_S16x256x96x96_S16x256x9216) b = xblock x b := by
  funext y
  unfold blockOf xblock
  have h2 : (y 2).val < 9216 := (y 2).isLt
  refine shapeCast_apply x _ _ _ ?_
  rw [Shape.rowMajor_val_four, Shape.rowMajor_val_three]
  show ((b.val * 256 + (y 1).val) * 96 + (y 2).val / 96) * 96 + (y 2).val % 96 = (b.val * 256 + (y 1).val) * 9216 + (y 2).val
  omega

/-- The result at (b, c, h, w): the input's entry there times the gate of batch element b at channel c. -/
theorem kernelResult_apply (x : S16x256x96x96.Idx → Elt Ideal .f32) (w1 : Vec Ideal S32x256 .f32) (b1 : Vec Ideal S32 .f32)
    (w2 : Vec Ideal S256x32 .f32) (b2 : Vec Ideal S256 .f32) (b : Fin 16) (c : Fin 256) (h w : Fin 96) :
    kernelResult x w1 b1 w2 b2 (ix4 b c h w)
      = x (ix4 b c h w) * gateK (covAcc (xblock x b) 8) w1 b1 w2 b2 (ix2 c (0 : Fin 1)) := by
  have hh := h.isLt
  have hw := w.isLt
  unfold kernelResult
  rw [shapeCast_apply _ shapeCasts_S16x256x9216_S16x256x96x96 (ix4 b c h w) (ix3 b c (⟨96 * h.val + w.val, by omega⟩ : Fin 9216)) (by
    rw [Shape.rowMajor_val_three, Shape.rowMajor_val_four]
    show (b.val * 256 + c.val) * 9216 + (96 * h.val + w.val) = ((b.val * 256 + c.val) * 96 + h.val) * 96 + w.val
    omega)]
  unfold scaledAll scaled
  show blockOf _ b (ix3 (0 : Fin 1) c (⟨96 * h.val + w.val, by omega⟩ : Fin 9216)) * gateK (covAcc (blockOf _ b) 8) w1 b1 w2 b2 (ix2 c (0 : Fin 1)) = _
  rw [blockOf_reshape]
  refine congrArg (· * gateK (covAcc (xblock x b) 8) w1 b1 w2 b2 (ix2 c (0 : Fin 1))) ?_
  unfold xblock
  refine congrArg x (funext fun a => Fin.ext ?_)
  match a with
  | ⟨0, _⟩ => rfl
  | ⟨1, _⟩ => rfl
  | ⟨2, _⟩ => show (96 * h.val + w.val) / 96 = h.val; omega
  | ⟨3, _⟩ => show (96 * h.val + w.val) % 96 = w.val; omega

end Cert.KernelIdeal.Hand

end
-- ==== Proof.RefRunOps.lean ====
/- The reference's @main as a list of its 112 host operations, the outlined functions' lines listed where they are called, in 11 consecutive
   windows; what each window writes; every operation on TensorCore references only. -/
import proofs.«169248_j41953240547848_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 12 of 112. -/
abbrev ops1 : List (HloOp τ sig (Elt F)) :=
  [ StableHlo.reshape main_arg0 main_v0 rfl shapeCasts_S16x256x96x96_S16x256x9216,
    StableHlo.nullary main_cst (constant S_ .f32 0x00000000#32),
    StableHlo.binary main_v0 main_cst main_v1 ((fun x v => Host.reduceAdd x v reducesTo_S16x256x9216_S16x256_d2 h_S_) : (⟨S16x256x9216, .f32⟩ : BufTy).Contents (Elt F) → (⟨S_, .f32⟩ : BufTy).Contents (Elt F) → (⟨S16x256, .f32⟩ : BufTy).Contents (Elt F)),
    StableHlo.unary main_v1 main_v2 (broadcastInDim S16x256x1 ![0, 1] bcast_S16x256_S16x256x1_0_1 : (⟨S16x256, .f32⟩ : BufTy).Contents (Elt F) → (⟨S16x256x1, .f32⟩ : BufTy).Contents (Elt F)),
    StableHlo.nullary main_cst_0 (constant S_ .f32 0x46100000#32),
    StableHlo.unary main_cst_0 main_v3 (broadcastInDim S16x256x1 ![] bcast_S_S16x256x1 : (⟨S_, .f32⟩ : BufTy).Contents (Elt F) → (⟨S16x256x1, .f32⟩ : BufTy).Contents (Elt F)),
    StableHlo.binary main_v2 main_v3 main_v4 (Host.divf : (⟨S16x256x1, .f32⟩ : BufTy).Contents (Elt F) → (⟨S16x256x1, .f32⟩ : BufTy).Contents (Elt F) → (⟨S16x256x1, .f32⟩ : BufTy).Contents (Elt F)),
    StableHlo.unary main_v4 main_v5 (broadcastInDim S16x256x9216 ![0, 1, 2] bcast_S16x256x1_S16x256x9216_0_1_2 : (⟨S16x256x1, .f32⟩ : BufTy).Contents (Elt F) → (⟨S16x256x9216, .f32⟩ : BufTy).Contents (Elt F)),
    StableHlo.binary main_v0 main_v5 main_v6 (subf : (⟨S16x256x9216, .f32⟩ : BufTy).Contents (Elt F) → (⟨S16x256x9216, .f32⟩ : BufTy).Contents (Elt F) → (⟨S16x256x9216, .f32⟩ : BufTy).Contents (Elt F)),
    StableHlo.binary main_v6 main_v0 main_v7 ((fun l r => Host.dotGeneral dot_S16x256x9216_S16x256x9216_S16x256x256_2_2_1_1_0_0 none l r) : (⟨S16x256x9216, .f32⟩ : BufTy).Contents (Elt F) → (⟨S16x256x9216, .f32⟩ : BufTy).Contents (Elt F) → (⟨S16x256x256, .f32⟩ : BufTy).Contents (Elt F)),
    StableHlo.nullary main_cst_1 (constant S_ .f32 0x46100000#32),
    StableHlo.unary main_cst_1 main_v8 (broadcastInDim S16x256x256 ![] bcast_S_S16x256x256 : (⟨S_, .f32⟩ : BufTy).Contents (Elt F) → (⟨S16x256x256, .f32⟩ : BufTy).Contents (Elt F)) ]

/-- The buffers they write. -/
abbrev ops1_W : List (Ref sig .tc) := [main_v0, main_cst, main_v1, main_v2, main_cst_0, main_v3, main_v4, main_v5, main_v6, main_v7, main_cst_1, main_v8]
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops1_sub : (ops1 : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub ..⟩

/-- Operations 13 … 23 of 112. -/
abbrev ops2 : List (HloOp τ sig (Elt F)) :=
  [ StableHlo.binary main_v7 main_v8 main_v9 (Host.divf : (⟨S16x256x256, .f32⟩ : BufTy).Contents (Elt F) → (⟨S16x256x256, .f32⟩ : BufTy).Contents (Elt F) → (⟨S16x256x256, .f32⟩ : BufTy).Contents (Elt F)),
    StableHlo.nullary main_v10 (iotaInDim S256x256 32 0),
    StableHlo.nullary main_v11 (iotaInDim S256x256 32 1),
    StableHlo.nullary main_c (constantI S_ 32 0#32),
    StableHlo.unary main_c main_v12 (broadcastInDim S256x256 ![] bcast_S_S256x256 : (⟨S_, .i32⟩ : BufTy).Contents (Elt F) → (⟨S256x256, .i32⟩ : BufTy).Contents (Elt F)),
    StableHlo.binary main_v10 main_v12 main_v13 (addi : (⟨S256x256, .i32⟩ : BufTy).Contents (Elt F) → (⟨S256x256, .i32⟩ : BufTy).Contents (Elt F) → (⟨S256x256, .i32⟩ : BufTy).Contents (Elt F)),
    StableHlo.binary main_v13 main_v11 main_v14 (cmpi .eq : (⟨S256x256, .i32⟩ : BufTy).Contents (Elt F) → (⟨S256x256, .i32⟩ : BufTy).Contents (Elt F) → (⟨S256x256, .i1⟩ : BufTy).Contents (Elt F)),
    StableHlo.unary main_v14 main_v15 (uitofp .f32 : (⟨S256x256, .i1⟩ : BufTy).Contents (Elt F) → (⟨S256x256, .f32⟩ : BufTy).Contents (Elt F)),
    StableHlo.nullary main_cst_2 (constant S_ .f32 0x40400000#32),
    StableHlo.unary main_cst_2 main_v16 (broadcastInDim S256x256 ![] bcast_S_S256x256 : (⟨S_, .f32⟩ : BufTy).Contents (Elt F) → (⟨S256x256, .f32⟩ : BufTy).Contents (Elt F)),
    StableHlo.binary main_v16 main_v15 main_v17 (mulf : (⟨S256x256, .f32⟩ : BufTy).Contents (Elt F) → (⟨S256x256, .f32⟩ : BufTy).Contents (Elt F) → (⟨S256x256, .f32⟩ : BufTy).Contents (Elt F)) ]

/-- The buffers they write. -/
abbrev ops2_W : List (Ref sig .tc) := [main_v9, main_v10, main_v11, main_c, main_v12, main_v13, main_v14, main_v15, main_cst_2, main_v16, main_v17]
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops2_sub : (ops2 : List (HloOp τ sig (Elt F))).Forall fun op => op.bufs ⊆ tcRefs τ sig :=
  ⟨binary_bufs_sub .., nullary_bufs_sub .., nullary_bufs_sub .., nullary_bufs_sub .., unary_bufs_sub .., binary_bufs_sub .., binary_bufs_sub .., unary_bufs_sub .., nullary_bufs_sub .., unary_bufs_sub .., binary_bufs_sub ..⟩

/-- Operations 24 … 35 of 112. -/
abbrev ops3 : List (HloOp τ sig (Elt F)) :=
  [ StableHlo.TRef.nullary main_call0.v0 (iotaInDim S256x256 32 0),
    StableHlo.TRef.nullary main_call0.v1 (iotaInDim S256x256 32 1),
    StableHlo.TRef.nullary main_call0.c (constantI S_ 32 0#32),
    StableHlo.TRef.unary main_call0.c main_call0.v2 (broadcastInDim S256x256 ![] bcast_S_S256x256),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S16x256x256 ![] bcast_S_S16x256x256),
    StableHlo.TRef.unary main_call0.v4 main_call0.call0.v0 (broadcastInDim S16x256x256 ![1, 2] bcast_S256x256_S16x256x256_1_2),
    StableHlo.TRef.ternary main_call0.call0.v0 (.of main_v9 : StableHlo.TRef sig ⟨S16x256x256, .f32⟩) main_call0.v5 main_call0.call0.v1 select,
    StableHlo.TRef.nullary main_call0.cst_0 (constant S_ .f32 0x00000000#32),
    StableHlo.TRef.binary main_call0.call0.v1 main_call0.cst_0 main_call0.v7 (fun x v => Host.reduceAdd x v reducesTo_S16x256x256_S16_d1_2 h_S_) ]

/-- The buffers they write. -/
abbrev ops3_W : List (Ref sig .tc) := [main_call0_v0, main_call0_v1, main_call0_c, main_call0_v2, main_call0_v3, main_call0_v4, main_call0_cst, main_call0_v5, main_call0_call0_v0, main_call0_v6, main_call0_cst_0, main_v18]
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops3_sub : (ops3 : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., binary_bufs_sub ..⟩

/-- Operations 36 … 47 of 112. -/
abbrev ops4 : List (HloOp τ sig (Elt F)) :=
  [ StableHlo.unary main_v18 main_v19 (broadcastInDim S16x1x1 ![0] bcast_S16_S16x1x1_0 : (⟨S16, .f32⟩ : BufTy).Contents (Elt F) → (⟨S16x1x1, .f32⟩ : BufTy).Contents (Elt F)),
    StableHlo.unary main_v19 main_v20 (broadcastInDim S16x256x256 ![0, 1, 2] bcast_S16x1x1_S16x256x256_0_1_2 : (⟨S16x1x1, .f32⟩ : BufTy).Contents (Elt F) → (⟨S16x256x256, .f32⟩ : BufTy).Contents (Elt F)),
    StableHlo.binary main_v9 main_v20 main_v21 (Host.divf : (⟨S16x256x256, .f32⟩ : BufTy).Contents (Elt F) → (⟨S16x256x256, .f32⟩ : BufTy).Contents (Elt F) → (⟨S16x256x256, .f32⟩ : BufTy).Contents (Elt F)),
    StableHlo.unary main_v17 main_v22 (broadcastInDim S1x256x256 ![1, 2] bcast_S256x256_S1x256x256_1_2 : (⟨S256x256, .f32⟩ : BufTy).Contents (Elt F) → (⟨S1x256x256, .f32⟩ : BufTy).Contents (Elt F)),
    StableHlo.unary main_v22 main_v23 (broadcastInDim S16x256x256 ![0, 1, 2] bcast_S1x256x256_S16x256x256_0_1_2 : (⟨S1x256x256, .f32⟩ : BufTy).Contents (Elt F) → (⟨S16x256x256, .f32⟩ : BufTy).Contents (Elt F)),
    StableHlo.binary main_v23 main_v21 main_v24 (subf : (⟨S16x256x256, .f32⟩ : BufTy).Contents (Elt F) → (⟨S16x256x256, .f32⟩ : BufTy).Contents (Elt F) → (⟨S16x256x256, .f32⟩ : BufTy).Contents (Elt F)),
    StableHlo.nullary main_cst_3 (constant S_ .f32 0x3F000000#32),
    StableHlo.unary main_cst_3 main_v25 (broadcastInDim S16x256x256 ![] bcast_S_S16x256x256 : (⟨S_, .f32⟩ : BufTy).Contents (Elt F) → (⟨S16x256x256, .f32⟩ : BufTy).Contents (Elt F)),
    StableHlo.binary main_v25 main_v24 main_v26 (mulf : (⟨S16x256x256, .f32⟩ : BufTy).Contents (Elt F) → (⟨S16x256x256, .f32⟩ : BufTy).Contents (Elt F) → (⟨S16x256x256, .f32⟩ : BufTy).Contents (Elt F)),
    StableHlo.binary main_v21 main_v26 main_v27 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.binary main_v26 main_v27 main_v28 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.unary main_v17 main_v29 (broadcastInDim S1x256x256 ![1, 2] bcast_S256x256_S1x256x256_1_2 : (⟨S256x256, .f32⟩ : BufTy).Contents (Elt F) → (⟨S1x256x256, .f32⟩ : BufTy).Contents (Elt F)) ]

/-- The buffers they write. -/
abbrev ops4_W : List (Ref sig .tc) := [main_v19, main_v20, main_v21, main_v22, main_v23, main_v24, main_cst_3, main_v25, main_v26, main_v27, main_v28, main_v29]
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops4_sub : (ops4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub ..⟩

/-- Operations 48 … 59 of 112. -/
abbrev ops5 : List (HloOp τ sig (Elt F)) :=
  [ StableHlo.unary main_v29 main_v30 (broadcastInDim S16x256x256 ![0, 1, 2] bcast_S1x256x256_S16x256x256_0_1_2 : (⟨S1x256x256, .f32⟩ : BufTy).Contents (Elt F) → (⟨S16x256x256, .f32⟩ : BufTy).Contents (Elt F)),
    StableHlo.binary main_v30 main_v28 main_v31 (subf : (⟨S16x256x256, .f32⟩ : BufTy).Contents (Elt F) → (⟨S16x256x256, .f32⟩ : BufTy).Contents (Elt F) → (⟨S16x256x256, .f32⟩ : BufTy).Contents (Elt F)),
    StableHlo.nullary main_cst_4 (constant S_ .f32 0x3F000000#32),
    StableHlo.unary main_cst_4 main_v32 (broadcastInDim S16x256x256 ![] bcast_S_S16x256x256 : (⟨S_, .f32⟩ : BufTy).Contents (Elt F) → (⟨S16x256x256, .f32⟩ : BufTy).Contents (Elt F)),
    StableHlo.binary main_v32 main_v31 main_v33 (mulf : (⟨S16x256x256, .f32⟩ : BufTy).Contents (Elt F) → (⟨S16x256x256, .f32⟩ : BufTy).Contents (Elt F) → (⟨S16x256x256, .f32⟩ : BufTy).Contents (Elt F)),
    StableHlo.binary main_v27 main_v33 main_v34 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.binary main_v33 main_v26 main_v35 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.binary main_v35 main_v34 main_v36 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.unary main_v17 main_v37 (broadcastInDim S1x256x256 ![1, 2] bcast_S256x256_S1x256x256_1_2 : (⟨S256x256, .f32⟩ : BufTy).Contents (Elt F) → (⟨S1x256x256, .f32⟩ : BufTy).Contents (Elt F)),
    StableHlo.unary main_v37 main_v38 (broadcastInDim S16x256x256 ![0, 1, 2] bcast_S1x256x256_S16x256x256_0_1_2 : (⟨S1x256x256, .f32⟩ : BufTy).Contents (Elt F) → (⟨S16x256x256, .f32⟩ : BufTy).Contents (Elt F)),
    StableHlo.binary main_v38 main_v36 main_v39 (subf : (⟨S16x256x256, .f32⟩ : BufTy).Contents (Elt F) → (⟨S16x256x256, .f32⟩ : BufTy).Contents (Elt F) → (⟨S16x256x256, .f32⟩ : BufTy).Contents (Elt F)),
    StableHlo.nullary main_cst_5 (constant S_ .f32 0x3F000000#32) ]

/-- The buffers they write. -/
abbrev ops5_W : List (Ref sig .tc) := [main_v30, main_v31, main_cst_4, main_v32, main_v33, main_v34, main_v35, main_v36, main_v37, main_v38, main_v39, main_cst_5]
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops5_sub : (ops5 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub ..⟩

/-- Operations 60 … 71 of 112. -/
abbrev ops6 : List (HloOp τ sig (Elt F)) :=
  [ StableHlo.unary main_cst_5 main_v40 (broadcastInDim S16x256x256 ![] bcast_S_S16x256x256 : (⟨S_, .f32⟩ : BufTy).Contents (Elt F) → (⟨S16x256x256, .f32⟩ : BufTy).Contents (Elt F)),
    StableHlo.binary main_v40 main_v39 main_v41 (mulf : (⟨S16x256x256, .f32⟩ : BufTy).Contents (Elt F) → (⟨S16x256x256, .f32⟩ : BufTy).Contents (Elt F) → (⟨S16x256x256, .f32⟩ : BufTy).Contents (Elt F)),
    StableHlo.binary main_v34 main_v41 main_v42 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.binary main_v41 main_v35 main_v43 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.binary main_v43 main_v42 main_v44 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.unary main_v17 main_v45 (broadcastInDim S1x256x256 ![1, 2] bcast_S256x256_S1x256x256_1_2 : (⟨S256x256, .f32⟩ : BufTy).Contents (Elt F) → (⟨S1x256x256, .f32⟩ : BufTy).Contents (Elt F)),
    StableHlo.unary main_v45 main_v46 (broadcastInDim S16x256x256 ![0, 1, 2] bcast_S1x256x256_S16x256x256_0_1_2 : (⟨S1x256x256, .f32⟩ : BufTy).Contents (Elt F) → (⟨S16x256x256, .f32⟩ : BufTy).Contents (Elt F)),
    StableHlo.binary main_v46 main_v44 main_v47 (subf : (⟨S16x256x256, .f32⟩ : BufTy).Contents (Elt F) → (⟨S16x256x256, .f32⟩ : BufTy).Contents (Elt F) → (⟨S16x256x256, .f32⟩ : BufTy).Contents (Elt F)),
    StableHlo.nullary main_cst_6 (constant S_ .f32 0x3F000000#32),
    StableHlo.unary main_cst_6 main_v48 (broadcastInDim S16x256x256 ![] bcast_S_S16x256x256 : (⟨S_, .f32⟩ : BufTy).Contents (Elt F) → (⟨S16x256x256, .f32⟩ : BufTy).Contents (Elt F)),
    StableHlo.binary main_v48 main_v47 main_v49 (mulf : (⟨S16x256x256, .f32⟩ : BufTy).Contents (Elt F) → (⟨S16x256x256, .f32⟩ : BufTy).Contents (Elt F) → (⟨S16x256x256, .f32⟩ : BufTy).Contents (Elt F)),
    StableHlo.binary main_v42 main_v49 main_v50 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)) ]

/-- The buffers they write. -/
abbrev ops6_W : List (Ref sig .tc) := [main_v40, main_v41, main_v42, main_v43, main_v44, main_v45, main_v46, main_v47, main_cst_6, main_v48, main_v49, main_v50]
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops6_sub : (ops6 : List (HloOp τ sig (Elt F))).Forall fun op => op.bufs ⊆ tcRefs τ sig :=
  ⟨unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub ..⟩

/-- Operations 72 … 82 of 112. -/
abbrev ops7 : List (HloOp τ sig (Elt F)) :=
  [ StableHlo.binary main_v49 main_v43 main_v51 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.binary main_v51 main_v50 main_v52 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.unary main_v17 main_v53 (broadcastInDim S1x256x256 ![1, 2] bcast_S256x256_S1x256x256_1_2 : (⟨S256x256, .f32⟩ : BufTy).Contents (Elt F) → (⟨S1x256x256, .f32⟩ : BufTy).Contents (Elt F)),
    StableHlo.unary main_v53 main_v54 (broadcastInDim S16x256x256 ![0, 1, 2] bcast_S1x256x256_S16x256x256_0_1_2 : (⟨S1x256x256, .f32⟩ : BufTy).Contents (Elt F) → (⟨S16x256x256, .f32⟩ : BufTy).Contents (Elt F)),
    StableHlo.binary main_v54 main_v52 main_v55 (subf : (⟨S16x256x256, .f32⟩ : BufTy).Contents (Elt F) → (⟨S16x256x256, .f32⟩ : BufTy).Contents (Elt F) → (⟨S16x256x256, .f32⟩ : BufTy).Contents (Elt F)),
    StableHlo.binary main_v50 main_v55 main_v56 ((fun l r => Host.dotGeneral dot_S16x256x256_S16x256x256_S16x256x256_2_1_1_2_0_0 none l r) : (⟨S16x256x256, .f32⟩ : BufTy).Contents (Elt F) → (⟨S16x256x256, .f32⟩ : BufTy).Contents (Elt F) → (⟨S16x256x256, .f32⟩ : BufTy).Contents (Elt F)),
    StableHlo.nullary main_cst_7 (constant S_ .f32 0x3F000000#32),
    StableHlo.unary main_cst_7 main_v57 (broadcastInDim S16x256x256 ![] bcast_S_S16x256x256 : (⟨S_, .f32⟩ : BufTy).Contents (Elt F) → (⟨S16x256x256, .f32⟩ : BufTy).Contents (Elt F)),
    StableHlo.binary main_v57 main_v56 main_v58 (mulf : (⟨S16x256x256, .f32⟩ : BufTy).Contents (Elt F) → (⟨S16x256x256, .f32⟩ : BufTy).Contents (Elt F) → (⟨S16x256x256, .f32⟩ : BufTy).Contents (Elt F)),
    StableHlo.unary main_v19 main_v59 (Host.sqrt : (⟨S16x1x1, .f32⟩ : BufTy).Contents (Elt F) → (⟨S16x1x1, .f32⟩ : BufTy).Contents (Elt F)),
    StableHlo.unary main_v59 main_v60 (broadcastInDim S16x256x256 ![0, 1, 2] bcast_S16x1x1_S16x256x256_0_1_2 : (⟨S16x1x1, .f32⟩ : BufTy).Contents (Elt F) → (⟨S16x256x256, .f32⟩ : BufTy).Contents (Elt F)) ]

/-- The buffers they write. -/
abbrev ops7_W : List (Ref sig .tc) := [main_v51, main_v52, main_v53, main_v54, main_v55, main_v56, main_cst_7, main_v57, main_v58, main_v59, main_v60]
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops7_sub : (ops7 : List (HloOp τ sig (Elt F))).Forall fun op => op.bufs ⊆ tcRefs τ sig :=
  ⟨binary_bufs_sub .., binary_bufs_sub .., unary_bufs_sub .., unary_bufs_sub .., binary_bufs_sub .., binary_bufs_sub .., nullary_bufs_sub .., unary_bufs_sub .., binary_bufs_sub .., unary_bufs_sub .., unary_bufs_sub ..⟩

/-- Operations 83 … 93 of 112. -/
abbrev ops8 : List (HloOp τ sig (Elt F)) :=
  [ StableHlo.binary main_v58 main_v60 main_v61 (mulf : (⟨S16x256x256, .f32⟩ : BufTy).Contents (Elt F) → (⟨S16x256x256, .f32⟩ : BufTy).Contents (Elt F) → (⟨S16x256x256, .f32⟩ : BufTy).Contents (Elt F)),
    StableHlo.nullary main_cst_8 (constant S_ .f32 0x00000000#32),
    StableHlo.binary main_v61 main_cst_8 main_v62 ((fun x v => Host.reduceAdd x v reducesTo_S16x256x256_S16x256_d1 h_S_) : (⟨S16x256x256, .f32⟩ : BufTy).Contents (Elt F) → (⟨S_, .f32⟩ : BufTy).Contents (Elt F) → (⟨S16x256, .f32⟩ : BufTy).Contents (Elt F)),
    StableHlo.nullary main_cst_9 (constant S_ .f32 0x43800000#32),
    StableHlo.unary main_cst_9 main_v63 (broadcastInDim S16x256 ![] bcast_S_S16x256 : (⟨S_, .f32⟩ : BufTy).Contents (Elt F) → (⟨S16x256, .f32⟩ : BufTy).Contents (Elt F)),
    StableHlo.binary main_v62 main_v63 main_v64 (Host.divf : (⟨S16x256, .f32⟩ : BufTy).Contents (Elt F) → (⟨S16x256, .f32⟩ : BufTy).Contents (Elt F) → (⟨S16x256, .f32⟩ : BufTy).Contents (Elt F)),
    StableHlo.unary main_arg1 main_v65 ((transpose S256x32 [1, 0] · transposes_S32x256_S256x32_1_0) : (⟨S32x256, .f32⟩ : BufTy).Contents (Elt F) → (⟨S256x32, .f32⟩ : BufTy).Contents (Elt F)),
    StableHlo.binary main_v64 main_v65 main_v66 ((fun l r => Host.dotGeneral dot_S16x256_S256x32_S16x32_1_0_0_1_n_n none l r) : (⟨S16x256, .f32⟩ : BufTy).Contents (Elt F) → (⟨S256x32, .f32⟩ : BufTy).Contents (Elt F) → (⟨S16x32, .f32⟩ : BufTy).Contents (Elt F)),
    StableHlo.unary main_arg2 main_v67 (broadcastInDim S1x32 ![1] bcast_S32_S1x32_1 : (⟨S32, .f32⟩ : BufTy).Contents (Elt F) → (⟨S1x32, .f32⟩ : BufTy).Contents (Elt F)),
    StableHlo.unary main_v67 main_v68 (broadcastInDim S16x32 ![0, 1] bcast_S1x32_S16x32_0_1 : (⟨S1x32, .f32⟩ : BufTy).Contents (Elt F) → (⟨S16x32, .f32⟩ : BufTy).Contents (Elt F)),
    StableHlo.binary main_v66 main_v68 main_v69 (addf : (⟨S16x32, .f32⟩ : BufTy).Contents (Elt F) → (⟨S16x32, .f32⟩ : BufTy).Contents (Elt F) → (⟨S16x32, .f32⟩ : BufTy).Contents (Elt F)) ]

/-- The buffers they write. -/
abbrev ops8_W : List (Ref sig .tc) := [main_v61, main_cst_8, main_v62, main_cst_9, main_v63, main_v64, main_v65, main_v66, main_v67, main_v68, main_v69]
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops8_sub : (ops8 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., binary_bufs_sub .., unary_bufs_sub .., unary_bufs_sub .., binary_bufs_sub ..⟩

/-- Operations 94 … 96 of 112. -/
abbrev ops9 : List (HloOp τ sig (Elt F)) :=
  [ StableHlo.TRef.nullary main_call1.cst (constant S_ .f32 0x00000000#32),
    StableHlo.TRef.unary main_call1.cst main_call1.v0 (broadcastInDim S16x32 ![] bcast_S_S16x32),
    StableHlo.TRef.binary (.of main_v69 : StableHlo.TRef sig ⟨S16x32, .f32⟩) main_call1.v0 main_call1.v1 maximumf ]

/-- The buffers they write. -/
abbrev ops9_W : List (Ref sig .tc) := [main_call1_cst, main_call1_v0, main_v70]
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops9_sub : (ops9 : List (HloOp τ sig (Elt F))).Forall fun op => op.bufs ⊆ tcRefs τ sig :=
  ⟨nullary_bufs_sub .., unary_bufs_sub .., binary_bufs_sub ..⟩

/-- Operations 97 … 104 of 112. -/
abbrev ops10 : List (HloOp τ sig (Elt F)) :=
  [ StableHlo.unary main_arg3 main_v71 ((transpose S32x256 [1, 0] · transposes_S256x32_S32x256_1_0) : (⟨S256x32, .f32⟩ : BufTy).Contents (Elt F) → (⟨S32x256, .f32⟩ : BufTy).Contents (Elt F)),
    StableHlo.binary main_v70 main_v71 main_v72 ((fun l r => Host.dotGeneral dot_S16x32_S32x256_S16x256_1_0_0_1_n_n none l r) : (⟨S16x32, .f32⟩ : BufTy).Contents (Elt F) → (⟨S32x256, .f32⟩ : BufTy).Contents (Elt F) → (⟨S16x256, .f32⟩ : BufTy).Contents (Elt F)),
    StableHlo.unary main_arg4 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S16x256 ![0, 1] bcast_S1x256_S16x256_0_1 : (⟨S1x256, .f32⟩ : BufTy).Contents (Elt F) → (⟨S16x256, .f32⟩ : BufTy).Contents (Elt F)),
    StableHlo.binary main_v72 main_v74 main_v75 (addf : (⟨S16x256, .f32⟩ : BufTy).Contents (Elt F) → (⟨S16x256, .f32⟩ : BufTy).Contents (Elt F) → (⟨S16x256, .f32⟩ : BufTy).Contents (Elt F)),
    StableHlo.unary main_v75 main_v76 (Host.negf : (⟨S16x256, .f32⟩ : BufTy).Contents (Elt F) → (⟨S16x256, .f32⟩ : BufTy).Contents (Elt F)),
    StableHlo.unary main_v76 main_v77 (Host.exp : (⟨S16x256, .f32⟩ : BufTy).Contents (Elt F) → (⟨S16x256, .f32⟩ : BufTy).Contents (Elt F)),
    StableHlo.nullary main_cst_10 (constant S_ .f32 0x3F800000#32) ]

/-- The buffers they write. -/
abbrev ops10_W : List (Ref sig .tc) := [main_v71, main_v72, main_v73, main_v74, main_v75, main_v76, main_v77, main_cst_10]
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops10_sub : (ops10 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub ..⟩

/-- Operations 105 … 112 of 112. -/
abbrev ops11 : List (HloOp τ sig (Elt F)) :=
  [ StableHlo.unary main_cst_10 main_v78 (broadcastInDim S16x256 ![] bcast_S_S16x256 : (⟨S_, .f32⟩ : BufTy).Contents (Elt F) → (⟨S16x256, .f32⟩ : BufTy).Contents (Elt F)),
    StableHlo.binary main_v78 main_v77 main_v79 (addf : (⟨S16x256, .f32⟩ : BufTy).Contents (Elt F) → (⟨S16x256, .f32⟩ : BufTy).Contents (Elt F) → (⟨S16x256, .f32⟩ : BufTy).Contents (Elt F)),
    StableHlo.nullary main_cst_11 (constant S_ .f32 0x3F800000#32),
    StableHlo.unary main_cst_11 main_v80 (broadcastInDim S16x256 ![] bcast_S_S16x256 : (⟨S_, .f32⟩ : BufTy).Contents (Elt F) → (⟨S16x256, .f32⟩ : BufTy).Contents (Elt F)),
    StableHlo.binary main_v80 main_v79 main_v81 (Host.divf : (⟨S16x256, .f32⟩ : BufTy).Contents (Elt F) → (⟨S16x256, .f32⟩ : BufTy).Contents (Elt F) → (⟨S16x256, .f32⟩ : BufTy).Contents (Elt F)),
    StableHlo.unary main_v81 main_v82 (broadcastInDim S16x256x1x1 ![0, 1] bcast_S16x256_S16x256x1x1_0_1 : (⟨S16x256, .f32⟩ : BufTy).Contents (Elt F) → (⟨S16x256x1x1, .f32⟩ : BufTy).Contents (Elt F)),
    StableHlo.unary main_v82 main_v83 (broadcastInDim S16x256x96x96 ![0, 1, 2, 3] bcast_S16x256x1x1_S16x256x96x96_0_1_2_3 : (⟨S16x256x1x1, .f32⟩ : BufTy).Contents (Elt F) → (⟨S16x256x96x96, .f32⟩ : BufTy).Contents (Elt F)),
    StableHlo.binary main_v83 main_arg0 main_v84 (mulf : (⟨S16x256x96x96, .f32⟩ : BufTy).Contents (Elt F) → (⟨S16x256x96x96, .f32⟩ : BufTy).Contents (Elt F) → (⟨S16x256x96x96, .f32⟩ : BufTy).Contents (Elt F)) ]

/-- The buffers they write. -/
abbrev ops11_W : List (Ref sig .tc) := [main_v78, main_v79, main_cst_11, main_v80, main_v81, main_v82, main_v83, main_v84]
theorem ops11_writes : (ops11 : List (HloOp τ sig (Elt F))).Forall fun op => op.writes ⊆ (ops11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem ops11_sub : (ops11 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩

/-- @main's 112 operations, in order. -/
abbrev ops : List (HloOp τ sig (Elt F)) :=
  ops1 ++ (ops2 ++ (ops3 ++ (ops4 ++ (ops5 ++ (ops6 ++ (ops7 ++ (ops8 ++ (ops9 ++ (ops10 ++ (ops11))))))))))

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h]

/-- The buffers after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRunMain.lean ====
/- @main is the straight line of its operations: the outlined functions' definitions unfolded at their calls and the records at
   their fields, both sides are one chain of steps once sequencing is reassociated. -/
import proofs.«169248_j41953240547848_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem main_eq (c : Dev nD) : main (F := F) c = seq ops := by
  simp only [ops, seq_append]
  simp only [main, main_part0, main_part1, fn_trace.body, fn_where.body, fn_relu.body, seq, bind_assoc, pure_bind]

end Cert.ReferenceIdeal.RefRun

end
-- ==== Proof.RefRunVal.lean ====
/- The buffers window by window: val0 the contents the line starts from, valK those after the first K windows, and for every
   buffer written by then and still read later (or an argument, or the result) the value it holds: its definition in RefTerm
   at the arguments' contents. -/
import proofs.«169248_j41953240547848_2_alg».proof.Proof.RefRunOps
import proofs.«169248_j41953240547848_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers' contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The buffers' contents after the first 1 window. -/
def val1 (V0 : Valuation τ sig (Elt F)) : Valuation τ sig (Elt F) := after ops1 (val0 V0)
theorem val1_keep (V0 : Valuation τ sig (Elt F)) (r : Ref sig .tc) (h : r ∉ ops1_W) :
    val1 V0 (Proc.devRef .tc r) = val0 V0 (Proc.devRef .tc r) :=
  after_of_writes_sub ops1 _ ops1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
set_option maxRecDepth 8192 in
set_option maxHeartbeats 1000000 in
theorem val1_main_v7 (V0 : Valuation τ sig (Elt F)) : val1 V0 (no_index (Proc.devRef .tc main_v7)) = RefTerm.r_main_v7 (F := F) (V0 (Proc.devRef .tc main_arg0)) := by
  unfold val1
  simp only [ops1]
  after_results_simp
  simp only [val0_main_arg0] <;> rfl
set_option maxRecDepth 8192 in
set_option maxHeartbeats 1000000 in
theorem val1_main_v8 (V0 : Valuation τ sig (Elt F)) : val1 V0 (no_index (Proc.devRef .tc main_v8)) = RefTerm.r_main_v8 (F := F) := by
  unfold val1
  simp only [ops1]
  after_results_simp
  all_goals rfl

/-- The buffers' contents after the first 2 windows. -/
def val2 (V0 : Valuation τ sig (Elt F)) : Valuation τ sig (Elt F) := after ops2 (val1 V0)
theorem val2_keep (V0 : Valuation τ sig (Elt F)) (r : Ref sig .tc) (h : r ∉ ops2_W) :
    val2 V0 (Proc.devRef .tc r) = val1 V0 (Proc.devRef .tc r) :=
  after_of_writes_sub ops2 _ ops2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
set_option maxRecDepth 8192 in
set_option maxHeartbeats 1000000 in
theorem val2_main_v9 (V0 : Valuation τ sig (Elt F)) : val2 V0 (no_index (Proc.devRef .tc main_v9)) = RefTerm.r_main_v9 (F := F) (V0 (Proc.devRef .tc main_arg0)) := by
  unfold val2
  simp only [ops2]
  after_results_simp
  simp only [val1_main_v8, val1_main_v7] <;> rfl
set_option maxRecDepth 8192 in
set_option maxHeartbeats 1000000 in
theorem val2_main_v17 (V0 : Valuation τ sig (Elt F)) : val2 V0 (no_index (Proc.devRef .tc main_v17)) = RefTerm.r_main_v17 (F := F) := by
  unfold val2
  simp only [ops2]
  after_results_simp
  all_goals rfl

/-- The buffers' contents after the first 3 windows. -/
def val3 (V0 : Valuation τ sig (Elt F)) : Valuation τ sig (Elt F) := after ops3 (val2 V0)
theorem val3_keep (V0 : Valuation τ sig (Elt F)) (r : Ref sig .tc) (h : r ∉ ops3_W) :
    val3 V0 (Proc.devRef .tc r) = val2 V0 (Proc.devRef .tc r) :=
  after_of_writes_sub ops3 _ ops3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_v9 (V0 : Valuation τ sig (Elt F)) : val3 V0 (no_index (Proc.devRef .tc main_v9)) = RefTerm.r_main_v9 (F := F) (V0 (Proc.devRef .tc main_arg0)) :=
  (val3_keep V0 main_v9 (by decide)).trans (val2_main_v9 V0)
theorem val3_main_v17 (V0 : Valuation τ sig (Elt F)) : val3 V0 (no_index (Proc.devRef .tc main_v17)) = RefTerm.r_main_v17 (F := F) :=
  (val3_keep V0 main_v17 (by decide)).trans (val2_main_v17 V0)
set_option maxRecDepth 8192 in
set_option maxHeartbeats 1000000 in
theorem val3_main_v18 (V0 : Valuation τ sig (Elt F)) : val3 V0 (no_index (Proc.devRef .tc main_v18)) = RefTerm.r_main_v18 (F := F) (V0 (Proc.devRef .tc main_arg0)) := by
  unfold val3
  simp only [ops3]
  after_results_simp
  simp only [val2_main_v9] <;> rfl

/-- The buffers' contents after the first 4 windows. -/
def val4 (V0 : Valuation τ sig (Elt F)) : Valuation τ sig (Elt F) := after ops4 (val3 V0)
theorem val4_keep (V0 : Valuation τ sig (Elt F)) (r : Ref sig .tc) (h : r ∉ ops4_W) :
    val4 V0 (Proc.devRef .tc r) = val3 V0 (Proc.devRef .tc r) :=
  after_of_writes_sub ops4 _ ops4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v17 (V0 : Valuation τ sig (Elt F)) : val4 V0 (no_index (Proc.devRef .tc main_v17)) = RefTerm.r_main_v17 (F := F) :=
  (val4_keep V0 main_v17 (by decide)).trans (val3_main_v17 V0)
set_option maxRecDepth 8192 in
set_option maxHeartbeats 1000000 in
theorem val4_main_v19 (V0 : Valuation τ sig (Elt F)) : val4 V0 (no_index (Proc.devRef .tc main_v19)) = RefTerm.r_main_v19 (F := F) (V0 (Proc.devRef .tc main_arg0)) := by
  unfold val4
  simp only [ops4]
  after_results_simp
  simp only [val3_main_v18] <;> rfl
set_option maxRecDepth 8192 in
set_option maxHeartbeats 1000000 in
theorem val4_main_v26 (V0 : Valuation τ sig (Elt F)) : val4 V0 (no_index (Proc.devRef .tc main_v26)) = RefTerm.r_main_v26 (F := F) (V0 (Proc.devRef .tc main_arg0)) := by
  unfold val4
  simp only [ops4]
  after_results_simp
  simp only [val3_main_v18, val3_main_v9, val3_main_v17] <;> rfl
set_option maxRecDepth 8192 in
set_option maxHeartbeats 1000000 in
theorem val4_main_v27 (V0 : Valuation τ sig (Elt F)) : val4 V0 (no_index (Proc.devRef .tc main_v27)) = RefTerm.r_main_v27 (F := F) (V0 (Proc.devRef .tc main_arg0)) := by
  unfold val4
  simp only [ops4]
  after_results_simp
  simp only [val3_main_v17, val3_main_v18, val3_main_v9] <;> rfl
set_option maxRecDepth 8192 in
set_option maxHeartbeats 1000000 in
theorem val4_main_v28 (V0 : Valuation τ sig (Elt F)) : val4 V0 (no_index (Proc.devRef .tc main_v28)) = RefTerm.r_main_v28 (F := F) (V0 (Proc.devRef .tc main_arg0)) := by
  unfold val4
  simp only [ops4]
  after_results_simp
  simp only [val3_main_v18, val3_main_v9, val3_main_v17] <;> rfl
set_option maxRecDepth 8192 in
set_option maxHeartbeats 1000000 in
theorem val4_main_v29 (V0 : Valuation τ sig (Elt F)) : val4 V0 (no_index (Proc.devRef .tc main_v29)) = RefTerm.r_main_v29 (F := F) := by
  unfold val4
  simp only [ops4]
  after_results_simp
  simp only [val3_main_v17] <;> rfl

/-- The buffers' contents after the first 5 windows. -/
def val5 (V0 : Valuation τ sig (Elt F)) : Valuation τ sig (Elt F) := after ops5 (val4 V0)
theorem val5_keep (V0 : Valuation τ sig (Elt F)) (r : Ref sig .tc) (h : r ∉ ops5_W) :
    val5 V0 (Proc.devRef .tc r) = val4 V0 (Proc.devRef .tc r) :=
  after_of_writes_sub ops5 _ ops5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_v17 (V0 : Valuation τ sig (Elt F)) : val5 V0 (no_index (Proc.devRef .tc main_v17)) = RefTerm.r_main_v17 (F := F) :=
  (val5_keep V0 main_v17 (by decide)).trans (val4_main_v17 V0)
theorem val5_main_v19 (V0 : Valuation τ sig (Elt F)) : val5 V0 (no_index (Proc.devRef .tc main_v19)) = RefTerm.r_main_v19 (F := F) (V0 (Proc.devRef .tc main_arg0)) :=
  (val5_keep V0 main_v19 (by decide)).trans (val4_main_v19 V0)
set_option maxRecDepth 8192 in
set_option maxHeartbeats 1000000 in
theorem val5_main_v34 (V0 : Valuation τ sig (Elt F)) : val5 V0 (no_index (Proc.devRef .tc main_v34)) = RefTerm.r_main_v34 (F := F) (V0 (Proc.devRef .tc main_arg0)) := by
  unfold val5
  simp only [ops5]
  after_results_simp
  simp only [val4_main_v28, val4_main_v29, val4_main_v27] <;> rfl
set_option maxRecDepth 8192 in
set_option maxHeartbeats 1000000 in
theorem val5_main_v35 (V0 : Valuation τ sig (Elt F)) : val5 V0 (no_index (Proc.devRef .tc main_v35)) = RefTerm.r_main_v35 (F := F) (V0 (Proc.devRef .tc main_arg0)) := by
  unfold val5
  simp only [ops5]
  after_results_simp
  simp only [val4_main_v26, val4_main_v28, val4_main_v29] <;> rfl
set_option maxRecDepth 8192 in
set_option maxHeartbeats 1000000 in
theorem val5_main_v39 (V0 : Valuation τ sig (Elt F)) : val5 V0 (no_index (Proc.devRef .tc main_v39)) = RefTerm.r_main_v39 (F := F) (V0 (Proc.devRef .tc main_arg0)) := by
  unfold val5
  simp only [ops5]
  after_results_simp
  simp only [val4_main_v28, val4_main_v29, val4_main_v27, val4_main_v26, val4_main_v17] <;> rfl
set_option maxRecDepth 8192 in
set_option maxHeartbeats 1000000 in
theorem val5_main_cst_5 (V0 : Valuation τ sig (Elt F)) : val5 V0 (no_index (Proc.devRef .tc main_cst_5)) = RefTerm.r_main_cst_5 (F := F) := by
  unfold val5
  simp only [ops5]
  after_results_simp
  all_goals rfl

/-- The buffers' contents after the first 6 windows. -/
def val6 (V0 : Valuation τ sig (Elt F)) : Valuation τ sig (Elt F) := after ops6 (val5 V0)
theorem val6_keep (V0 : Valuation τ sig (Elt F)) (r : Ref sig .tc) (h : r ∉ ops6_W) :
    val6 V0 (Proc.devRef .tc r) = val5 V0 (Proc.devRef .tc r) :=
  after_of_writes_sub ops6 _ ops6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_v17 (V0 : Valuation τ sig (Elt F)) : val6 V0 (no_index (Proc.devRef .tc main_v17)) = RefTerm.r_main_v17 (F := F) :=
  (val6_keep V0 main_v17 (by decide)).trans (val5_main_v17 V0)
theorem val6_main_v19 (V0 : Valuation τ sig (Elt F)) : val6 V0 (no_index (Proc.devRef .tc main_v19)) = RefTerm.r_main_v19 (F := F) (V0 (Proc.devRef .tc main_arg0)) :=
  (val6_keep V0 main_v19 (by decide)).trans (val5_main_v19 V0)
set_option maxRecDepth 8192 in
set_option maxHeartbeats 1000000 in
theorem val6_main_v43 (V0 : Valuation τ sig (Elt F)) : val6 V0 (no_index (Proc.devRef .tc main_v43)) = RefTerm.r_main_v43 (F := F) (V0 (Proc.devRef .tc main_arg0)) := by
  unfold val6
  simp only [ops6]
  after_results_simp
  simp only [val5_main_v35, val5_main_v39, val5_main_cst_5] <;> rfl
set_option maxRecDepth 8192 in
set_option maxHeartbeats 1000000 in
theorem val6_main_v49 (V0 : Valuation τ sig (Elt F)) : val6 V0 (no_index (Proc.devRef .tc main_v49)) = RefTerm.r_main_v49 (F := F) (V0 (Proc.devRef .tc main_arg0)) := by
  unfold val6
  simp only [ops6]
  after_results_simp
  simp only [val5_main_v39, val5_main_cst_5, val5_main_v34, val5_main_v35, val5_main_v17] <;> rfl
set_option maxRecDepth 8192 in
set_option maxHeartbeats 1000000 in
theorem val6_main_v50 (V0 : Valuation τ sig (Elt F)) : val6 V0 (no_index (Proc.devRef .tc main_v50)) = RefTerm.r_main_v50 (F := F) (V0 (Proc.devRef .tc main_arg0)) := by
  unfold val6
  simp only [ops6]
  after_results_simp
  simp only [val5_main_v35, val5_main_v39, val5_main_cst_5, val5_main_v17, val5_main_v34] <;> rfl

/-- The buffers' contents after the first 7 windows. -/
def val7 (V0 : Valuation τ sig (Elt F)) : Valuation τ sig (Elt F) := after ops7 (val6 V0)
theorem val7_keep (V0 : Valuation τ sig (Elt F)) (r : Ref sig .tc) (h : r ∉ ops7_W) :
    val7 V0 (Proc.devRef .tc r) = val6 V0 (Proc.devRef .tc r) :=
  after_of_writes_sub ops7 _ ops7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
set_option maxRecDepth 8192 in
set_option maxHeartbeats 1000000 in
theorem val7_main_v58 (V0 : Valuation τ sig (Elt F)) : val7 V0 (no_index (Proc.devRef .tc main_v58)) = RefTerm.r_main_v58 (F := F) (V0 (Proc.devRef .tc main_arg0)) := by
  unfold val7
  simp only [ops7]
  after_results_simp
  simp only [val6_main_v43, val6_main_v49, val6_main_v17, val6_main_v50] <;> rfl
set_option maxRecDepth 8192 in
set_option maxHeartbeats 1000000 in
theorem val7_main_v60 (V0 : Valuation τ sig (Elt F)) : val7 V0 (no_index (Proc.devRef .tc main_v60)) = RefTerm.r_main_v60 (F := F) (V0 (Proc.devRef .tc main_arg0)) := by
  unfold val7
  simp only [ops7]
  after_results_simp
  simp only [val6_main_v19] <;> rfl

/-- The buffers' contents after the first 8 windows. -/
def val8 (V0 : Valuation τ sig (Elt F)) : Valuation τ sig (Elt F) := after ops8 (val7 V0)
theorem val8_keep (V0 : Valuation τ sig (Elt F)) (r : Ref sig .tc) (h : r ∉ ops8_W) :
    val8 V0 (Proc.devRef .tc r) = val7 V0 (Proc.devRef .tc r) :=
  after_of_writes_sub ops8 _ ops8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
set_option maxRecDepth 8192 in
set_option maxHeartbeats 1000000 in
theorem val8_main_v69 (V0 : Valuation τ sig (Elt F)) : val8 V0 (no_index (Proc.devRef .tc main_v69)) = RefTerm.r_main_v69 (F := F) (V0 (Proc.devRef .tc main_arg0)) (V0 (Proc.devRef .tc main_arg1)) (V0 (Proc.devRef .tc main_arg2)) := by
  unfold val8
  simp only [ops8]
  after_results_simp
  simp only [val7_main_arg2, val7_main_arg1, val7_main_v60, val7_main_v58] <;> rfl

/-- The buffers' contents after the first 9 windows. -/
def val9 (V0 : Valuation τ sig (Elt F)) : Valuation τ sig (Elt F) := after ops9 (val8 V0)
theorem val9_keep (V0 : Valuation τ sig (Elt F)) (r : Ref sig .tc) (h : r ∉ ops9_W) :
    val9 V0 (Proc.devRef .tc r) = val8 V0 (Proc.devRef .tc r) :=
  after_of_writes_sub ops9 _ ops9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
set_option maxRecDepth 8192 in
set_option maxHeartbeats 1000000 in
theorem val9_main_v70 (V0 : Valuation τ sig (Elt F)) : val9 V0 (no_index (Proc.devRef .tc main_v70)) = RefTerm.r_main_v70 (F := F) (V0 (Proc.devRef .tc main_arg0)) (V0 (Proc.devRef .tc main_arg1)) (V0 (Proc.devRef .tc main_arg2)) := by
  unfold val9
  simp only [ops9]
  after_results_simp
  simp only [val8_main_v69] <;> rfl

/-- The buffers' contents after the first 10 windows. -/
def val10 (V0 : Valuation τ sig (Elt F)) : Valuation τ sig (Elt F) := after ops10 (val9 V0)
theorem val10_keep (V0 : Valuation τ sig (Elt F)) (r : Ref sig .tc) (h : r ∉ ops10_W) :
    val10 V0 (Proc.devRef .tc r) = val9 V0 (Proc.devRef .tc r) :=
  after_of_writes_sub ops10 _ ops10_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
set_option maxRecDepth 8192 in
set_option maxHeartbeats 1000000 in
theorem val10_main_v77 (V0 : Valuation τ sig (Elt F)) : val10 V0 (no_index (Proc.devRef .tc main_v77)) = RefTerm.r_main_v77 (F := F) (V0 (Proc.devRef .tc main_arg0)) (V0 (Proc.devRef .tc main_arg1)) (V0 (Proc.devRef .tc main_arg2)) (V0 (Proc.devRef .tc main_arg3)) (V0 (Proc.devRef .tc main_arg4)) := by
  unfold val10
  simp only [ops10]
  after_results_simp
  simp only [val9_main_arg4, val9_main_arg3, val9_main_v70] <;> rfl
set_option maxRecDepth 8192 in
set_option maxHeartbeats 1000000 in
theorem val10_main_cst_10 (V0 : Valuation τ sig (Elt F)) : val10 V0 (no_index (Proc.devRef .tc main_cst_10)) = RefTerm.r_main_cst_10 (F := F) := by
  unfold val10
  simp only [ops10]
  after_results_simp
  all_goals rfl

/-- The buffers' contents after the first 11 windows. -/
def val11 (V0 : Valuation τ sig (Elt F)) : Valuation τ sig (Elt F) := after ops11 (val10 V0)
theorem val11_keep (V0 : Valuation τ sig (Elt F)) (r : Ref sig .tc) (h : r ∉ ops11_W) :
    val11 V0 (Proc.devRef .tc r) = val10 V0 (Proc.devRef .tc r) :=
  after_of_writes_sub ops11 _ ops11_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
set_option maxRecDepth 8192 in
set_option maxHeartbeats 1000000 in
theorem val11_main_v84 (V0 : Valuation τ sig (Elt F)) : val11 V0 (no_index (Proc.devRef .tc main_v84)) = RefTerm.r_main_v84 (F := F) (V0 (Proc.devRef .tc main_arg0)) (V0 (Proc.devRef .tc main_arg1)) (V0 (Proc.devRef .tc main_arg2)) (V0 (Proc.devRef .tc main_arg3)) (V0 (Proc.devRef .tc main_arg4)) := by
  unfold val11
  simp only [ops11]
  after_results_simp
  simp only [val10_main_arg0, val10_main_v77, val10_main_cst_10] <;> rfl

theorem after_ops (V0 : Valuation τ sig (Elt F)) : after ops V0 = val11 V0 := by
  simp only [ops, after_app]
  rfl

end Cert.ReferenceIdeal.RefRun

end
-- ==== Proof.RefRun.lean ====
/- The reference's run: from any memory with zero counters every weakly fair execution of @main terminates with the result buffer
   at its definition in RefTerm of the arguments' launch contents, and the arguments unchanged. -/
import proofs.«169248_j41953240547848_2_alg».proof.Proof.RefRunMain
import proofs.«169248_j41953240547848_2_alg».proof.Proof.RefRunVal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = RefTerm.r_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v84).trans (by simp only [after_ops]; exact val11_main_v84 (launchContents m c)),
      (h c main_arg0).trans (by simp only [after_ops]; exact val11_main_arg0 (launchContents m c)),
      (h c main_arg1).trans (by simp only [after_ops]; exact val11_main_arg1 (launchContents m c)),
      (h c main_arg2).trans (by simp only [after_ops]; exact val11_main_arg2 (launchContents m c)),
      (h c main_arg3).trans (by simp only [after_ops]; exact val11_main_arg3 (launchContents m c)),
      (h c main_arg4).trans (by simp only [after_ops]; exact val11_main_arg4 (launchContents m c))⟩)
    (run_seq scopedRefs_eq scopedSems_eq defs main (fun _ => ops) main_eq (fun _ => ops_sub) m ρ)

end Cert.ReferenceIdeal.RefRun

end
-- ==== Proof.RefGateLib.lean ====
/-
  General lemmas for reading the reference's batched operations one batch element at a time.

  A batched [16, 256, 256] array sliced at batch element b is a [256, 256] matrix. Every operation the
  reference applies to such arrays (pointwise arithmetic, splat constants, matrix broadcast along the batch
  axis, per-batch scalars broadcast over a matrix, the batched matrix product) commutes with taking the slice,
  and lands on the matrix operation of the same name. Sums over one axis, over two axes, and the two kinds of
  matrix product are read at an index as plain finite sums. The 0/1 diagonal indicator is the same matrix
  whether it is written as a converted comparison or as a select between 1 and 0.
-/
import proofs.«169248_j41953240547848_2_alg».proof.Proof.Spec
import Idealize.ShloMosaic.Lib.StackMember
import Idealize.ShloMosaic.Lib.ValueLayout
import Idealize.ShloMosaic.PureOps.Ideal.Laws

noncomputable section

namespace Cert.Bridge.RefGate

open Idealize.ShloMosaic Idealize.ShloMosaic.ValueIdx Idealize.ShloMosaic.StackMember

/-! ## Indices -/

/-- Two rank-2 arrays that agree at every pair of coordinates are equal. -/
theorem ext2 {α : Type} {n0 n1 : Nat} {f g : (⟨2, ![n0, n1]⟩ : Shape).Idx → α}
    (h : ∀ (a : Fin n0) (c : Fin n1), f (ix2 a c) = g (ix2 a c)) : f = g := by
  funext j
  rw [eq_ix2 j]
  exact h _ _

/-- The slice at batch element b read at (a, c) is the batched array at (b, a, c). -/
theorem slice3_apply (v : FVec Ideal Cert.ReferenceIdeal.S16x256x256 .f32) (b : Fin 16) (a c : Fin 256) :
    slice3 v b (ix2 a c) = v (ix3 b a c) := rfl

/-! ## Pointwise operations and splats commute with the slice -/

theorem slice3_hostDivf (l r : FVec Ideal Cert.ReferenceIdeal.S16x256x256 .f32) (b : Fin 16) :
    slice3 (Host.divf (F := Ideal) l r) b = divf (slice3 l b) (slice3 r b) := rfl

theorem slice3_subf (l r : FVec Ideal Cert.ReferenceIdeal.S16x256x256 .f32) (b : Fin 16) :
    slice3 (subf l r) b = subf (slice3 l b) (slice3 r b) := rfl

theorem slice3_mulf (l r : FVec Ideal Cert.ReferenceIdeal.S16x256x256 .f32) (b : Fin 16) :
    slice3 (mulf l r) b = mulf (slice3 l b) (slice3 r b) := rfl

/-- A scalar constant broadcast over the batched array is, in each slice, the splat of that constant. -/
theorem slice3_splat (bits : BitVec 32)
    (h : Cert.ReferenceIdeal.S_.BroadcastsInDim Cert.ReferenceIdeal.S16x256x256 (![] : Fin 0 → Fin 3)) (b : Fin 16) :
    slice3 (broadcastInDim Cert.ReferenceIdeal.S16x256x256 ![] h (constant (F := Ideal) Cert.ReferenceIdeal.S_ .f32 bits)) b
      = broadcast Cert.KernelIdeal.S256x256 (Scalar.ofBits (F := Ideal) .f32 bits) := rfl

/-- A scalar constant broadcast over a rank-2 array is the splat of that constant. -/
theorem splat2 {n0 n1 : Nat} (bits : BitVec 32)
    (h : Cert.ReferenceIdeal.S_.BroadcastsInDim (⟨2, ![n0, n1]⟩ : Shape) (![] : Fin 0 → Fin 2)) :
    broadcastInDim (⟨2, ![n0, n1]⟩ : Shape) ![] h (constant (F := Ideal) Cert.ReferenceIdeal.S_ .f32 bits)
      = broadcast (⟨2, ![n0, n1]⟩ : Shape) (Scalar.ofBits (F := Ideal) .f32 bits) := rfl

/-! ## Broadcasts along the batch axis -/

/-- A [256, 256] matrix copied into every batch element (through a [1, 256, 256] intermediate) is, in each
    slice, the matrix. -/
theorem slice3_bcastMatrix (w : FVec Ideal Cert.ReferenceIdeal.S256x256 .f32)
    (h1 : Cert.ReferenceIdeal.S256x256.BroadcastsInDim Cert.ReferenceIdeal.S1x256x256 (![1, 2] : Fin 2 → Fin 3))
    (h2 : Cert.ReferenceIdeal.S1x256x256.BroadcastsInDim Cert.ReferenceIdeal.S16x256x256 (![0, 1, 2] : Fin 3 → Fin 3))
    (b : Fin 16) :
    slice3 (broadcastInDim Cert.ReferenceIdeal.S16x256x256 ![0, 1, 2] h2
      (broadcastInDim Cert.ReferenceIdeal.S1x256x256 ![1, 2] h1 w)) b = w := by
  refine ext2 fun a c => ?_
  rw [slice3_apply]
  refine (broadcastInDim_apply ![0, 1, 2] h2 _ (ix3 b a c) (ix3 (0 : Fin 1) a c) fun ax => ?_).trans ?_
  · match ax with
    | ⟨0, _⟩ => rfl
    | ⟨1, _⟩ => rfl
    | ⟨2, _⟩ => rfl
  · refine broadcastInDim_apply ![1, 2] h1 w (ix3 (0 : Fin 1) a c) (ix2 a c) fun ax => ?_
    match ax with
    | ⟨0, _⟩ => rfl
    | ⟨1, _⟩ => rfl

/-- A per-batch scalar, kept as [16, 1, 1], broadcast over the batched array reads, anywhere in slice b, the
    scalar of batch element b. -/
theorem bcastScalar_apply (t : FVec Ideal Cert.ReferenceIdeal.S16x1x1 .f32)
    (h : Cert.ReferenceIdeal.S16x1x1.BroadcastsInDim Cert.ReferenceIdeal.S16x256x256 (![0, 1, 2] : Fin 3 → Fin 3))
    (b : Fin 16) (a c : Fin 256) :
    broadcastInDim Cert.ReferenceIdeal.S16x256x256 ![0, 1, 2] h t (ix3 b a c) = t (ix3 b (0 : Fin 1) (0 : Fin 1)) := by
  refine broadcastInDim_apply ![0, 1, 2] h t (ix3 b a c) (ix3 b (0 : Fin 1) (0 : Fin 1)) fun ax => ?_
  match ax with
  | ⟨0, _⟩ => rfl
  | ⟨1, _⟩ => rfl
  | ⟨2, _⟩ => rfl

/-- A [16] vector viewed as [16, 1, 1] reads its entry. -/
theorem keep11_apply (v : FVec Ideal Cert.ReferenceIdeal.S16 .f32)
    (h : Cert.ReferenceIdeal.S16.BroadcastsInDim Cert.ReferenceIdeal.S16x1x1 (![0] : Fin 1 → Fin 3)) (b : Fin 16) :
    broadcastInDim Cert.ReferenceIdeal.S16x1x1 ![0] h v (ix3 b (0 : Fin 1) (0 : Fin 1)) = v (ix1 b) := by
  refine broadcastInDim_apply ![0] h v (ix3 b (0 : Fin 1) (0 : Fin 1)) (ix1 b) fun ax => ?_
  match ax with
  | ⟨0, _⟩ => rfl

/-- A [1, 1] value broadcast over a matrix reads its one entry everywhere. -/
theorem bcast11_apply (t : FVec Ideal Cert.KernelIdeal.S1x1 .f32)
    (h : Cert.KernelIdeal.S1x1.Broadcasts Cert.KernelIdeal.S256x256) (a c : Fin 256) :
    broadcastTo Cert.KernelIdeal.S256x256 t h (ix2 a c) = t (ix2 (0 : Fin 1) (0 : Fin 1)) := by
  refine broadcastTo_apply t h (ix2 a c) (ix2 (0 : Fin 1) (0 : Fin 1)) fun ax => ?_
  match ax with
  | ⟨0, _⟩ => rfl
  | ⟨1, _⟩ => rfl

/-! ## Matrix products read at an index -/

/-- The batched product of two [16, 256, 256] arrays is, in each slice, the matrix product of the slices
    accumulated into zero. -/
theorem slice3_dot [Cert.KernelIdeal.Facts] [Cert.ReferenceIdeal.Facts]
    (l r : FVec Ideal Cert.ReferenceIdeal.S16x256x256 .f32) (b : Fin 16) :
    slice3 (Host.dotGeneral (F := Ideal) Cert.ReferenceIdeal.dot_S16x256x256_S16x256x256_S16x256x256_2_1_1_2_0_0 none l r) b
      = matmul Cert.KernelIdeal.dot_S256x256_S256x256_S256x256_1_0_0_1_n_n (some .fp32) (slice3 l b) (slice3 r b)
          (constant (F := Ideal) Cert.KernelIdeal.S256x256 .f32 0x00000000#32) := by
  refine ext2 fun a c => ?_
  rw [slice3_apply]
  refine (dotGeneral_stack_apply
    Cert.ReferenceIdeal.Facts₀.dot_S16x256x256_S16x256x256_S16x256x256_2_1_1_2_0_0_wf none l r b a c).trans ?_
  refine Eq.symm ?_
  have hk : matmul Cert.KernelIdeal.dot_S256x256_S256x256_S256x256_1_0_0_1_n_n (some .fp32) (slice3 l b) (slice3 r b)
      (constant (F := Ideal) Cert.KernelIdeal.S256x256 .f32 0x00000000#32)
      = Host.dotGeneral (F := Ideal) (DotDims.plain 256 256 256) (some .fp32) (slice3 l b) (slice3 r b) :=
    matmul_zero_eq_dotGeneral _ _ _ _
  rw [hk]
  exact dotGeneral_plain_apply (some .fp32) (slice3 l b) (slice3 r b) a c

/-- A product with the right operand contracted on its last axis, accumulated into zero, read at an index:
    the sum over the contracted coordinate of the products of the entries. -/
theorem matmul_transposedRhs_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## Sums over one axis and over two axes -/

/-- The host's sum over the row number of a stack of matrices: the initial value plus the column sum. -/
theorem hostReduceAdd_axis1_apply {G m n : Nat} {u : Shape} (X : FVec Ideal ⟨3, ![G, m, n]⟩ .f32) (init : u.Idx → Ideal .f32)
    (h' : (⟨3, ![G, m, n]⟩ : Shape).ReducesTo [1] ⟨2, ![G, n]⟩) (hu : 0 < u.numel) (g : Fin G) (c : Fin n) :
    Host.reduceAdd (F := Ideal) X init h' hu (ix2 g c) = init (Shape.Idx.first hu) + ∑ a : Fin m, X (ix3 g a c) := by
  have h3 : (⟨3, ![G, m, n]⟩ : Shape).Reduces [1] ⟨2, ![G, n]⟩ := ⟨h'.1, Nat.two_pos, h'.2⟩
  show Ideal.hostReduceAdd h' X _ (ix2 g c) = _
  rw [Ideal.hostReduceAdd_single h' h3]
  refine congrArg (_ + ·) (Finset.sum_congr rfl fun k _ => ?_)
  refine congrArg X (funext fun ax => Fin.ext ?_)
  match ax with
  | ⟨0, _⟩ => rfl
  | ⟨1, _⟩ => rfl
  | ⟨2, _⟩ => rfl

/-- The host's sum over both matrix axes of a stack of matrices: the initial value plus the double sum. -/
theorem hostReduceAdd_axis12_apply {u : Shape} (X : FVec Ideal ⟨3, ![16, 256, 256]⟩ .f32) (init : u.Idx → Ideal .f32)
    (h' : (⟨3, ![16, 256, 256]⟩ : Shape).ReducesTo [1, 2] ⟨1, ![16]⟩) (hu : 0 < u.numel) (g : Fin 16) :
    Host.reduceAdd (F := Ideal) X init h' hu (ix1 g)
      = init (Shape.Idx.first hu) + ∑ a : Fin 256, ∑ c : Fin 256, X (ix3 g a c) := by
  show Ideal.hostReduceAdd h' X _ (ix1 g) = _
  unfold Ideal.hostReduceAdd
  refine congrArg (_ + ·) ?_
  rw [← Fintype.sum_prod_type' (f := fun (a : Fin 256) (c : Fin 256) => X (ix3 g a c))]
  have hd : ∀ i : (⟨3, ![16, 256, 256]⟩ : Shape).Idx, ((h'.drop i (0 : Fin 1) : Fin 16) : Nat) = (i (0 : Fin 3) : Nat) :=
    fun i => Shape.ReducesTo.drop_apply_val_of_eq h' i (0 : Fin 1) (0 : Fin 3)
  refine Finset.sum_nbij' (fun i => ((i 1 : Fin 256), (i 2 : Fin 256))) (fun p => ix3 g p.1 p.2) ?_ ?_ ?_ ?_ ?_
  · intro i _; exact Finset.mem_univ _
  · intro p _
    refine Finset.mem_filter.2 ⟨Finset.mem_univ _, ?_⟩
    funext ax
    match ax with
    | ⟨0, _⟩ => exact Fin.ext (hd (ix3 g p.1 p.2))
  · intro i hi
    have hj := (Finset.mem_filter.1 hi).2
    have h0 : (i (0 : Fin 3) : Nat) = g.val := by
      rw [← hd i]; exact congrArg (fun (j : (⟨1, ![16]⟩ : Shape).Idx) => ((j (0 : Fin 1) : Fin 16) : Nat)) hj
    funext ax
    match ax with
    | ⟨0, _⟩ => exact Fin.ext h0.symm
    | ⟨1, _⟩ => rfl
    | ⟨2, _⟩ => rfl
  · intro p _; rfl
  · intro i hi
    have hj := (Finset.mem_filter.1 hi).2
    have h0 : (i (0 : Fin 3) : Nat) = g.val := by
      rw [← hd i]; exact congrArg (fun (j : (⟨1, ![16]⟩ : Shape).Idx) => ((j (0 : Fin 1) : Fin 16) : Nat)) hj
    refine congrArg X (funext fun ax => ?_)
    match ax with
    | ⟨0, _⟩ => exact Fin.ext h0
    | ⟨1, _⟩ => rfl
    | ⟨2, _⟩ => rfl

/-- A lane sum of a matrix (over the column number) at row a: the row's sum. -/
theorem multiReduction_axis1_apply {m n : Nat} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (a : Fin m) :
    multiReduction .add [1] ⟨1, ![m]⟩ src 0x00000000#32 h hφ hacc (ix1 a) = ∑ c : Fin n, src (ix2 a c) := by
  refine (Ideal.multiReduction_add_single src 0x00000000#32 h hφ hacc (ix1 a)).trans ?_
  refine Finset.sum_congr rfl fun k _ => congrArg src (funext fun ax => Fin.ext ?_)
  match ax with
  | ⟨0, _⟩ => rfl
  | ⟨1, _⟩ => rfl

/-- A sum of a matrix over the row number at column c: the column's sum. -/
theorem multiReduction_axis0_apply {m n : Nat} (src : FVec Ideal ⟨2, ![m, n]⟩ .f32)
    (h : (⟨2, ![m, n]⟩ : Shape).Reduces [0] ⟨1, ![n]⟩) (hφ : FKind.Formats .f32)
    (hacc : (0x00000000#32 : BitVec 32) = FKind.add.neutral .f32 hφ) (c : Fin n) :
    multiReduction .add [0] ⟨1, ![n]⟩ src 0x00000000#32 h hφ hacc (ix1 c) = ∑ a : Fin m, src (ix2 a c) := by
  refine (Ideal.multiReduction_add_single src 0x00000000#32 h hφ hacc (ix1 c)).trans ?_
  refine Finset.sum_congr rfl fun k _ => congrArg src (funext fun ax => Fin.ext ?_)
  match ax with
  | ⟨0, _⟩ => rfl
  | ⟨1, _⟩ => rfl

/-- An [a] array cast to a column [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The diagonal indicator -/

/-- A one-bit condition converted to a float is the select between 1 and 0 on it. -/
theorem uitofp_bit_eq_select {s : Shape} (d : IVec s 1) :
    (uitofp .f32 d : FVec Ideal s .f32)
      = select d (broadcast s (Scalar.ofBits (F := Ideal) .f32 0x3F800000#32))
          (broadcast s (Scalar.ofBits (F := Ideal) .f32 0x00000000#32)) := by
  funext i
  show ((((d i).toNat : ℝ)) : EReal) = Scalar.select (d i) (Ideal.ofBits .f32 0x3F800000#32) (Ideal.ofBits .f32 0x00000000#32)
  have h1 : Ideal.ofBits .f32 0x3F800000#32 = 1 := IdealRules.sign_bit.ideal_onePat .f32
  rw [h1, Ideal.ofBits_zero_f32]
  rcases BitVec.eq_zero_or_eq_one (d i) with h | h
  · rw [h, select_zero]; simp
  · rw [h, select_one]; simp

/-- "row number plus zero equals column number" on the host is "row number equals column number" in the
    kernel's spelling. -/
theorem diag_cond_eq (h0 : Cert.KernelIdeal.S256x256.Iotas .tc 32 [0]) (h1 : Cert.KernelIdeal.S256x256.Iotas .tc 32 [1])
    (hb : Cert.ReferenceIdeal.S_.BroadcastsInDim Cert.ReferenceIdeal.S256x256 (![] : Fin 0 → Fin 2)) :
    cmpi .eq (addi (iotaInDim Cert.ReferenceIdeal.S256x256 32 0)
        (broadcastInDim Cert.ReferenceIdeal.S256x256 ![] hb (constantI Cert.ReferenceIdeal.S_ 32 0#32)))
      (iotaInDim Cert.ReferenceIdeal.S256x256 32 1)
      = cmpi .eq (iota .tc Cert.KernelIdeal.S256x256 32 [0] h0) (iota .tc Cert.KernelIdeal.S256x256 32 [1] h1) := by
  funext i
  show IntOp.cmpi .eq (IntOp.addi (BitVec.ofNat 32 (i 0).val) 0#32) (BitVec.ofNat 32 (i 1).val)
    = IntOp.cmpi .eq (iota .tc Cert.KernelIdeal.S256x256 32 [0] h0 i) (iota .tc Cert.KernelIdeal.S256x256 32 [1] h1 i)
  rw [iota_single_apply, iota_single_apply]
  simp [IntOp.addi]

/-- A select against zero is the product with the 0/1 indicator of its condition. -/
theorem select_zero_eq_mul (bit : BitVec 1) (v : EReal) :
    Scalar.select bit v (Ideal.ofBits .f32 0x00000000#32)
      = v * Scalar.select bit (Ideal.ofBits .f32 0x3F800000#32) (Ideal.ofBits .f32 0x00000000#32) := by
  have h1 : Ideal.ofBits .f32 0x3F800000#32 = 1 := IdealRules.sign_bit.ideal_onePat .f32
  rw [h1, Ideal.ofBits_zero_f32]
  rcases BitVec.eq_zero_or_eq_one bit with h | h
  · rw [h, select_zero, select_zero, mul_zero]
  · rw [h, select_one, select_one, mul_one]

end Cert.Bridge.RefGate

end
-- ==== Proof.RefGateNS.lean ====
/-
  The reference's chain from the batched product v7 = (X − mean) Xᵀ up to the scaled square root v61, read one
  batch element at a time: each batched [16, 256, 256] value of the reference, sliced at batch element b, is the
  kernel's value of the same step computed from the slice of v7. Only congruence is used: every reference
  operation commutes with the slice and lands on the kernel's operation.
-/
import proofs.«169248_j41953240547848_2_alg».proof.Proof.RefGateLib

noncomputable section

namespace Cert.Bridge.RefGate

open Idealize.ShloMosaic Idealize.ShloMosaic.ValueIdx Cert.KernelIdeal Cert.KernelIdeal.Gen
open Cert.ReferenceIdeal.RefTerm

variable [Cert.KernelIdeal.Facts] [Cert.ReferenceIdeal.Facts]

/-! ## The kernel's later steps, named

The kernel's last payload computes the remaining Newton–Schulz steps and the gate inside one definition; its
intermediate values are named here so that each can be matched with one value of the reference. -/

/-- The f32 zero matrix a product accumulates into. -/
abbrev Z : FVec Ideal S256x256 .f32 := constant (F := Ideal) S256x256 .f32 0x00000000#32
/-- The splat of one half. -/
abbrev half : FVec Ideal S256x256 .f32 := broadcast S256x256 (Scalar.ofBits (F := Ideal) .f32 0x3F000000#32)
/-- The kernel's matrix product accumulated into zero. -/
abbrev mm (l r : FVec Ideal S256x256 .f32) : FVec Ideal S256x256 .f32 :=
  matmul dot_S256x256_S256x256_S256x256_1_0_0_1_n_n (some .fp32) l r Z

def q35 (V : FVec Ideal S256x256 .f32) : FVec Ideal S256x256 .f32 := mm (k0_pay15 V) (k0_pay14 V)
def q38 (V : FVec Ideal S256x256 .f32) : FVec Ideal S256x256 .f32 := mulf half (subf (k0_pay8 (F := Ideal)) (q35 V))
def q39 (V : FVec Ideal S256x256 .f32) : FVec Ideal S256x256 .f32 := mm (k0_pay14 V) (q38 V)
def q40 (V : FVec Ideal S256x256 .f32) : FVec Ideal S256x256 .f32 := mm (q38 V) (k0_pay15 V)
def q41 (V : FVec Ideal S256x256 .f32) : FVec Ideal S256x256 .f32 := mm (q40 V) (q39 V)
def q44 (V : FVec Ideal S256x256 .f32) : FVec Ideal S256x256 .f32 := mulf half (subf (k0_pay8 (F := Ideal)) (q41 V))
def q45 (V : FVec Ideal S256x256 .f32) : FVec Ideal S256x256 .f32 := mm (q39 V) (q44 V)
def q46 (V : FVec Ideal S256x256 .f32) : FVec Ideal S256x256 .f32 := mm (q44 V) (q40 V)
def q47 (V : FVec Ideal S256x256 .f32) : FVec Ideal S256x256 .f32 := mm (q46 V) (q45 V)
def q48 (V : FVec Ideal S256x256 .f32) : FVec Ideal S256x256 .f32 := subf (k0_pay8 (F := Ideal)) (q47 V)
def q49 (V : FVec Ideal S256x256 .f32) : FVec Ideal S256x256 .f32 := mm (q45 V) (q48 V)
def q51 (V : FVec Ideal S256x256 .f32) : FVec Ideal S256x256 .f32 := mulf half (q49 V)
def q53 (V : FVec Ideal S256x256 .f32) : FVec Ideal S256x256 .f32 :=
  broadcastTo S256x256 (sqrt (k0_pay9 V)) broadcasts_S1x1_S256x256
def q54 (V : FVec Ideal S256x256 .f32) : FVec Ideal S256x256 .f32 := mulf (q51 V) (q53 V)

/-! ## The 3·I matrix -/

/-- The kernel's diagonal condition. -/
abbrev dg : IVec S256x256 1 :=
  cmpi .eq (iota .tc S256x256 32 [0] iota_S256x256_d0_w32) (iota .tc S256x256 32 [1] iota_S256x256_d1_w32)

theorem k0_pay7_eq : k0_pay7 (F := Ideal) = select dg (broadcast S256x256 (Scalar.ofBits (F := Ideal) .f32 0x3F800000#32))
    (broadcast S256x256 (Scalar.ofBits (F := Ideal) .f32 0x00000000#32)) := rfl

theorem r_v14_eq : r_main_v14 (F := Ideal) = dg := by
  rw [r_main_v14, r_main_v13, r_main_v10, r_main_v12, r_main_c, r_main_v11]
  exact diag_cond_eq _ _ _

theorem r_call0_v4_eq : r_main_call0_v4 (F := Ideal) = dg := by
  rw [r_main_call0_v4, r_main_call0_v3, r_main_call0_v0, r_main_call0_v2, r_main_call0_c, r_main_call0_v1]
  exact diag_cond_eq _ _ _

/-- The reference's 3·I is the kernel's. -/
theorem r_v17_eq : r_main_v17 (F := Ideal) = k0_pay8 (F := Ideal) := by
  rw [r_main_v17, r_main_v15, r_v14_eq, uitofp_bit_eq_select, r_main_v16, r_main_cst_2]
  rfl

/-! ## The chain, value by value -/

section Chain
variable (x : FVec Ideal Cert.ReferenceIdeal.S16x256x96x96 .f32) (b : Fin 16)

/-- Batch element b of the reference's accumulated product. -/
abbrev V7 : FVec Ideal S256x256 .f32 := slice3 (r_main_v7 (F := Ideal) x) b

theorem s_v9 : slice3 (r_main_v9 (F := Ideal) x) b = k0_pay6 (V7 x b) := by
  rw [r_main_v9, slice3_hostDivf]
  rfl

/-- The trace: the reference's masked double sum is the kernel's sum of lane sums of the product with the 0/1
    diagonal indicator. -/
theorem s_v18 : r_main_v18 (F := Ideal) x (ix1 b) = k0_pay9 (V7 x b) (ix2 (0 : Fin 1) (0 : Fin 1)) := by
  have hL : r_main_v18 (F := Ideal) x (ix1 b)
      = ∑ a : Fin 256, ∑ c : Fin 256, Scalar.select (dg (ix2 a c)) (k0_pay6 (V7 x b) (ix2 a c)) (Ideal.ofBits .f32 0x00000000#32) := by
    simp only [r_main_v18]
    refine (hostReduceAdd_axis12_apply (r_main_call0_v6 (F := Ideal) x) (r_main_call0_cst_0 (F := Ideal)) _ _ b).trans ?_
    have h0 : r_main_call0_cst_0 (F := Ideal) (Shape.Idx.first Cert.ReferenceIdeal.Facts₀.h_S_) = 0 := Ideal.ofBits_zero_f32
    rw [h0, zero_add]
    refine Finset.sum_congr rfl fun a _ => Finset.sum_congr rfl fun c _ => ?_
    have hc : r_main_call0_call0_v0 (F := Ideal) (ix3 b a c) = dg (ix2 a c) := by
      rw [r_main_call0_call0_v0, r_call0_v4_eq]
      refine broadcastInDim_apply (s := Cert.ReferenceIdeal.S256x256) (t := Cert.ReferenceIdeal.S16x256x256) ![1, 2] _ dg (ix3 b a c) (ix2 a c) fun ax => ?_
      match ax with
      | ⟨0, _⟩ => rfl
      | ⟨1, _⟩ => rfl
    have hv : r_main_v9 (F := Ideal) x (ix3 b a c) = k0_pay6 (V7 x b) (ix2 a c) := by
      rw [← s_v9 x b]; rfl
    show Scalar.select (r_main_call0_call0_v0 (F := Ideal) (ix3 b a c)) (r_main_v9 (F := Ideal) x (ix3 b a c)) (Ideal.ofBits .f32 0x00000000#32) = _
    rw [hc, hv]
  have hR : k0_pay9 (V7 x b) (ix2 (0 : Fin 1) (0 : Fin 1))
      = ∑ a : Fin 256, ∑ c : Fin 256, k0_pay6 (V7 x b) (ix2 a c)
          * Scalar.select (dg (ix2 a c)) (Ideal.ofBits .f32 0x3F800000#32) (Ideal.ofBits .f32 0x00000000#32) := by
    unfold k0_pay9
    refine (shapeCast_a_1a_apply _ shapeCasts_S1_S1x1 (0 : Fin 1) (0 : Fin 1)).trans ?_
    refine (multiReduction_axis0_apply (m := 256) (n := 1) _ reduces_S256x1_S1 (.inl rfl) rfl (0 : Fin 1)).trans ?_
    refine Finset.sum_congr rfl fun a _ => ?_
    refine (shapeCast_a_a1_apply _ shapeCasts_S256_S256x1 a (0 : Fin 1)).trans ?_
    refine (multiReduction_axis1_apply (m := 256) (n := 256) _ reduces_S256x256_S256 (.inl rfl) rfl a).trans ?_
    rfl
  rw [hL, hR]
  exact Finset.sum_congr rfl fun a _ => Finset.sum_congr rfl fun c _ => select_zero_eq_mul _ _

theorem s_v20 : slice3 (r_main_v20 (F := Ideal) x) b = broadcastTo S256x256 (k0_pay9 (V7 x b)) broadcasts_S1x1_S256x256 := by
  refine ext2 fun a c => ?_
  rw [slice3_apply, r_main_v20, bcastScalar_apply, r_main_v19, keep11_apply, s_v18, bcast11_apply]

theorem s_v21 : slice3 (r_main_v21 (F := Ideal) x) b = k0_pay10 (V7 x b) := by
  rw [r_main_v21, slice3_hostDivf, s_v9, s_v20]
  rfl

theorem s_v23 : slice3 (r_main_v23 (F := Ideal)) b = k0_pay8 (F := Ideal) := by
  rw [r_main_v23, r_main_v22, slice3_bcastMatrix, r_v17_eq]
theorem s_v30 : slice3 (r_main_v30 (F := Ideal)) b = k0_pay8 (F := Ideal) := by
  rw [r_main_v30, r_main_v29, slice3_bcastMatrix, r_v17_eq]
theorem s_v38 : slice3 (r_main_v38 (F := Ideal)) b = k0_pay8 (F := Ideal) := by
  rw [r_main_v38, r_main_v37, slice3_bcastMatrix, r_v17_eq]
theorem s_v46 : slice3 (r_main_v46 (F := Ideal)) b = k0_pay8 (F := Ideal) := by
  rw [r_main_v46, r_main_v45, slice3_bcastMatrix, r_v17_eq]
theorem s_v54 : slice3 (r_main_v54 (F := Ideal)) b = k0_pay8 (F := Ideal) := by
  rw [r_main_v54, r_main_v53, slice3_bcastMatrix, r_v17_eq]

theorem s_v26 : slice3 (r_main_v26 (F := Ideal) x) b = k0_pay11 (V7 x b) := by
  rw [r_main_v26, slice3_mulf, r_main_v24, slice3_subf, s_v23, s_v21, r_main_v25, r_main_cst_3, slice3_splat]
  rfl

theorem s_v27 : slice3 (r_main_v27 (F := Ideal) x) b = k0_pay12 (V7 x b) := by
  simp only [r_main_v27]
  rw [slice3_dot, s_v21, s_v26]
  rfl

theorem s_v33 : slice3 (r_main_v33 (F := Ideal) x) b = k0_pay13 (V7 x b) := by
  rw [r_main_v33, slice3_mulf, r_main_v31, slice3_subf, s_v30, r_main_v32, r_main_cst_4, slice3_splat]
  simp only [r_main_v28]
  rw [slice3_dot, s_v26, s_v27]
  rfl

theorem s_v34 : slice3 (r_main_v34 (F := Ideal) x) b = k0_pay14 (V7 x b) := by
  simp only [r_main_v34]
  rw [slice3_dot, s_v27, s_v33]
  rfl

theorem s_v35 : slice3 (r_main_v35 (F := Ideal) x) b = k0_pay15 (V7 x b) := by
  simp only [r_main_v35]
  rw [slice3_dot, s_v33, s_v26]
  rfl

theorem s_v41 : slice3 (r_main_v41 (F := Ideal) x) b = q38 (V7 x b) := by
  rw [r_main_v41, slice3_mulf, r_main_v39, slice3_subf, s_v38, r_main_v40, r_main_cst_5, slice3_splat]
  simp only [r_main_v36]
  rw [slice3_dot, s_v35, s_v34]
  rfl

theorem s_v42 : slice3 (r_main_v42 (F := Ideal) x) b = q39 (V7 x b) := by
  simp only [r_main_v42]
  rw [slice3_dot, s_v34, s_v41]
  rfl

theorem s_v43 : slice3 (r_main_v43 (F := Ideal) x) b = q40 (V7 x b) := by
  simp only [r_main_v43]
  rw [slice3_dot, s_v41, s_v35]
  rfl

theorem s_v49 : slice3 (r_main_v49 (F := Ideal) x) b = q44 (V7 x b) := by
  rw [r_main_v49, slice3_mulf, r_main_v47, slice3_subf, s_v46, r_main_v48, r_main_cst_6, slice3_splat]
  simp only [r_main_v44]
  rw [slice3_dot, s_v43, s_v42]
  rfl

theorem s_v50 : slice3 (r_main_v50 (F := Ideal) x) b = q45 (V7 x b) := by
  simp only [r_main_v50]
  rw [slice3_dot, s_v42, s_v49]
  rfl

theorem s_v51 : slice3 (r_main_v51 (F := Ideal) x) b = q46 (V7 x b) := by
  simp only [r_main_v51]
  rw [slice3_dot, s_v49, s_v43]
  rfl

theorem s_v55 : slice3 (r_main_v55 (F := Ideal) x) b = q48 (V7 x b) := by
  rw [r_main_v55, slice3_subf, s_v54]
  simp only [r_main_v52]
  rw [slice3_dot, s_v51, s_v50]
  rfl

theorem s_v58 : slice3 (r_main_v58 (F := Ideal) x) b = q51 (V7 x b) := by
  rw [r_main_v58, slice3_mulf, r_main_v57, r_main_cst_7, slice3_splat]
  simp only [r_main_v56]
  rw [slice3_dot, s_v50, s_v55]
  rfl

theorem s_v60 : slice3 (r_main_v60 (F := Ideal) x) b = q53 (V7 x b) := by
  refine ext2 fun a c => ?_
  rw [slice3_apply, r_main_v60, bcastScalar_apply, q53, bcast11_apply]
  show Ideal.sqrt (r_main_v19 (F := Ideal) x (ix3 b (0 : Fin 1) (0 : Fin 1))) = Ideal.sqrt (k0_pay9 (V7 x b) (ix2 (0 : Fin 1) (0 : Fin 1)))
  rw [r_main_v19, keep11_apply, s_v18]

theorem s_v61 : slice3 (r_main_v61 (F := Ideal) x) b = q54 (V7 x b) := by
  rw [r_main_v61, slice3_mulf, s_v58, s_v60]
  rfl

end Chain

end Cert.Bridge.RefGate

end
-- ==== Proof.RefGate.lean ====
/-
  The reference's gate, batch element by batch element, is the kernel's gate computed from that batch element's
  accumulated product: the column means of the scaled square root, the two dense layers (the reference multiplies
  by the transposed weights, the kernel contracts the weights' last axis), the relu, and the sigmoid, which the
  reference spells 1 / (1 + exp (−·)) and the kernel as one logistic. The output is the gate times the input.
-/
import proofs.«169248_j41953240547848_2_alg».proof.Proof.RefGateNS

noncomputable section

namespace Cert.Bridge.RefGate

open Idealize.ShloMosaic Idealize.ShloMosaic.ValueIdx Idealize.ShloMosaic.StackMember Cert.KernelIdeal Cert.KernelIdeal.Gen
open Cert.ReferenceIdeal.RefTerm

variable [Cert.KernelIdeal.Facts] [Cert.ReferenceIdeal.Facts]

/-! ## The kernel's gate steps, named -/

/-- The column means of the scaled square root, as a row. -/
def q58 (V : FVec Ideal S256x256 .f32) : FVec Ideal S1x256 .f32 :=
  divf (shapeCast S1x256 (multiReduction .add [0] S256 (q54 V) 0x00000000#32 reduces_S256x256_S256_2 (.inl rfl) rfl)
      shapeCasts_S256_S1x256)
    (broadcast S1x256 (Scalar.ofBits (F := Ideal) .f32 0x43800000#32))

/-- The first dense layer with its bias and relu. -/
def q67 (V : FVec Ideal S256x256 .f32) (w1 : FVec Ideal S32x256 .f32) (b1 : FVec Ideal S32 .f32) : FVec Ideal S1x32 .f32 :=
  maximumf (addf (matmul dot_S1x256_S32x256_S1x32_1_1_0_0_n_n none (q58 V) w1 (constant (F := Ideal) S1x32 .f32 0x00000000#32))
      (shapeCast S1x32 b1 shapeCasts_S32_S1x32))
    (broadcast S1x32 (Scalar.ofBits (F := Ideal) .f32 0x00000000#32))

/-- The second dense layer with its bias. -/
def q70 (V : FVec Ideal S256x256 .f32) (w1 : FVec Ideal S32x256 .f32) (b1 : FVec Ideal S32 .f32)
    (w2 : FVec Ideal S256x32 .f32) (b2 : FVec Ideal S256 .f32) : FVec Ideal S1x256 .f32 :=
  addf (matmul dot_S1x32_S256x32_S1x256_1_1_0_0_n_n none (q67 V w1 b1) w2 (constant (F := Ideal) S1x256 .f32 0x00000000#32))
    (shapeCast S1x256 b2 shapeCasts_S256_S1x256)

/-- The kernel's gate column is the transposed logistic of the second layer's row. -/
theorem gateK_eq (V : FVec Ideal S256x256 .f32) (w1 : FVec Ideal S32x256 .f32) (b1 : FVec Ideal S32 .f32)
    (w2 : FVec Ideal S256x32 .f32) (b2 : FVec Ideal S256 .f32) :
    gateK V w1 b1 w2 b2 = transpose S256x1 [1, 0] (logistic (q70 V w1 b1 w2 b2)) transposes_S1x256_p1_0_S256x1 := rfl

/-! ## Rows of the reference's [16, ·] values -/

/-- A vector laid along every row of a [G, n] array (through a [1, n] intermediate) reads its entry. -/
theorem bcastRow_apply {α : Type} {G n : Nat} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![G, n]⟩ ![0, 1]) (g : Fin G) (o : Fin n) :
    broadcastInDim ⟨2, ![G, n]⟩ ![0, 1] h2 (broadcastInDim ⟨2, ![1, n]⟩ ![1] h1 v) (ix2 g o) = v (ix1 o) := by
  refine (broadcastInDim_oneRow_apply h2 _ g o).trans ?_
  refine broadcastInDim_apply ![1] h1 v (ix2 (0 : Fin 1) o) (ix1 o) fun ax => ?_
  match ax with
  | ⟨0, _⟩ =>
    show o.val = if n = 1 then 0 else o.val
    split
    · have := o.isLt; omega
    · rfl

section Rows
variable (x : FVec Ideal Cert.ReferenceIdeal.S16x256x96x96 .f32) (w1 : FVec Ideal Cert.ReferenceIdeal.S32x256 .f32)
  (b1 : FVec Ideal Cert.ReferenceIdeal.S32 .f32) (w2 : FVec Ideal Cert.ReferenceIdeal.S256x32 .f32)
  (b2 : FVec Ideal Cert.ReferenceIdeal.S256 .f32) (b : Fin 16)

theorem row_v64 (c : Fin 256) : r_main_v64 (F := Ideal) x (ix2 b c) = q58 (V7 x b) (ix2 (0 : Fin 1) c) := by
  have hs : r_main_v62 (F := Ideal) x (ix2 b c) = ∑ a : Fin 256, q54 (V7 x b) (ix2 a c) := by
    simp only [r_main_v62]
    refine (hostReduceAdd_axis1_apply (r_main_v61 (F := Ideal) x) (r_main_cst_8 (F := Ideal)) _ _ b c).trans ?_
    have h0 : r_main_cst_8 (F := Ideal) (Shape.Idx.first Cert.ReferenceIdeal.Facts₀.h_S_) = 0 := Ideal.ofBits_zero_f32
    rw [h0, zero_add]
    refine Finset.sum_congr rfl fun a _ => ?_
    rw [← s_v61 x b]; rfl
  have hk : multiReduction .add [0] S256 (q54 (V7 x b)) 0x00000000#32 reduces_S256x256_S256_2 (.inl rfl) rfl (ix1 c)
      = ∑ a : Fin 256, q54 (V7 x b) (ix2 a c) :=
    multiReduction_axis0_apply (m := 256) (n := 256) _ _ (.inl rfl) rfl c
  have hq : q58 (V7 x b) (ix2 (0 : Fin 1) c)
      = Ideal.div (∑ a : Fin 256, q54 (V7 x b) (ix2 a c)) (Ideal.ofBits .f32 0x43800000#32) := by
    rw [← hk]
    exact congrArg (fun t => Ideal.div t (Ideal.ofBits .f32 0x43800000#32))
      (shapeCast_a_1a_apply _ shapeCasts_S256_S1x256 (0 : Fin 1) c)
  rw [hq, ← hs]
  rfl

theorem row_v66 (o : Fin 32) : r_main_v66 (F := Ideal) x w1 (ix2 b o)
    = matmul dot_S1x256_S32x256_S1x32_1_1_0_0_n_n none (q58 (V7 x b)) w1 (constant (F := Ideal) S1x32 .f32 0x00000000#32)
        (ix2 (0 : Fin 1) o) := by
  simp only [r_main_v66]
  refine (dotGeneral_plain_apply (m := 16) (k := 256) (n := 32) none (r_main_v64 (F := Ideal) x) (r_main_v65 (F := Ideal) w1) b o).trans ?_
  refine Eq.symm ((matmul_transposedRhs_apply (m := 1) (k := 256) (n := 32) dot_S1x256_S32x256_S1x32_1_1_0_0_n_n_wf none
    (q58 (V7 x b)) w1 (0 : Fin 1) o).trans ?_)
  refine Finset.sum_congr rfl fun c _ => ?_
  rw [row_v64, r_main_v65]
  exact congrArg (_ * ·) (transpose_ix2_apply w1 _ c o).symm

theorem row_v70 (o : Fin 32) : r_main_v70 (F := Ideal) x w1 b1 (ix2 b o) = q67 (V7 x b) w1 b1 (ix2 (0 : Fin 1) o) := by
  have hb : r_main_v68 (F := Ideal) b1 (ix2 b o) = b1 (ix1 o) := by
    rw [r_main_v68, r_main_v67]; exact bcastRow_apply b1 _ _ b o
  have hk : shapeCast S1x32 b1 shapeCasts_S32_S1x32 (ix2 (0 : Fin 1) o) = b1 (ix1 o) := shapeCast_a_1a_apply b1 _ _ o
  show max (r_main_v66 (F := Ideal) x w1 (ix2 b o) + r_main_v68 (F := Ideal) b1 (ix2 b o)) (Ideal.ofBits .f32 0x00000000#32)
    = max (matmul dot_S1x256_S32x256_S1x32_1_1_0_0_n_n none (q58 (V7 x b)) w1 (constant (F := Ideal) S1x32 .f32 0x00000000#32)
        (ix2 (0 : Fin 1) o) + shapeCast S1x32 b1 shapeCasts_S32_S1x32 (ix2 (0 : Fin 1) o)) (Ideal.ofBits .f32 0x00000000#32)
  rw [row_v66, hb, hk]

theorem row_v72 (c : Fin 256) : r_main_v72 (F := Ideal) x w1 b1 w2 (ix2 b c)
    = matmul dot_S1x32_S256x32_S1x256_1_1_0_0_n_n none (q67 (V7 x b) w1 b1) w2 (constant (F := Ideal) S1x256 .f32 0x00000000#32)
        (ix2 (0 : Fin 1) c) := by
  simp only [r_main_v72]
  refine (dotGeneral_plain_apply (m := 16) (k := 32) (n := 256) none (r_main_v70 (F := Ideal) x w1 b1) (r_main_v71 (F := Ideal) w2) b c).trans ?_
  refine Eq.symm ((matmul_transposedRhs_apply (m := 1) (k := 32) (n := 256) dot_S1x32_S256x32_S1x256_1_1_0_0_n_n_wf none
    (q67 (V7 x b) w1 b1) w2 (0 : Fin 1) c).trans ?_)
  refine Finset.sum_congr rfl fun o _ => ?_
  rw [row_v70, r_main_v71]
  exact congrArg (_ * ·) (transpose_ix2_apply w2 _ o c).symm

theorem row_v75 (c : Fin 256) : r_main_v75 (F := Ideal) x w1 b1 w2 b2 (ix2 b c) = q70 (V7 x b) w1 b1 w2 b2 (ix2 (0 : Fin 1) c) := by
  have hb : r_main_v74 (F := Ideal) b2 (ix2 b c) = b2 (ix1 c) := by
    rw [r_main_v74, r_main_v73]; exact bcastRow_apply b2 _ _ b c
  have hk : shapeCast S1x256 b2 shapeCasts_S256_S1x256 (ix2 (0 : Fin 1) c) = b2 (ix1 c) := shapeCast_a_1a_apply b2 _ _ c
  show r_main_v72 (F := Ideal) x w1 b1 w2 (ix2 b c) + r_main_v74 (F := Ideal) b2 (ix2 b c)
    = matmul dot_S1x32_S256x32_S1x256_1_1_0_0_n_n none (q67 (V7 x b) w1 b1) w2 (constant (F := Ideal) S1x256 .f32 0x00000000#32)
        (ix2 (0 : Fin 1) c) + shapeCast S1x256 b2 shapeCasts_S256_S1x256 (ix2 (0 : Fin 1) c)
  rw [row_v72, hb, hk]

end Rows

/-! ## The two statements -/

/-- The reference's gate at batch element b, channel c, is the kernel's gate column, computed from batch element
    b of the reference's accumulated product, at row c. -/
theorem gate_eq (x : FVec Ideal Cert.ReferenceIdeal.S16x256x96x96 .f32) (w1 : FVec Ideal Cert.ReferenceIdeal.S32x256 .f32)
    (b1 : FVec Ideal Cert.ReferenceIdeal.S32 .f32) (w2 : FVec Ideal Cert.ReferenceIdeal.S256x32 .f32)
    (b2 : FVec Ideal Cert.ReferenceIdeal.S256 .f32) (b : Fin 16) (c : Fin 256) :
    Cert.ReferenceIdeal.RefTerm.r_main_v81 (F := Ideal) x w1 b1 w2 b2 (ix2 b c)
      = Cert.Bridge.gateK (Cert.Bridge.slice3 (Cert.ReferenceIdeal.RefTerm.r_main_v7 (F := Ideal) x) b) w1 b1 w2 b2
          (ix2 c (0 : Fin 1)) := by
  rw [gateK_eq]
  refine Eq.symm ((transpose_ix2_apply _ transposes_S1x256_p1_0_S256x1 c (0 : Fin 1)).trans ?_)
  have h1 : Ideal.ofBits .f32 0x3F800000#32 = 1 := IdealRules.sign_bit.ideal_onePat .f32
  show Ideal.logistic (q70 (V7 x b) w1 b1 w2 b2 (ix2 (0 : Fin 1) c))
    = Ideal.div (Ideal.ofBits .f32 0x3F800000#32)
        (Ideal.ofBits .f32 0x3F800000#32 + Ideal.exp (-(r_main_v75 (F := Ideal) x w1 b1 w2 b2 (ix2 b c))))
  rw [row_v75, h1]
  rfl

/-- The reference's output is its gate times the input, entry by entry. -/
theorem out_eq (x : FVec Ideal Cert.ReferenceIdeal.S16x256x96x96 .f32) (w1 : FVec Ideal Cert.ReferenceIdeal.S32x256 .f32)
    (b1 : FVec Ideal Cert.ReferenceIdeal.S32 .f32) (w2 : FVec Ideal Cert.ReferenceIdeal.S256x32 .f32)
    (b2 : FVec Ideal Cert.ReferenceIdeal.S256 .f32) (b : Fin 16) (c : Fin 256) (h w : Fin 96) :
    Cert.ReferenceIdeal.RefTerm.r_main_v84 (F := Ideal) x w1 b1 w2 b2 (ix4 b c h w)
      = Cert.ReferenceIdeal.RefTerm.r_main_v81 (F := Ideal) x w1 b1 w2 b2 (ix2 b c) * x (ix4 b c h w) := by
  have hg : r_main_v83 (F := Ideal) x w1 b1 w2 b2 (ix4 b c h w) = r_main_v81 (F := Ideal) x w1 b1 w2 b2 (ix2 b c) := by
    rw [r_main_v83, r_main_v82]
    refine (broadcastInDim_apply (s := Cert.ReferenceIdeal.S16x256x1x1) (t := Cert.ReferenceIdeal.S16x256x96x96)
      ![0, 1, 2, 3] _ _ (ix4 b c h w) (ix4 b c (0 : Fin 1) (0 : Fin 1)) fun ax => ?_).trans ?_
    · match ax with
      | ⟨0, _⟩ => rfl
      | ⟨1, _⟩ => rfl
      | ⟨2, _⟩ => rfl
      | ⟨3, _⟩ => rfl
    · refine broadcastInDim_apply (s := Cert.ReferenceIdeal.S16x256) (t := Cert.ReferenceIdeal.S16x256x1x1)
        ![0, 1] _ _ (ix4 b c (0 : Fin 1) (0 : Fin 1)) (ix2 b c) fun ax => ?_
      match ax with
      | ⟨0, _⟩ => rfl
      | ⟨1, _⟩ => rfl
  rw [← hg]
  rfl

end Cert.Bridge.RefGate

end
-- ==== Proof.CovAlgebra.lean ====
/-
  The algebra behind the covariance step, over the reals.  Three facts: the coercion of the reals into the
  extended reals commutes with finite sums; the deviations of finitely many numbers from their mean sum to
  zero; hence a sum of products of two centred families equals the sum with only the first family centred.
  Sums run over an initial segment of the naturals, so that a sum over consecutive column chunks is a sum
  over a longer segment (`Finset.sum_range_add`).
-/
import Idealize.ShloMosaic.PureOps.Ideal

open scoped BigOperators

namespace Cert.Bridge.CovAlgebra

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `Fin m` of reals read at the index's value, coerced termwise, is the coerced sum over the first `m` naturals. -/
theorem coe_sum_fin (g : ℕ → ℝ) (m : ℕ) :
    ∑ q : Fin m, ((g q.val : ℝ) : EReal) = ((∑ q ∈ Finset.range m, g q : ℝ) : EReal) := by
  rw [coe_sum, Fin.sum_univ_eq_sum_range (fun q => ((g q : ℝ) : EReal)) m]

/-- Adding the next `m` terms to the sum of the first `a`: the sum of the first `a + m`. -/
theorem acc_step (g : ℕ → ℝ) (a m : ℕ) :
    ((∑ p ∈ Finset.range a, g p : ℝ) : EReal) + ∑ q : Fin m, ((g (a + q.val) : ℝ) : EReal)
      = ((∑ p ∈ Finset.range (a + m), g p : ℝ) : EReal) := by
  rw [coe_sum_fin (fun q => g (a + q)) m, ← EReal.coe_add, Finset.sum_range_add]

/-- The mean of the first `N` values of `f`, written as the sum times the reciprocal of `N`. -/
noncomputable def mean (N : ℕ) (f : ℕ → ℝ) : ℝ := (∑ q ∈ Finset.range N, f q) * (1 / (N : ℝ))

/-- Deviations from the mean sum to zero. -/
theorem sum_centred (N : ℕ) (hN : N ≠ 0) (f : ℕ → ℝ) :
    ∑ p ∈ Finset.range N, (f p - mean N f) = 0 := by
  have hN' : (N : ℝ) ≠ 0 := by exact_mod_cast hN
  rw [Finset.sum_sub_distrib, Finset.sum_const, Finset.card_range, nsmul_eq_mul, mean]
  field_simp
  ring

/-- Σ (f − mean f)(g − mean g) = Σ (f − mean f) g: the second mean multiplies a sum that vanishes. -/
theorem cov_identity (N : ℕ) (hN : N ≠ 0) (f g : ℕ → ℝ) :
    ∑ p ∈ Finset.range N, (f p - mean N f) * (g p - mean N g)
      = ∑ p ∈ Finset.range N, (f p - mean N f) * g p := by
  have h : ∀ p, (f p - mean N f) * (g p - mean N g) = (f p - mean N f) * g p - (f p - mean N f) * mean N g :=
    fun p => by ring
  simp only [h]
  rw [Finset.sum_sub_distrib, ← Finset.sum_mul, sum_centred N hN f, zero_mul, sub_zero]

end Cert.Bridge.CovAlgebra
-- ==== Proof.CovEq.lean ====
/-
  The covariance step.  For one batch element, with X the [256, 9216] matrix of its entries (channel by
  flattened position), the kernel accumulates over 8 column chunks of 1152 first the row sums S_c and then
  Σ (X c p − S_c / 9216)(X d p − S_d / 9216); the reference forms Σ_p (X c p − S_c / 9216) · X d p in one batched
  product.  Each operation is read at an index as a sum of extended reals; on finite entries both are
  coerced real sums, and the real identity is Cert.Bridge.CovAlgebra.cov_identity.
-/
import proofs.«169248_j41953240547848_2_alg».proof.Proof.Spec
import proofs.«169248_j41953240547848_2_alg».proof.Proof.CovAlgebra
import Idealize.ShloMosaic.Lib.ValueLayout
import Idealize.ShloMosaic.PureOps.Ideal.Laws

noncomputable section

namespace Cert.Bridge.CovEq

open Idealize.ShloMosaic Idealize.ShloMosaic.ValueIdx Cert.KernelIdeal Cert.KernelIdeal.Gen Cert.Bridge
open scoped BigOperators

variable [Cert.KernelIdeal.Facts] [Cert.ReferenceIdeal.Facts]

/-! ## The kernel's two accumulation steps read at an index -/

/-- A lane sum's column, read at row `c`. -/
theorem colCast_apply (v : FVec Ideal S256 .f32) (h : S256.ShapeCasts S256x1) (c : Fin 256) (z : Fin 1) :
    shapeCast S256x1 v h (ix2 c z) = v (ix1 c) :=
  shapeCast_apply v _ _ _ (by
    have hz : z.val = 0 := by omega
    rw [Shape.rowMajor_val_one, Shape.rowMajor_val_two]
    show c.val = c.val * 1 + z.val
    omega)

/-- One row-sum step at row `c`: the accumulator plus the chunk's row sum. -/
theorem pay3_apply (arg8 : FVec Ideal S256x1 .f32) (v77 : Vec Ideal S1x256x1152 .f32) (c : Fin 256) (z : Fin 1) :
    k0_pay3 (F := Ideal) arg8 v77 (ix2 c z) = arg8 (ix2 c z) + ∑ q : Fin 1152, v77 (ix3 (0 : Fin 1) c q) := by
  unfold k0_pay3
  show arg8 (ix2 c z) + _ = _
  refine congrArg (arg8 (ix2 c z) + ·) ?_
  refine (colCast_apply _ _ c z).trans ?_
  refine (Ideal.multiReduction_add_single _ _ _ _ _ (ix1 c)).trans ?_
  refine Finset.sum_congr rfl fun q _ => ?_
  exact shapeCast_1ab_ab_apply v77 _ c q

/-- A column broadcast along the lanes, read at (c, q): the column's entry in row `c`. -/
theorem colBroadcast_apply (v : FVec Ideal S256x1 .f32) (h : S256x1.Broadcasts S256x1152) (c : Fin 256) (q : Fin 1152) :
    broadcastTo S256x1152 v h (ix2 c q) = v (ix2 c (0 : Fin 1)) := by
  refine broadcastTo_apply v h (ix2 c q) (ix2 c (0 : Fin 1)) fun ax => ?_
  match ax with
  | ⟨0, _⟩ => rfl
  | ⟨1, _⟩ => rfl

/-- The product of a [256, 1152] matrix with its own transpose into the zero accumulator, read at (c, d). -/
theorem gram_apply (W : FVec Ideal S256x1152 .bf16) (c d : Fin 256) :
    matmul dot_S256x1152_S256x1152_S256x256_1_1_0_0_n_n none W W (constant (F := Ideal) S256x256 .f32 0x00000000#32) (ix2 c d)
      = ∑ q : Fin 1152, W (ix2 c q) * W (ix2 d q) := by
  show FloatOps.matmul _ none W W _ (ix2 c d) = _
  rw [Ideal.matmul_constant_zero_apply,
    ← Equiv.sum_comp (contrEquiv1 dot_S256x1152_S256x1152_S256x256_1_1_0_0_n_n 1152 rfl rfl).symm]
  refine Finset.sum_congr rfl fun q _ => ?_
  have cq := contrEquiv1_symm_val dot_S256x1152_S256x1152_S256x256_1_1_0_0_n_n 1152 rfl rfl q
  have l2 : dot_S256x1152_S256x1152_S256x256_1_1_0_0_n_n.lhsIdx (ix2 c d)
      ((contrEquiv1 _ 1152 rfl rfl).symm q) = ix2 c q := by
    funext ax; apply Fin.ext
    match ax with
    | ⟨0, _⟩ => simp [DotDims.lhsIdx, dot_S256x1152_S256x1152_S256x256_1_1_0_0_n_n]; rfl
    | ⟨1, _⟩ => simp [DotDims.lhsIdx, dot_S256x1152_S256x1152_S256x256_1_1_0_0_n_n]; exact cq
  have r2 : dot_S256x1152_S256x1152_S256x256_1_1_0_0_n_n.rhsIdx (ix2 c d)
      ((contrEquiv1 _ 1152 rfl rfl).symm q) = ix2 d q := by
    funext ax; apply Fin.ext
    match ax with
    | ⟨0, _⟩ => simp [DotDims.rhsIdx, dot_S256x1152_S256x1152_S256x256_1_1_0_0_n_n]; rfl
    | ⟨1, _⟩ => simp [DotDims.rhsIdx, dot_S256x1152_S256x1152_S256x256_1_1_0_0_n_n]; exact cq
  rw [l2, r2]

/-- One covariance step at (c, d): the accumulator plus the chunk's sum of products of centred entries. -/
theorem pay5_apply (v2 : FVec Ideal S256x1 .f32) (arg8 : FVec Ideal S256x256 .f32) (v77 : Vec Ideal S1x256x1152 .f32)
    (c d : Fin 256) :
    k0_pay5 (F := Ideal) v2 arg8 v77 (ix2 c d) = arg8 (ix2 c d) + ∑ q : Fin 1152,
      (v77 (ix3 (0 : Fin 1) c q) - Ideal.div (v2 (ix2 c (0 : Fin 1))) (Ideal.ofBits .f32 0x46100000#32))
        * (v77 (ix3 (0 : Fin 1) d q) - Ideal.div (v2 (ix2 d (0 : Fin 1))) (Ideal.ofBits .f32 0x46100000#32)) := by
  unfold k0_pay5
  show arg8 (ix2 c d) + _ = _
  refine congrArg (arg8 (ix2 c d) + ·) ?_
  refine (gram_apply _ c d).trans ?_
  refine Finset.sum_congr rfl fun q _ => ?_
  show (shapeCast S256x1152 v77 _ (ix2 c q) - broadcastTo S256x1152 _ _ (ix2 c q))
      * (shapeCast S256x1152 v77 _ (ix2 d q) - broadcastTo S256x1152 _ _ (ix2 d q)) = _
  rw [shapeCast_1ab_ab_apply, shapeCast_1ab_ab_apply, colBroadcast_apply, colBroadcast_apply]
  rfl

/-! ## The divisor -/

/-- The divisor's word denotes the real 9216. -/
theorem ofBits_9216 : Ideal.ofBits .f32 0x46100000#32 = (((9216 : ℕ) : ℝ) : EReal) := by
  simp [Ideal.ofBits, Ideal.ieee, -EReal.coe_mul]; norm_num

/-- A real row sum divided by the divisor is the row's mean. -/
theorem div_9216 (s : ℝ) :
    Ideal.div (s : EReal) (Ideal.ofBits .f32 0x46100000#32) = ((s * (1 / ((9216 : ℕ) : ℝ)) : ℝ) : EReal) := by
  rw [ofBits_9216, Ideal.div_coe (by norm_num), ← EReal.coe_mul]

/-! ## The reference's values read at an index -/

section Reference
open Cert.ReferenceIdeal.RefTerm

/-- The reshaped input at (b, c, p) is the input at (b, c, p / 96, p % 96). -/
theorem v0_apply (x : FVec Ideal Cert.ReferenceIdeal.S16x256x96x96 .f32) (b : Fin 16) (c : Fin 256) (p : Fin 9216) :
    r_main_v0 (F := Ideal) x (ix3 b c p)
      = x (ix4 b c (⟨p.val / 96, by have := p.isLt; omega⟩ : Fin 96) (⟨p.val % 96, Nat.mod_lt _ (by decide)⟩ : Fin 96)) := by
  unfold r_main_v0
  refine shapeCast_apply x _ _ _ ?_
  rw [Shape.rowMajor_val_four, Shape.rowMajor_val_three]
  show ((b.val * 256 + c.val) * 96 + p.val / 96) * 96 + p.val % 96 = (b.val * 256 + c.val) * 9216 + p.val
  omega

/-- The row sums at (b, c): zero plus the sum of row `c` of batch element `b`. -/
theorem v1_apply (x : FVec Ideal Cert.ReferenceIdeal.S16x256x96x96 .f32) (b : Fin 16) (c : Fin 256) :
    r_main_v1 (F := Ideal) x (ix2 b c) = 0 + ∑ p : Fin 9216, r_main_v0 (F := Ideal) x (ix3 b c p) := by
  unfold r_main_v1
  show Ideal.hostReduceAdd _ (r_main_v0 (F := Ideal) x) _ (ix2 b c) = _
  have hR : Cert.ReferenceIdeal.S16x256x9216.Reduces [2] Cert.ReferenceIdeal.S16x256 := by decide
  refine (Ideal.hostReduceAdd_single _ hR _ _ (ix2 b c)).trans ?_
  refine congrArg₂ (· + ·) Ideal.ofBits_zero_f32 (Finset.sum_congr rfl fun p _ => congrArg _ ?_)
  funext ax
  match ax with
  | ⟨0, _⟩ => rfl
  | ⟨1, _⟩ => rfl
  | ⟨2, _⟩ => rfl

/-- The row sums as a [16, 256, 1] column. -/
theorem v2_apply (x : FVec Ideal Cert.ReferenceIdeal.S16x256x96x96 .f32) (b : Fin 16) (c : Fin 256) (z : Fin 1) :
    r_main_v2 (F := Ideal) x (ix3 b c z) = r_main_v1 (F := Ideal) x (ix2 b c) := by
  unfold r_main_v2
  refine broadcastInDim_apply _ _ _ (ix3 b c z) (ix2 b c) fun ax => ?_
  match ax with
  | ⟨0, _⟩ => rfl
  | ⟨1, _⟩ => rfl

/-- The divisor, a splat of one word. -/
theorem v3_apply (j : Cert.ReferenceIdeal.S16x256x1.Idx) :
    r_main_v3 (F := Ideal) j = Ideal.ofBits .f32 0x46100000#32 := by
  unfold r_main_v3
  exact broadcastInDim_apply _ _ _ j ix0 fun ax => ax.elim0

/-- The row means at (b, c). -/
theorem v4_apply (x : FVec Ideal Cert.ReferenceIdeal.S16x256x96x96 .f32) (b : Fin 16) (c : Fin 256) (z : Fin 1) :
    r_main_v4 (F := Ideal) x (ix3 b c z)
      = Ideal.div (r_main_v1 (F := Ideal) x (ix2 b c)) (Ideal.ofBits .f32 0x46100000#32) := by
  unfold r_main_v4
  show Ideal.div (r_main_v2 (F := Ideal) x (ix3 b c z)) (r_main_v3 (F := Ideal) (ix3 b c z)) = _
  rw [v2_apply, v3_apply]

/-- The row means broadcast along the positions. -/
theorem v5_apply (x : FVec Ideal Cert.ReferenceIdeal.S16x256x96x96 .f32) (b : Fin 16) (c : Fin 256) (p : Fin 9216) :
    r_main_v5 (F := Ideal) x (ix3 b c p) = r_main_v4 (F := Ideal) x (ix3 b c (0 : Fin 1)) := by
  unfold r_main_v5
  refine broadcastInDim_apply _ _ _ (ix3 b c p) (ix3 b c (0 : Fin 1)) fun ax => ?_
  match ax with
  | ⟨0, _⟩ => rfl
  | ⟨1, _⟩ => rfl
  | ⟨2, _⟩ => rfl

/-- The batched product of two [16, 256, 9216] arrays over their last axes, read at (b, c, d). -/
theorem bgram_apply (A B : FVec Ideal Cert.ReferenceIdeal.S16x256x9216 .f32) (b : Fin 16) (c d : Fin 256) :
    Host.dotGeneral Cert.ReferenceIdeal.dot_S16x256x9216_S16x256x9216_S16x256x256_2_2_1_1_0_0 none A B (ix3 b c d) = ∑ p : Fin 9216, A (ix3 b c p) * B (ix3 b d p) := by
  show FloatOps.dotGeneral _ none _ A B (ix3 b c d) = _
  rw [Ideal.dotGeneral_apply, ← Equiv.sum_comp (contrEquiv1 Cert.ReferenceIdeal.dot_S16x256x9216_S16x256x9216_S16x256x256_2_2_1_1_0_0 9216 rfl rfl).symm]
  refine Finset.sum_congr rfl fun p _ => ?_
  have cp := contrEquiv1_symm_val Cert.ReferenceIdeal.dot_S16x256x9216_S16x256x9216_S16x256x256_2_2_1_1_0_0 9216 rfl rfl p
  have l3 : (Cert.ReferenceIdeal.dot_S16x256x9216_S16x256x9216_S16x256x256_2_2_1_1_0_0).lhsIdx (ix3 b c d) ((contrEquiv1 _ 9216 rfl rfl).symm p) = ix3 b c p := by
    funext ax; apply Fin.ext
    match ax with
    | ⟨0, _⟩ => simp [DotDims.lhsIdx, Cert.ReferenceIdeal.dot_S16x256x9216_S16x256x9216_S16x256x256_2_2_1_1_0_0]; rfl
    | ⟨1, _⟩ => simp [DotDims.lhsIdx, Cert.ReferenceIdeal.dot_S16x256x9216_S16x256x9216_S16x256x256_2_2_1_1_0_0]; rfl
    | ⟨2, _⟩ => simp [DotDims.lhsIdx, Cert.ReferenceIdeal.dot_S16x256x9216_S16x256x9216_S16x256x256_2_2_1_1_0_0]; exact cp
  have r3 : (Cert.ReferenceIdeal.dot_S16x256x9216_S16x256x9216_S16x256x256_2_2_1_1_0_0).rhsIdx (ix3 b c d) ((contrEquiv1 _ 9216 rfl rfl).symm p) = ix3 b d p := by
    funext ax; apply Fin.ext
    match ax with
    | ⟨0, _⟩ => simp [DotDims.rhsIdx, Cert.ReferenceIdeal.dot_S16x256x9216_S16x256x9216_S16x256x256_2_2_1_1_0_0]; rfl
    | ⟨1, _⟩ => simp [DotDims.rhsIdx, Cert.ReferenceIdeal.dot_S16x256x9216_S16x256x9216_S16x256x256_2_2_1_1_0_0]; rfl
    | ⟨2, _⟩ => simp [DotDims.rhsIdx, Cert.ReferenceIdeal.dot_S16x256x9216_S16x256x9216_S16x256x256_2_2_1_1_0_0]; exact cp
  rw [l3, r3]

/-- The batched product of the centred rows with the rows, read at (b, c, d). -/
theorem v7_apply (x : FVec Ideal Cert.ReferenceIdeal.S16x256x96x96 .f32) (b : Fin 16) (c d : Fin 256) :
    r_main_v7 (F := Ideal) x (ix3 b c d)
      = ∑ p : Fin 9216, (r_main_v0 (F := Ideal) x (ix3 b c p)
            - Ideal.div (r_main_v1 (F := Ideal) x (ix2 b c)) (Ideal.ofBits .f32 0x46100000#32))
          * r_main_v0 (F := Ideal) x (ix3 b d p) := by
  unfold r_main_v7
  refine (bgram_apply (r_main_v6 (F := Ideal) x) (r_main_v0 (F := Ideal) x) b c d).trans ?_
  refine Finset.sum_congr rfl fun p _ => ?_
  unfold r_main_v6
  show (r_main_v0 (F := Ideal) x (ix3 b c p) - r_main_v5 (F := Ideal) x (ix3 b c p)) * _ = _
  rw [v5_apply, v4_apply]

/-- The reference's product at (b, c, d) as a coerced real sum: rows centred on the left only. -/
theorem v7_real (x : FVec Ideal Cert.ReferenceIdeal.S16x256x96x96 .f32) (b : Fin 16) (X : Fin 256 → ℕ → ℝ)
    (hX : ∀ (c : Fin 256) (p : Fin 9216),
      x (ix4 b c (⟨p.val / 96, by have := p.isLt; omega⟩ : Fin 96) (⟨p.val % 96, Nat.mod_lt _ (by decide)⟩ : Fin 96))
        = ((X c p.val : ℝ) : EReal)) (c d : Fin 256) :
    r_main_v7 (F := Ideal) x (ix3 b c d)
      = ((∑ p ∈ Finset.range 9216, (X c p - CovAlgebra.mean 9216 (X c)) * X d p : ℝ) : EReal) := by
  have h0 : ∀ (c : Fin 256) (p : Fin 9216), r_main_v0 (F := Ideal) x (ix3 b c p) = ((X c p.val : ℝ) : EReal) :=
    fun c p => (v0_apply x b c p).trans (hX c p)
  have h1 : r_main_v1 (F := Ideal) x (ix2 b c) = ((∑ p ∈ Finset.range 9216, X c p : ℝ) : EReal) := by
    rw [v1_apply, zero_add]
    simp only [h0]
    exact CovAlgebra.coe_sum_fin (X c) 9216
  rw [v7_apply, h1, div_9216]
  simp only [h0, ← EReal.coe_sub, ← EReal.coe_mul]
  exact CovAlgebra.coe_sum_fin (fun p => (X c p - CovAlgebra.mean 9216 (X c)) * X d p) 9216

end Reference

/-! ## Real entries: the kernel's accumulators as coerced real sums -/

section Kernel
variable (x0 : Vec Ideal S1x256x9216 .f32) (X : Fin 256 → ℕ → ℝ)
  (hX : ∀ (c : Fin 256) (p : Fin 9216), x0 (ix3 (0 : Fin 1) c p) = ((X c p.val : ℝ) : EReal))
include hX

/-- Chunk `n` at (c, q) is the block's entry at position 1152 n + q. -/
theorem chunk_apply (n : ℕ) (hn : n < 8) (c : Fin 256) (q : Fin 1152) :
    chunk x0 ⟨n, hn⟩ (ix3 (0 : Fin 1) c q) = ((X c (1152 * n + q.val) : ℝ) : EReal) :=
  hX c ⟨1152 * n + q.val, by have := q.isLt; omega⟩

/-- After `n` chunks the row-sum accumulator holds the sum of the first 1152 n entries of each row. -/
theorem meanAcc_apply (n : ℕ) (hn : n ≤ 8) (c : Fin 256) (z : Fin 1) :
    meanAcc x0 n (ix2 c z) = ((∑ p ∈ Finset.range (1152 * n), X c p : ℝ) : EReal) := by
  induction n with
  | zero =>
    show Ideal.ofBits .f32 0x00000000#32 = _
    rw [Ideal.ofBits_zero_f32]; simp
  | succ n ih =>
    have hn' : n < 8 := by omega
    have e : meanAcc x0 (n + 1) = k0_pay3 (F := Ideal) (meanAcc x0 n) (chunk x0 ⟨n, hn'⟩) := dif_pos hn'
    rw [e, pay3_apply, ih (by omega)]
    simp only [chunk_apply x0 X hX n hn']
    rw [(by omega : 1152 * (n + 1) = 1152 * n + 1152)]
    exact CovAlgebra.acc_step (X c) (1152 * n) 1152

/-- The mean column the covariance steps subtract: each row's mean. -/
theorem mean_apply (c : Fin 256) :
    Ideal.div (meanAcc x0 8 (ix2 c (0 : Fin 1))) (Ideal.ofBits .f32 0x46100000#32)
      = ((CovAlgebra.mean 9216 (X c) : ℝ) : EReal) := by
  rw [meanAcc_apply x0 X hX 8 le_rfl c 0, div_9216]
  rfl

/-- After `n` chunks the covariance accumulator holds the sum over the first 1152 n positions of the
    products of the centred entries. -/
theorem covAcc_apply (n : ℕ) (hn : n ≤ 8) (c d : Fin 256) :
    covAcc x0 n (ix2 c d) = ((∑ p ∈ Finset.range (1152 * n),
        (X c p - CovAlgebra.mean 9216 (X c)) * (X d p - CovAlgebra.mean 9216 (X d)) : ℝ) : EReal) := by
  induction n with
  | zero =>
    show Ideal.ofBits .f32 0x00000000#32 = _
    rw [Ideal.ofBits_zero_f32]; simp
  | succ n ih =>
    have hn' : n < 8 := by omega
    have e : covAcc x0 (n + 1) = k0_pay5 (F := Ideal) (meanAcc x0 8) (covAcc x0 n) (chunk x0 ⟨n, hn'⟩) := dif_pos hn'
    rw [e, pay5_apply, ih (by omega), mean_apply x0 X hX c, mean_apply x0 X hX d]
    simp only [chunk_apply x0 X hX n hn', ← EReal.coe_sub, ← EReal.coe_mul]
    rw [(by omega : 1152 * (n + 1) = 1152 * n + 1152)]
    exact CovAlgebra.acc_step (fun p => (X c p - CovAlgebra.mean 9216 (X c)) * (X d p - CovAlgebra.mean 9216 (X d)))
      (1152 * n) 1152

end Kernel

open Cert.ReferenceIdeal.RefTerm in
/-- The kernel's chunked covariance accumulation of batch element `b` is the reference's batched product
    at `b`: over the reals the deviations of a row from its mean sum to zero, so centring the second
    factor as well changes nothing, and the sum over chunks and lanes is the sum over positions. -/
theorem cov_eq (x : FVec Ideal Cert.ReferenceIdeal.S16x256x96x96 .f32) (hx : ∀ i, ∃ r : ℝ, x i = (r : EReal)) (b : Fin 16) :
    Cert.Bridge.covAcc (Cert.Bridge.xblock x b) 8
      = Cert.Bridge.slice3 (Cert.ReferenceIdeal.RefTerm.r_main_v7 (F := Ideal) x) b := by
  choose r hr using hx
  -- the real entries of batch element `b` by channel and flattened position (zero past the last position)
  let X : Fin 256 → ℕ → ℝ := fun c p =>
    if h : p < 9216 then r (ix4 b c (⟨p / 96, by omega⟩ : Fin 96) (⟨p % 96, Nat.mod_lt _ (by decide)⟩ : Fin 96)) else 0
  have hX : ∀ (c : Fin 256) (p : Fin 9216),
      x (ix4 b c (⟨p.val / 96, by have := p.isLt; omega⟩ : Fin 96) (⟨p.val % 96, Nat.mod_lt _ (by decide)⟩ : Fin 96))
        = ((X c p.val : ℝ) : EReal) := fun c p => by
    rw [hr]; simp only [X, dif_pos p.isLt]
  funext j
  obtain ⟨c, d, rfl⟩ : ∃ (c d : Fin 256), j = ix2 c d := ⟨j 0, j 1, eq_ix2 j⟩
  rw [covAcc_apply (xblock x b) X (fun c p => hX c p) 8 le_rfl c d]
  show _ = r_main_v7 (F := Ideal) x (ix3 b c d)
  rw [v7_real x b X hX c d]
  exact congrArg _ (CovAlgebra.cov_identity 9216 (by norm_num) (X c) (X d))

end Cert.Bridge.CovEq
end
-- ==== Proof.PreFin.lean ====
/-
  What the precondition gives: every entry of the first argument is a real number. The precondition is the
  conjunction, over the five arguments, of "every entry has absolute value below +∞"; its first conjunct, read at
  one entry, says max(x, −x) < ⊤, which on the extended reals excludes both infinities.
-/
import proofs.«169248_j41953240547848_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Bridge.PreFin

open Idealize.ShloMosaic Idealize.ShloMosaic.ValueIdx Cert.Pre_finite_inputs

variable [Cert.Pre_finite_inputs.Facts]

instance : Subsingleton S_.Idx := ⟨fun a b => funext fun d => d.elim0⟩

/-- An extended real whose absolute value is below the pattern of +∞ is a real. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- Under the precondition every entry of the first argument is a real. -/
theorem x_finite (x : FVec Ideal S16x256x96x96 .f32) (w1 : FVec Ideal S32x256 .f32) (b1 : FVec Ideal S32 .f32)
    (w2 : FVec Ideal S256x32 .f32) (b2 : FVec Ideal S256 .f32)
    (h : fn (F := Ideal) x w1 b1 w2 b2 = fun _ => 1#1) (i : S16x256x96x96.Idx) : ∃ r : ℝ, x i = (r : EReal) := by
  have h0 := congrFun h ix0
  dsimp only [fn, fn_part1] at h0
  have h1 := (IntOp.andi_eq_one.mp h0).1
  have h2 := (IntOp.andi_eq_one.mp h1).1
  have h3 := (IntOp.andi_eq_one.mp h2).1
  have h4 := (IntOp.andi_eq_one.mp h3).1
  have h5 := Host.reduce_andi_all _ _ _ _ ix0 h4 i
  exact real_of_abs_lt_top (x i) h5

end Cert.Bridge.PreFin

end
-- ==== Proof.lean ====
/-
  The certificate's claim for the fused kernel (per batch element: covariance pooling of the [256, 9216] matrix of
  channels × positions, five Newton–Schulz steps toward the matrix square root of the trace-normalised covariance,
  column means, a two-layer gate with relu and sigmoid, output = input × gate) against the plain reference.

  At the extended reals both programs compute, at (b, c, h, w), the input's entry times gate_b(c). The kernel's gate
  is `gateK` of its accumulated covariance sum (KTrip, KValue, KFinal: the three chunk loops read as values, the 16
  blocks tiling the result, the reshape back); the reference's gate is the same `gateK` of batch element b of its
  batched product (X − mean) Xᵀ (RefGate: congruence, operation by operation, over the reference's run RefRun); and
  the two covariance sums agree because the centred rows sum to zero, Σ_p (X c p − mean c) = 0, so
  Σ_p (X c p − mean c)(X d p − mean d) = Σ_p (X c p − mean c) X d p — an identity of REAL numbers, which is where
  the precondition (every input finite) is used (CovEq, PreFin). The product commutes: x · gate = gate · x.
  The three frames are the generated ones (the reference's: its run with the result dropped); the idealisation
  rewrote no operation, so `preserves` is trivial.
-/
import proofs.«169248_j41953240547848_2_alg».proof.Defs
import proofs.«169248_j41953240547848_2_alg».proof.Proof.Gen.Kernel
import proofs.«169248_j41953240547848_2_alg».proof.Proof.Gen.Kernel.Frame
import proofs.«169248_j41953240547848_2_alg».proof.Proof.Gen.KernelIdeal
import proofs.«169248_j41953240547848_2_alg».proof.Proof.Gen.KernelIdeal.Frame
import proofs.«169248_j41953240547848_2_alg».proof.Proof.Gen.ReferenceIdeal
import proofs.«169248_j41953240547848_2_alg».proof.Proof.Gen.Pre_finite_inputs
import proofs.«169248_j41953240547848_2_alg».proof.Proof.KFinal
import proofs.«169248_j41953240547848_2_alg».proof.Proof.RefRun
import proofs.«169248_j41953240547848_2_alg».proof.Proof.RefGate
import proofs.«169248_j41953240547848_2_alg».proof.Proof.CovEq
import proofs.«169248_j41953240547848_2_alg».proof.Proof.PreFin
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The two results as functions of the (finite) argument arrays are one function: at (b, c, h, w) both are the
    input's entry times the gate of batch element b at channel c. -/
theorem result_eq (x : FVec Ideal Cert.ReferenceIdeal.S16x256x96x96 .f32) (w1 : FVec Ideal Cert.ReferenceIdeal.S32x256 .f32)
    (b1 : FVec Ideal Cert.ReferenceIdeal.S32 .f32) (w2 : FVec Ideal Cert.ReferenceIdeal.S256x32 .f32)
    (b2 : FVec Ideal Cert.ReferenceIdeal.S256 .f32) (hx : ∀ i, ∃ r : ℝ, x i = (r : EReal)) :
    Cert.ReferenceIdeal.RefTerm.r_main_v84 (F := Ideal) x w1 b1 w2 b2 = Cert.KernelIdeal.Hand.kernelResult x w1 b1 w2 b2 := by
  funext i
  obtain ⟨b, c, h, w, rfl⟩ : ∃ (b : Fin 16) (c : Fin 256) (h w : Fin 96), i = ix4 b c h w := ⟨i 0, i 1, i 2, i 3, eq_ix4 i⟩
  rw [Cert.KernelIdeal.Hand.kernelResult_apply, Cert.Bridge.RefGate.out_eq, Cert.Bridge.RefGate.gate_eq,
    Cert.Bridge.CovEq.cov_eq x hx b]
  exact mul_comm _ _

theorem algebraic : Cert.algebraic_KernelIdeal_ReferenceIdeal := by
  intro m ρ m' ρ' hpre hagree
  refine ⟨fun c => Cert.KernelIdeal.Hand.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact result_eq _ _ _ _ _ (Cert.Bridge.PreFin.x_finite _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
